-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x341x4 : Shape := ⟨4, ![256, 64, 341, 4]⟩
abbrev S_ : Shape := ⟨0, ![]⟩

class Facts : Prop where
  bcast_S_S256x64x341x4 : S_.BroadcastsInDim S256x64x341x4 (![] : Fin 0 → Fin S256x64x341x4.rank)
  reducesTo_S256x64x341x4_S_d0_1_2_3 : S256x64x341x4.ReducesTo [0, 1, 2, 3] S_
  h_S_ : 0 < S_.numel

variable [Facts]

def fn {F : FTy → Type} [FloatOps F] (main_arg0 : FVec F S256x64x341x4 .f32) : IVec S_ 1 :=
  let main_v0 : FVec F S256x64x341x4 .f32 := Host.absf main_arg0
  let main_cst : FVec F S_ .f32 := constant S_ .f32 0x7F800000#32
  let main_v1 : FVec F S256x64x341x4 .f32 := broadcastInDim S256x64x341x4 ![] bcast_S_S256x64x341x4 main_cst
  let main_v2 : IVec S256x64x341x4 1 := cmpf .olt main_v0 main_v1
  let main_c : IVec S_ 1 := constantI S_ 1 1#1
  let main_v3 : IVec S_ 1 := (fun x v => Host.reduce IntOp.andi x v reducesTo_S256x64x341x4_S_d0_1_2_3 h_S_) main_v2 main_c
  main_v3
-- ==== Kernel.lean ====
abbrev S256x64x341x4 : Shape := ⟨4, ![256, 64, 341, 4]⟩
abbrev S341 : Shape := ⟨1, ![341]⟩
abbrev S_ : Shape := ⟨0, ![]⟩
abbrev S341x1 : Shape := ⟨2, ![341, 1]⟩
abbrev S341x4x256x64 : Shape := ⟨4, ![341, 4, 256, 64]⟩
abbrev S341x4x16384 : Shape := ⟨3, ![341, 4, 16384]⟩
abbrev S16384x1024 : Shape := ⟨2, ![16384, 1024]⟩
abbrev S341x4x512 : Shape := ⟨3, ![341, 4, 512]⟩
abbrev S512x1024 : Shape := ⟨2, ![512, 1024]⟩
abbrev S341x512 : Shape := ⟨2, ![341, 512]⟩
abbrev S341x1x512 : Shape := ⟨3, ![341, 1, 512]⟩
abbrev S1x512 : Shape := ⟨2, ![1, 512]⟩
abbrev S1x4x512 : Shape := ⟨3, ![1, 4, 512]⟩
abbrev S1x1x512 : Shape := ⟨3, ![1, 1, 512]⟩
abbrev S4x512 : Shape := ⟨2, ![4, 512]⟩
abbrev S4x4x512 : Shape := ⟨3, ![4, 4, 512]⟩
abbrev S4x1x512 : Shape := ⟨3, ![4, 1, 512]⟩
abbrev S16x512 : Shape := ⟨2, ![16, 512]⟩
abbrev S16x4x512 : Shape := ⟨3, ![16, 4, 512]⟩
abbrev S16x1x512 : Shape := ⟨3, ![16, 1, 512]⟩
abbrev S64x512 : Shape := ⟨2, ![64, 512]⟩
abbrev S64x4x512 : Shape := ⟨3, ![64, 4, 512]⟩
abbrev S64x1x512 : Shape := ⟨3, ![64, 1, 512]⟩
abbrev S256x512 : Shape := ⟨2, ![256, 512]⟩
abbrev S256x4x512 : Shape := ⟨3, ![256, 4, 512]⟩
abbrev S256x1x512 : Shape := ⟨3, ![256, 1, 512]⟩
abbrev S1024x512 : Shape := ⟨2, ![1024, 512]⟩
abbrev S256x64x1024 : Shape := ⟨3, ![256, 64, 1024]⟩

abbrev nBuf : Space → Nat
  | .hbm => 13
  | .vmem => 4
  | .smem => 0
  | _ => 0

abbrev bufTy : (tb : Table) → Fin (tcTables nBuf tb) → BufTy
  | .hbm, ⟨0, _⟩ => ⟨S256x64x341x4, .f32⟩
  | .hbm, ⟨1, _⟩ => ⟨S341, .i32⟩
  | .hbm, ⟨2, _⟩ => ⟨S341, .i1⟩
  | .hbm, ⟨3, _⟩ => ⟨S_, .i32⟩
  | .hbm, ⟨4, _⟩ => ⟨S341, .i32⟩
  | .hbm, ⟨5, _⟩ => ⟨S341, .i32⟩
  | .hbm, ⟨6, _⟩ => ⟨S341, .i32⟩
  | .hbm, ⟨7, _⟩ => ⟨S341x1, .i32⟩
  | .hbm, ⟨8, _⟩ => ⟨S256x64x341x4, .f32⟩
  | .hbm, ⟨9, _⟩ => ⟨S341x4x256x64, .f32⟩
  | .hbm, ⟨10, _⟩ => ⟨S341x4x16384, .f32⟩
  | .hbm, ⟨11, _⟩ => ⟨S16384x1024, .f32⟩
  | .hbm, ⟨12, _⟩ => ⟨S256x64x1024, .f32⟩
  | .local _ .vmem, ⟨0, _⟩ => ⟨S341x4x512, .f32⟩
  | .local _ .vmem, ⟨1, _⟩ => ⟨S341x4x512, .f32⟩
  | .local _ .vmem, ⟨2, _⟩ => ⟨S512x1024, .f32⟩
  | .local _ .vmem, ⟨3, _⟩ => ⟨S512x1024, .f32⟩
  | _, _ => ⟨S256x64x341x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S341x4x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  bcast_S_S341 : S_.BroadcastsInDim S341 (![] : Fin 0 → Fin S341.rank)
  bcast_S341_S341x1_0 : S341.BroadcastsInDim S341x1 (![0] : Fin 1 → Fin S341x1.rank)
  transposes_S256x64x341x4_S341x4x256x64_2_3_0_1 : S256x64x341x4.Transposes [2, 3, 0, 1] S341x4x256x64
  shapeCasts_S341x4x256x64_S341x4x16384 : S341x4x256x64.ShapeCasts S341x4x16384
  inb_S341x4x512_S341x4x512_0_0_0 : ∀ a, (![0, 0, 0] : Fin 3 → Nat) a + S341x4x512.size a ≤ S341x4x512.size a
  h_S341x4x512 : 0 < S341x4x512.numel
  shapeCasts_S341x4x512_S341x4x512 : S341x4x512.ShapeCasts S341x4x512
  reduces_S341x4x512_S341x512 : S341x4x512.Reduces [1] S341x512
  shapeCasts_S341x512_S341x1x512 : S341x512.ShapeCasts S341x1x512
  broadcasts_S341x1x512_S341x4x512 : S341x1x512.Broadcasts S341x4x512
  slices_S341x4x512_o0_0_0_S1x4x512 : S341x4x512.Slices ![0, 0, 0] S1x4x512
  shapeCasts_S1x512_S1x1x512 : S1x512.ShapeCasts S1x1x512
  broadcasts_S1x1x512_S1x4x512 : S1x1x512.Broadcasts S1x4x512
  shapeCasts_S1x4x512_S4x512 : S1x4x512.ShapeCasts S4x512
  slices_S341x4x512_o1_0_0_S4x4x512 : S341x4x512.Slices ![1, 0, 0] S4x4x512
  shapeCasts_S4x512_S4x1x512 : S4x512.ShapeCasts S4x1x512
  broadcasts_S4x1x512_S4x4x512 : S4x1x512.Broadcasts S4x4x512
  shapeCasts_S4x4x512_S16x512 : S4x4x512.ShapeCasts S16x512
  slices_S341x4x512_o5_0_0_S16x4x512 : S341x4x512.Slices ![5, 0, 0] S16x4x512
  shapeCasts_S16x512_S16x1x512 : S16x512.ShapeCasts S16x1x512
  broadcasts_S16x1x512_S16x4x512 : S16x1x512.Broadcasts S16x4x512
  shapeCasts_S16x4x512_S64x512 : S16x4x512.ShapeCasts S64x512
  slices_S341x4x512_o21_0_0_S64x4x512 : S341x4x512.Slices ![21, 0, 0] S64x4x512
  shapeCasts_S64x512_S64x1x512 : S64x512.ShapeCasts S64x1x512
  broadcasts_S64x1x512_S64x4x512 : S64x1x512.Broadcasts S64x4x512
  shapeCasts_S64x4x512_S256x512 : S64x4x512.ShapeCasts S256x512
  slices_S341x4x512_o85_0_0_S256x4x512 : S341x4x512.Slices ![85, 0, 0] S256x4x512
  shapeCasts_S256x512_S256x1x512 : S256x512.ShapeCasts S256x1x512
  broadcasts_S256x1x512_S256x4x512 : S256x1x512.Broadcasts S256x4x512
  shapeCasts_S256x4x512_S1024x512 : S256x4x512.ShapeCasts S1024x512
  transposes_S1024x512_p1_0_S512x1024 : S1024x512.Transposes [1, 0] S512x1024
  inb_S512x1024_S512x1024_0_0 : ∀ a, (![0, 0] : Fin 2 → Nat) a + S512x1024.size a ≤ S512x1024.size a
  h_S512x1024 : 0 < S512x1024.numel
  shapeCasts_S16384x1024_S256x64x1024 : S16384x1024.ShapeCasts S256x64x1024
  gather_S256x64x341x4_S341x1_S256x64x341x4_013_2_n_n_2_1_2566414_wf : GatherDims.WF S256x64x341x4 S341x1 S256x64x341x4 [0, 1, 3] [2] [] [2] [] 1 ![256, 64, 1, 4]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S341x4x512.size a ≤ S341x4x16384.size a
  hwx0_0 : ∀ i : grid0.Coords, EltTy.bits .f32 = 32 ∨ (Rect.block (s := S341x4x16384) S341x4x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)

variable [Facts₀]

def gather_S256x64x341x4_S341x1_S256x64x341x4_013_2_n_n_2_1_2566414 : GatherDims S256x64x341x4 S341x1 S256x64x341x4 where
  offsetDims := [0, 1, 3]
  collapsedSliceDims := [2]
  operandBatchingDims := []
  startIndicesBatchingDims := []
  startIndexMap := [2]
  indexVectorDim := 1
  sliceSizes := ![256, 64, 1, 4]
  wf := gather_S256x64x341x4_S341x1_S256x64x341x4_013_2_n_n_2_1_2566414_wf

abbrev win0_0 : Pipeline.Window sig grid0 :=
  Pipeline.Window.ofSpec (Memref.whole main_v6) S341x4x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S256x64x341x4 : Shape := ⟨4, ![256, 64, 341, 4]⟩
abbrev S1 : Shape := ⟨1, ![1]⟩
abbrev S4 : Shape := ⟨1, ![4]⟩
abbrev S16 : Shape := ⟨1, ![16]⟩
abbrev S64 : Shape := ⟨1, ![64]⟩
abbrev S256 : Shape := ⟨1, ![256]⟩
abbrev S_ : Shape := ⟨0, ![]⟩
abbrev S256x64x341 : Shape := ⟨3, ![256, 64, 341]⟩
abbrev S256x64x341x1 : Shape := ⟨4, ![256, 64, 341, 1]⟩
abbrev S256x64x1 : Shape := ⟨3, ![256, 64, 1]⟩
abbrev S1x1 : Shape := ⟨2, ![1, 1]⟩
abbrev S256x64x1x4 : Shape := ⟨4, ![256, 64, 1, 4]⟩
abbrev S256x64x1x1 : Shape := ⟨4, ![256, 64, 1, 1]⟩
abbrev S256x64x4 : Shape := ⟨3, ![256, 64, 4]⟩
abbrev S4x1 : Shape := ⟨2, ![4, 1]⟩
abbrev S256x64x4x4 : Shape := ⟨4, ![256, 64, 4, 4]⟩
abbrev S256x64x4x1 : Shape := ⟨4, ![256, 64, 4, 1]⟩
abbrev S256x64x16 : Shape := ⟨3, ![256, 64, 16]⟩
abbrev S16x1 : Shape := ⟨2, ![16, 1]⟩
abbrev S256x64x16x4 : Shape := ⟨4, ![256, 64, 16, 4]⟩
abbrev S256x64x16x1 : Shape := ⟨4, ![256, 64, 16, 1]⟩
abbrev S256x64x64 : Shape := ⟨3, ![256, 64, 64]⟩
abbrev S64x1 : Shape := ⟨2, ![64, 1]⟩
abbrev S256x64x64x4 : Shape := ⟨4, ![256, 64, 64, 4]⟩
abbrev S256x64x64x1 : Shape := ⟨4, ![256, 64, 64, 1]⟩
abbrev S256x64x256 : Shape := ⟨3, ![256, 64, 256]⟩
abbrev S256x1 : Shape := ⟨2, ![256, 1]⟩
abbrev S256x64x256x4 : Shape := ⟨4, ![256, 64, 256, 4]⟩
abbrev S256x64x256x1 : Shape := ⟨4, ![256, 64, 256, 1]⟩
abbrev S256x64x1024 : Shape := ⟨3, ![256, 64, 1024]⟩

abbrev nBuf : Space → Nat
  | .hbm => 156
  | .vmem => 0
  | .smem => 0
  | _ => 0

abbrev hbmTy0_0 (i : Nat) : BufTy := match i % 128 with
  | 0 => ⟨S256x64x341x4, .f32⟩
  | 1 => ⟨S1, .i32⟩
  | 2 => ⟨S4, .i32⟩
  | 3 => ⟨S16, .i32⟩
  | 4 => ⟨S64, .i32⟩
  | 5 => ⟨S256, .i32⟩
  | 6 => ⟨S_, .f32⟩
  | 7 => ⟨S256x64x341, .f32⟩
  | 8 => ⟨S_, .f32⟩
  | 9 => ⟨S256x64x341, .f32⟩
  | 10 => ⟨S256x64x341, .f32⟩
  | 11 => ⟨S256x64x341x1, .f32⟩
  | 12 => ⟨S256x64x341x4, .f32⟩
  | 13 => ⟨S256x64x341x4, .f32⟩
  | 14 => ⟨S256x64x341x4, .f32⟩
  | 15 => ⟨S_, .f32⟩
  | 16 => ⟨S256x64x341, .f32⟩
  | 17 => ⟨S256x64x341x1, .f32⟩
  | 18 => ⟨S256x64x341x4, .f32⟩
  | 19 => ⟨S256x64x341x4, .f32⟩
  | 20 => ⟨S_, .f32⟩
  | 21 => ⟨S256x64x1, .f32⟩
  | 22 => ⟨S_, .i32⟩
  | 23 => ⟨S1, .i32⟩
  | 24 => ⟨S1, .i1⟩
  | 25 => ⟨S_, .i32⟩
  | 26 => ⟨S1, .i32⟩
  | 27 => ⟨S1, .i32⟩
  | 28 => ⟨S1, .i32⟩
  | 29 => ⟨S1x1, .i32⟩
  | 30 => ⟨S1, .i32⟩
  | 31 => ⟨S_, .i32⟩
  | 32 => ⟨S1x1, .i32⟩
  | 33 => ⟨S1x1, .i1⟩
  | 34 => ⟨S1x1, .i32⟩
  | 35 => ⟨S1x1, .i1⟩
  | 36 => ⟨S1x1, .i1⟩
  | 37 => ⟨S_, .i1⟩
  | 38 => ⟨S1, .i1⟩
  | 39 => ⟨S256x64x1x4, .f32⟩
  | 40 => ⟨S256x64x1x4, .i1⟩
  | 41 => ⟨S_, .f32⟩
  | 42 => ⟨S256x64x1x4, .f32⟩
  | 43 => ⟨S256x64x1x4, .f32⟩
  | 44 => ⟨S256x64x1x1, .f32⟩
  | 45 => ⟨S256x64x1x4, .f32⟩
  | 46 => ⟨S256x64x1x4, .f32⟩
  | 47 => ⟨S256x64x4, .f32⟩
  | 48 => ⟨S_, .i32⟩
  | 49 => ⟨S4, .i32⟩
  | 50 => ⟨S4, .i1⟩
  | 51 => ⟨S_, .i32⟩
  | 52 => ⟨S4, .i32⟩
  | 53 => ⟨S4, .i32⟩
  | 54 => ⟨S4, .i32⟩
  | 55 => ⟨S4x1, .i32⟩
  | 56 => ⟨S1, .i32⟩
  | 57 => ⟨S_, .i32⟩
  | 58 => ⟨S4x1, .i32⟩
  | 59 => ⟨S4x1, .i1⟩
  | 60 => ⟨S1x1, .i32⟩
  | 61 => ⟨S4x1, .i32⟩
  | 62 => ⟨S4x1, .i1⟩
  | 63 => ⟨S4x1, .i1⟩
  | 64 => ⟨S_, .i1⟩
  | 65 => ⟨S4, .i1⟩
  | 66 => ⟨S256x64x4x4, .f32⟩
  | 67 => ⟨S256x64x4x4, .i1⟩
  | 68 => ⟨S_, .f32⟩
  | 69 => ⟨S256x64x4x4, .f32⟩
  | 70 => ⟨S256x64x4x4, .f32⟩
  | 71 => ⟨S256x64x4x1, .f32⟩
  | 72 => ⟨S256x64x4x4, .f32⟩
  | 73 => ⟨S256x64x4x4, .f32⟩
  | 74 => ⟨S256x64x16, .f32⟩
  | 75 => ⟨S_, .i32⟩
  | 76 => ⟨S16, .i32⟩
  | 77 => ⟨S16, .i1⟩
  | 78 => ⟨S_, .i32⟩
  | 79 => ⟨S16, .i32⟩
  | 80 => ⟨S16, .i32⟩
  | 81 => ⟨S16, .i32⟩
  | 82 => ⟨S16x1, .i32⟩
  | 83 => ⟨S1, .i32⟩
  | 84 => ⟨S_, .i32⟩
  | 85 => ⟨S16x1, .i32⟩
  | 86 => ⟨S16x1, .i1⟩
  | 87 => ⟨S1x1, .i32⟩
  | 88 => ⟨S16x1, .i32⟩
  | 89 => ⟨S16x1, .i1⟩
  | 90 => ⟨S16x1, .i1⟩
  | 91 => ⟨S_, .i1⟩
  | 92 => ⟨S16, .i1⟩
  | 93 => ⟨S256x64x16x4, .f32⟩
  | 94 => ⟨S256x64x16x4, .i1⟩
  | 95 => ⟨S_, .f32⟩
  | 96 => ⟨S256x64x16x4, .f32⟩
  | 97 => ⟨S256x64x16x4, .f32⟩
  | 98 => ⟨S256x64x16x1, .f32⟩
  | 99 => ⟨S256x64x16x4, .f32⟩
  | 100 => ⟨S256x64x16x4, .f32⟩
  | 101 => ⟨S256x64x64, .f32⟩
  | 102 => ⟨S_, .i32⟩
  | 103 => ⟨S64, .i32⟩
  | 104 => ⟨S64, .i1⟩
  | 105 => ⟨S_, .i32⟩
  | 106 => ⟨S64, .i32⟩
  | 107 => ⟨S64, .i32⟩
  | 108 => ⟨S64, .i32⟩
  | 109 => ⟨S64x1, .i32⟩
  | 110 => ⟨S1, .i32⟩
  | 111 => ⟨S_, .i32⟩
  | 112 => ⟨S64x1, .i32⟩
  | 113 => ⟨S64x1, .i1⟩
  | 114 => ⟨S1x1, .i32⟩
  | 115 => ⟨S64x1, .i32⟩
  | 116 => ⟨S64x1, .i1⟩
  | 117 => ⟨S64x1, .i1⟩
  | 118 => ⟨S_, .i1⟩
  | 119 => ⟨S64, .i1⟩
  | 120 => ⟨S256x64x64x4, .f32⟩
  | 121 => ⟨S256x64x64x4, .i1⟩
  | 122 => ⟨S_, .f32⟩
  | 123 => ⟨S256x64x64x4, .f32⟩
  | 124 => ⟨S256x64x64x4, .f32⟩
  | 125 => ⟨S256x64x64x1, .f32⟩
  | 126 => ⟨S256x64x64x4, .f32⟩
  | 127 => ⟨S256x64x64x4, .f32⟩
  | _ => ⟨S256x64x341x4, .f32⟩

abbrev hbmTy0_1 (i : Nat) : BufTy := match i % 128 with
  | 0 => ⟨S256x64x256, .f32⟩
  | 1 => ⟨S_, .i32⟩
  | 2 => ⟨S256, .i32⟩
  | 3 => ⟨S256, .i1⟩
  | 4 => ⟨S_, .i32⟩
  | 5 => ⟨S256, .i32⟩
  | 6 => ⟨S256, .i32⟩
  | 7 => ⟨S256, .i32⟩
  | 8 => ⟨S256x1, .i32⟩
  | 9 => ⟨S1, .i32⟩
  | 10 => ⟨S_, .i32⟩
  | 11 => ⟨S256x1, .i32⟩
  | 12 => ⟨S256x1, .i1⟩
  | 13 => ⟨S1x1, .i32⟩
  | 14 => ⟨S256x1, .i32⟩
  | 15 => ⟨S256x1, .i1⟩
  | 16 => ⟨S256x1, .i1⟩
  | 17 => ⟨S_, .i1⟩
  | 18 => ⟨S256, .i1⟩
  | 19 => ⟨S256x64x256x4, .f32⟩
  | 20 => ⟨S256x64x256x4, .i1⟩
  | 21 => ⟨S_, .f32⟩
  | 22 => ⟨S256x64x256x4, .f32⟩
  | 23 => ⟨S256x64x256x4, .f32⟩
  | 24 => ⟨S256x64x256x1, .f32⟩
  | 25 => ⟨S256x64x256x4, .f32⟩
  | 26 => ⟨S256x64x256x4, .f32⟩
  | 27 => ⟨S256x64x1024, .f32⟩
  | _ => ⟨S256x64x341x4, .f32⟩

abbrev hbmTy (i : Nat) : BufTy := match i / 128 with
  | 0 => hbmTy0_0 i
  | 1 => hbmTy0_1 i
  | _ => ⟨S256x64x341x4, .f32⟩

abbrev bufTy : (tb : Table) → Fin (tcTables nBuf tb) → BufTy
  | .hbm, ⟨i, _⟩ => hbmTy i
  | _, _ => ⟨S256x64x341x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_cst : Ref sig .tc := ⟨.hbm, 6, rfl⟩
abbrev main_v0 : Ref sig .tc := ⟨.hbm, 7, rfl⟩
abbrev main_cst_4 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_5 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_c_3 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_cst : Ref sig .tc := ⟨.hbm, 41, rfl⟩
abbrev main_call0_v14 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_call2_c : Ref sig .tc := ⟨.hbm, 75, rfl⟩
abbrev main_call2_v0 : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_c_1 : Ref sig .tc := ⟨.hbm, 83, rfl⟩
abbrev main_call2_c_2 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_c_3 : Ref sig .tc := ⟨.hbm, 91, rfl⟩
abbrev main_call2_v12 : Ref sig .tc := ⟨.hbm, 92, rfl⟩
abbrev main_call2_v13 : Ref sig .tc := ⟨.hbm, 93, rfl⟩
abbrev main_call2_v14 : Ref sig .tc := ⟨.hbm, 94, rfl⟩
abbrev main_call2_cst : Ref sig .tc := ⟨.hbm, 95, rfl⟩
abbrev main_call2_v15 : Ref sig .tc := ⟨.hbm, 96, rfl⟩
abbrev main_v22 : Ref sig .tc := ⟨.hbm, 97, rfl⟩
abbrev main_v23 : Ref sig .tc := ⟨.hbm, 98, rfl⟩
abbrev main_v24 : Ref sig .tc := ⟨.hbm, 99, rfl⟩
abbrev main_v25 : Ref sig .tc := ⟨.hbm, 100, rfl⟩
abbrev main_v26 : Ref sig .tc := ⟨.hbm, 101, rfl⟩
abbrev main_call3_c : Ref sig .tc := ⟨.hbm, 102, rfl⟩
abbrev main_call3_v0 : Ref sig .tc := ⟨.hbm, 103, rfl⟩
abbrev main_call3_v1 : Ref sig .tc := ⟨.hbm, 104, rfl⟩
abbrev main_call3_c_0 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_call3_v5 : Ref sig .tc := ⟨.hbm, 109, rfl⟩
abbrev main_call3_c_1 : Ref sig .tc := ⟨.hbm, 110, rfl⟩
abbrev main_call3_c_2 : Ref sig .tc := ⟨.hbm, 111, rfl⟩
abbrev main_call3_v6 : Ref sig .tc := ⟨.hbm, 112, rfl⟩
abbrev main_call3_v7 : Ref sig .tc := ⟨.hbm, 113, rfl⟩
abbrev main_call3_v8 : Ref sig .tc := ⟨.hbm, 114, rfl⟩
abbrev main_call3_v9 : Ref sig .tc := ⟨.hbm, 115, rfl⟩
abbrev main_call3_v10 : Ref sig .tc := ⟨.hbm, 116, rfl⟩
abbrev main_call3_v11 : Ref sig .tc := ⟨.hbm, 117, rfl⟩
abbrev main_call3_c_3 : Ref sig .tc := ⟨.hbm, 118, rfl⟩
abbrev main_call3_v12 : Ref sig .tc := ⟨.hbm, 119, rfl⟩
abbrev main_call3_v13 : Ref sig .tc := ⟨.hbm, 120, rfl⟩
abbrev main_call3_v14 : Ref sig .tc := ⟨.hbm, 121, rfl⟩
abbrev main_call3_cst : Ref sig .tc := ⟨.hbm, 122, rfl⟩
abbrev main_call3_v15 : Ref sig .tc := ⟨.hbm, 123, rfl⟩
abbrev main_v27 : Ref sig .tc := ⟨.hbm, 124, rfl⟩
abbrev main_v28 : Ref sig .tc := ⟨.hbm, 125, rfl⟩
abbrev main_v29 : Ref sig .tc := ⟨.hbm, 126, rfl⟩
abbrev main_v30 : Ref sig .tc := ⟨.hbm, 127, rfl⟩
abbrev main_v31 : Ref sig .tc := ⟨.hbm, 128, rfl⟩
abbrev main_call4_c : Ref sig .tc := ⟨.hbm, 129, rfl⟩
abbrev main_call4_v0 : Ref sig .tc := ⟨.hbm, 130, rfl⟩
abbrev main_call4_v1 : Ref sig .tc := ⟨.hbm, 131, rfl⟩
abbrev main_call4_c_0 : Ref sig .tc := ⟨.hbm, 132, rfl⟩
abbrev main_call4_v2 : Ref sig .tc := ⟨.hbm, 133, rfl⟩
abbrev main_call4_v3 : Ref sig .tc := ⟨.hbm, 134, rfl⟩
abbrev main_call4_v4 : Ref sig .tc := ⟨.hbm, 135, rfl⟩
abbrev main_call4_v5 : Ref sig .tc := ⟨.hbm, 136, rfl⟩
abbrev main_call4_c_1 : Ref sig .tc := ⟨.hbm, 137, rfl⟩
abbrev main_call4_c_2 : Ref sig .tc := ⟨.hbm, 138, rfl⟩
abbrev main_call4_v6 : Ref sig .tc := ⟨.hbm, 139, rfl⟩
abbrev main_call4_v7 : Ref sig .tc := ⟨.hbm, 140, rfl⟩
abbrev main_call4_v8 : Ref sig .tc := ⟨.hbm, 141, rfl⟩
abbrev main_call4_v9 : Ref sig .tc := ⟨.hbm, 142, rfl⟩
abbrev main_call4_v10 : Ref sig .tc := ⟨.hbm, 143, rfl⟩
abbrev main_call4_v11 : Ref sig .tc := ⟨.hbm, 144, rfl⟩
abbrev main_call4_c_3 : Ref sig .tc := ⟨.hbm, 145, rfl⟩
abbrev main_call4_v12 : Ref sig .tc := ⟨.hbm, 146, rfl⟩
abbrev main_call4_v13 : Ref sig .tc := ⟨.hbm, 147, rfl⟩
abbrev main_call4_v14 : Ref sig .tc := ⟨.hbm, 148, rfl⟩
abbrev main_call4_cst : Ref sig .tc := ⟨.hbm, 149, rfl⟩
abbrev main_call4_v15 : Ref sig .tc := ⟨.hbm, 150, rfl⟩
abbrev main_v32 : Ref sig .tc := ⟨.hbm, 151, rfl⟩
abbrev main_v33 : Ref sig .tc := ⟨.hbm, 152, rfl⟩
abbrev main_v34 : Ref sig .tc := ⟨.hbm, 153, rfl⟩
abbrev main_v35 : Ref sig .tc := ⟨.hbm, 154, rfl⟩
abbrev main_v36 : Ref sig .tc := ⟨.hbm, 155, rfl⟩

abbrev nD : Nat := 1
abbrev τ : Topo := Topo.v7x

variable {F : FTy → Type} [FloatOps F]

class Facts₀ : Prop where
  reducesTo_S256x64x341x4_S256x64x341_d3 : S256x64x341x4.ReducesTo [3] S256x64x341
  h_S_ : 0 < S_.numel
  bcast_S_S256x64x341 : S_.BroadcastsInDim S256x64x341 (![] : Fin 0 → Fin S256x64x341.rank)
  bcast_S256x64x341_S256x64x341x1_0_1_2 : S256x64x341.BroadcastsInDim S256x64x341x1 (![0, 1, 2] : Fin 3 → Fin S256x64x341x1.rank)
  bcast_S256x64x341x1_S256x64x341x4_0_1_2_3 : S256x64x341x1.BroadcastsInDim S256x64x341x4 (![0, 1, 2, 3] : Fin 4 → Fin S256x64x341x4.rank)
  bcast_S_S256x64x1 : S_.BroadcastsInDim S256x64x1 (![] : Fin 0 → Fin S256x64x1.rank)
  bcast_S_S1 : S_.BroadcastsInDim S1 (![] : Fin 0 → Fin S1.rank)
  bcast_S1_S1x1_0 : S1.BroadcastsInDim S1x1 (![0] : Fin 1 → Fin S1x1.rank)
  bcast_S_S1x1 : S_.BroadcastsInDim S1x1 (![] : Fin 0 → Fin S1x1.rank)
  bcast_S1_S1x1_1 : S1.BroadcastsInDim S1x1 (![1] : Fin 1 → Fin S1x1.rank)
  reducesTo_S1x1_S1_d1 : S1x1.ReducesTo [1] S1
  bcast_S1_S256x64x1x4_2 : S1.BroadcastsInDim S256x64x1x4 (![2] : Fin 1 → Fin S256x64x1x4.rank)
  bcast_S_S256x64x1x4 : S_.BroadcastsInDim S256x64x1x4 (![] : Fin 0 → Fin S256x64x1x4.rank)
  bcast_S256x64x1_S256x64x1x1_0_1_2 : S256x64x1.BroadcastsInDim S256x64x1x1 (![0, 1, 2] : Fin 3 → Fin S256x64x1x1.rank)
  bcast_S256x64x1x1_S256x64x1x4_0_1_2_3 : S256x64x1x1.BroadcastsInDim S256x64x1x4 (![0, 1, 2, 3] : Fin 4 → Fin S256x64x1x4.rank)
  shapeCasts_S256x64x1x4_S256x64x4 : S256x64x1x4.ShapeCasts S256x64x4
  bcast_S_S4 : S_.BroadcastsInDim S4 (![] : Fin 0 → Fin S4.rank)
  bcast_S4_S4x1_0 : S4.BroadcastsInDim S4x1 (![0] : Fin 1 → Fin S4x1.rank)
  bcast_S_S4x1 : S_.BroadcastsInDim S4x1 (![] : Fin 0 → Fin S4x1.rank)
  bcast_S1x1_S4x1_0_1 : S1x1.BroadcastsInDim S4x1 (![0, 1] : Fin 2 → Fin S4x1.rank)
  reducesTo_S4x1_S4_d1 : S4x1.ReducesTo [1] S4
  bcast_S4_S256x64x4x4_2 : S4.BroadcastsInDim S256x64x4x4 (![2] : Fin 1 → Fin S256x64x4x4.rank)
  bcast_S_S256x64x4x4 : S_.BroadcastsInDim S256x64x4x4 (![] : Fin 0 → Fin S256x64x4x4.rank)
  bcast_S256x64x4_S256x64x4x1_0_1_2 : S256x64x4.BroadcastsInDim S256x64x4x1 (![0, 1, 2] : Fin 3 → Fin S256x64x4x1.rank)
  bcast_S256x64x4x1_S256x64x4x4_0_1_2_3 : S256x64x4x1.BroadcastsInDim S256x64x4x4 (![0, 1, 2, 3] : Fin 4 → Fin S256x64x4x4.rank)
  shapeCasts_S256x64x4x4_S256x64x16 : S256x64x4x4.ShapeCasts S256x64x16
  bcast_S_S16 : S_.BroadcastsInDim S16 (![] : Fin 0 → Fin S16.rank)
  bcast_S16_S16x1_0 : S16.BroadcastsInDim S16x1 (![0] : Fin 1 → Fin S16x1.rank)
  bcast_S_S16x1 : S_.BroadcastsInDim S16x1 (![] : Fin 0 → Fin S16x1.rank)
  bcast_S1x1_S16x1_0_1 : S1x1.BroadcastsInDim S16x1 (![0, 1] : Fin 2 → Fin S16x1.rank)
  reducesTo_S16x1_S16_d1 : S16x1.ReducesTo [1] S16
  bcast_S16_S256x64x16x4_2 : S16.BroadcastsInDim S256x64x16x4 (![2] : Fin 1 → Fin S256x64x16x4.rank)
  bcast_S_S256x64x16x4 : S_.BroadcastsInDim S256x64x16x4 (![] : Fin 0 → Fin S256x64x16x4.rank)
  bcast_S256x64x16_S256x64x16x1_0_1_2 : S256x64x16.BroadcastsInDim S256x64x16x1 (![0, 1, 2] : Fin 3 → Fin S256x64x16x1.rank)
  bcast_S256x64x16x1_S256x64x16x4_0_1_2_3 : S256x64x16x1.BroadcastsInDim S256x64x16x4 (![0, 1, 2, 3] : Fin 4 → Fin S256x64x16x4.rank)
  shapeCasts_S256x64x16x4_S256x64x64 : S256x64x16x4.ShapeCasts S256x64x64
  bcast_S_S64 : S_.BroadcastsInDim S64 (![] : Fin 0 → Fin S64.rank)
  bcast_S64_S64x1_0 : S64.BroadcastsInDim S64x1 (![0] : Fin 1 → Fin S64x1.rank)
  bcast_S_S64x1 : S_.BroadcastsInDim S64x1 (![] : Fin 0 → Fin S64x1.rank)
  bcast_S1x1_S64x1_0_1 : S1x1.BroadcastsInDim S64x1 (![0, 1] : Fin 2 → Fin S64x1.rank)
  reducesTo_S64x1_S64_d1 : S64x1.ReducesTo [1] S64
  bcast_S64_S256x64x64x4_2 : S64.BroadcastsInDim S256x64x64x4 (![2] : Fin 1 → Fin S256x64x64x4.rank)
  bcast_S_S256x64x64x4 : S_.BroadcastsInDim S256x64x64x4 (![] : Fin 0 → Fin S256x64x64x4.rank)
  bcast_S256x64x64_S256x64x64x1_0_1_2 : S256x64x64.BroadcastsInDim S256x64x64x1 (![0, 1, 2] : Fin 3 → Fin S256x64x64x1.rank)
  bcast_S256x64x64x1_S256x64x64x4_0_1_2_3 : S256x64x64x1.BroadcastsInDim S256x64x64x4 (![0, 1, 2, 3] : Fin 4 → Fin S256x64x64x4.rank)
  shapeCasts_S256x64x64x4_S256x64x256 : S256x64x64x4.ShapeCasts S256x64x256
  bcast_S_S256 : S_.BroadcastsInDim S256 (![] : Fin 0 → Fin S256.rank)
  bcast_S256_S256x1_0 : S256.BroadcastsInDim S256x1 (![0] : Fin 1 → Fin S256x1.rank)
  bcast_S_S256x1 : S_.BroadcastsInDim S256x1 (![] : Fin 0 → Fin S256x1.rank)
  bcast_S1x1_S256x1_0_1 : S1x1.BroadcastsInDim S256x1 (![0, 1] : Fin 2 → Fin S256x1.rank)
  reducesTo_S256x1_S256_d1 : S256x1.ReducesTo [1] S256
  bcast_S256_S256x64x256x4_2 : S256.BroadcastsInDim S256x64x256x4 (![2] : Fin 1 → Fin S256x64x256x4.rank)
  bcast_S_S256x64x256x4 : S_.BroadcastsInDim S256x64x256x4 (![] : Fin 0 → Fin S256x64x256x4.rank)
  bcast_S256x64x256_S256x64x256x1_0_1_2 : S256x64x256.BroadcastsInDim S256x64x256x1 (![0, 1, 2] : Fin 3 → Fin S256x64x256x1.rank)
  bcast_S256x64x256x1_S256x64x256x4_0_1_2_3 : S256x64x256x1.BroadcastsInDim S256x64x256x4 (![0, 1, 2, 3] : Fin 4 → Fin S256x64x256x4.rank)
  shapeCasts_S256x64x256x4_S256x64x1024 : S256x64x256x4.ShapeCasts S256x64x1024
  gather_S256x64x341x4_S1x1_S256x64x1x4_013_2_n_n_2_1_2566414_wf : GatherDims.WF S256x64x341x4 S1x1 S256x64x1x4 [0, 1, 3] [2] [] [2] [] 1 ![256, 64, 1, 4]
  gather_S256x64x341x4_S4x1_S256x64x4x4_013_2_n_n_2_1_2566414_wf : GatherDims.WF S256x64x341x4 S4x1 S256x64x4x4 [0, 1, 3] [2] [] [2] [] 1 ![256, 64, 1, 4]
  gather_S256x64x341x4_S16x1_S256x64x16x4_013_2_n_n_2_1_2566414_wf : GatherDims.WF S256x64x341x4 S16x1 S256x64x16x4 [0, 1, 3] [2] [] [2] [] 1 ![256, 64, 1, 4]
  gather_S256x64x341x4_S64x1_S256x64x64x4_013_2_n_n_2_1_2566414_wf : GatherDims.WF S256x64x341x4 S64x1 S256x64x64x4 [0, 1, 3] [2] [] [2] [] 1 ![256, 64, 1, 4]
  gather_S256x64x341x4_S256x1_S256x64x256x4_013_2_n_n_2_1_2566414_wf : GatherDims.WF S256x64x341x4 S256x1 S256x64x256x4 [0, 1, 3] [2] [] [2] [] 1 ![256, 64, 1, 4]

variable [Facts₀]

def gather_S256x64x341x4_S1x1_S256x64x1x4_013_2_n_n_2_1_2566414 : GatherDims S256x64x341x4 S1x1 S256x64x1x4 where
  offsetDims := [0, 1, 3]
  collapsedSliceDims := [2]
  operandBatchingDims := []
  startIndicesBatchingDims := []
  startIndexMap := [2]
  indexVectorDim := 1
  sliceSizes := ![256, 64, 1, 4]
  wf := gather_S256x64x341x4_S1x1_S256x64x1x4_013_2_n_n_2_1_2566414_wf
def gather_S256x64x341x4_S4x1_S256x64x4x4_013_2_n_n_2_1_2566414 : GatherDims S256x64x341x4 S4x1 S256x64x4x4 where
  offsetDims := [0, 1, 3]
  collapsedSliceDims := [2]
  operandBatchingDims := []
  startIndicesBatchingDims := []
  startIndexMap := [2]
  indexVectorDim := 1
  sliceSizes := ![256, 64, 1, 4]
  wf := gather_S256x64x341x4_S4x1_S256x64x4x4_013_2_n_n_2_1_2566414_wf
def gather_S256x64x341x4_S16x1_S256x64x16x4_013_2_n_n_2_1_2566414 : GatherDims S256x64x341x4 S16x1 S256x64x16x4 where
  offsetDims := [0, 1, 3]
  collapsedSliceDims := [2]
  operandBatchingDims := []
  startIndicesBatchingDims := []
  startIndexMap := [2]
  indexVectorDim := 1
  sliceSizes := ![256, 64, 1, 4]
  wf := gather_S256x64x341x4_S16x1_S256x64x16x4_013_2_n_n_2_1_2566414_wf
def gather_S256x64x341x4_S64x1_S256x64x64x4_013_2_n_n_2_1_2566414 : GatherDims S256x64x341x4 S64x1 S256x64x64x4 where
  offsetDims := [0, 1, 3]
  collapsedSliceDims := [2]
  operandBatchingDims := []
  startIndicesBatchingDims := []
  startIndexMap := [2]
  indexVectorDim := 1
  sliceSizes := ![256, 64, 1, 4]
  wf := gather_S256x64x341x4_S64x1_S256x64x64x4_013_2_n_n_2_1_2566414_wf
def gather_S256x64x341x4_S256x1_S256x64x256x4_013_2_n_n_2_1_2566414 : GatherDims S256x64x341x4 S256x1 S256x64x256x4 where
  offsetDims := [0, 1, 3]
  collapsedSliceDims := [2]
  operandBatchingDims := []
  startIndicesBatchingDims := []
  startIndexMap := [2]
  indexVectorDim := 1
  sliceSizes := ![256, 64, 1, 4]
  wf := gather_S256x64x341x4_S256x1_S256x64x256x4_013_2_n_n_2_1_2566414_wf

class Facts : Prop extends Facts₀ where

variable [Facts]
-- ==== Proof.Spec.lean ====
/-
  The common value of the two programs: a soft decision forest.

  The input holds, for each of 256 × 64 trees, 341 nodes with four branch scores each; the nodes are the
  1 + 4 + 16 + 64 + 256 internal nodes of a complete 4-ary tree of five levels, numbered in depth-first preorder.
  Each node's scores are turned into branch probabilities by a softmax over the four scores, computed as both
  programs compute it: subtract the maximum (folded from −∞), exponentiate, divide by the sum of the four
  exponentials. A leaf `j < 1024` is reached by the branches `j / 256 % 4, j / 64 % 4, j / 16 % 4, j / 4 % 4, j % 4`;
  its value is the product, taken from the root down starting from the constant one, of the probabilities of
  those branches at the five nodes on the path.

  The value is stated over a table `Q node branch` of probabilities and five node selectors, so that the same
  product serves a table in depth-first order (the reference) and a table rearranged level by level (the kernel).
-/
import Idealize.ShloMosaic.PureOps.Ideal
import Idealize.ShloMosaic.Lib.ValueIdx

noncomputable section

namespace Cert.Forest

open Idealize.ShloMosaic Idealize.ShloMosaic.ValueIdx

/-- The maximum of four extended reals, folded from the word of −∞. -/
def mx4 (v : Fin 4 → EReal) : EReal :=
  (Finset.univ : Finset (Fin 4)).fold max (Ideal.ofBits .f32 0xFF800000#32) v

/-- The softmax of four extended reals: `exp (v d − max v) / ∑ₖ exp (v k − max v)`. -/
def sm4 (v : Fin 4 → EReal) (d : Fin 4) : EReal :=
  Ideal.div (Ideal.exp (v d - mx4 v)) (∑ k : Fin 4, Ideal.exp (v k - mx4 v))

/-- The constant the products start from: the word of 1.0. -/
def one : EReal := Ideal.ofBits .f32 0x3F800000#32

/-! ## The branches a leaf takes, root first -/

def dg0 (j : Fin 1024) : Fin 4 := ⟨j.val / 256 % 4, Nat.mod_lt _ (by decide)⟩
def dg1 (j : Fin 1024) : Fin 4 := ⟨j.val / 64 % 4, Nat.mod_lt _ (by decide)⟩
def dg2 (j : Fin 1024) : Fin 4 := ⟨j.val / 16 % 4, Nat.mod_lt _ (by decide)⟩
def dg3 (j : Fin 1024) : Fin 4 := ⟨j.val / 4 % 4, Nat.mod_lt _ (by decide)⟩
def dg4 (j : Fin 1024) : Fin 4 := ⟨j.val % 4, Nat.mod_lt _ (by decide)⟩

/-! ## The nodes on a leaf's path, in depth-first preorder numbering

A node at depth `l` reached by branches `k₀ … k_{l-1}` has number `l + 85 k₀ + 21 k₁ + 5 k₂ + k₃` (the sizes of
the subtrees below depths 1, 2, 3, 4 are 85, 21, 5, 1). -/

def dfs0 (_ : Fin 1024) : Fin 341 := ⟨0, by decide⟩
def dfs1 (j : Fin 1024) : Fin 341 := ⟨1 + 85 * (j.val / 256), by have := j.isLt; omega⟩
def dfs2 (j : Fin 1024) : Fin 341 := ⟨2 + 85 * (j.val / 256) + 21 * (j.val / 64 % 4), by have := j.isLt; omega⟩
def dfs3 (j : Fin 1024) : Fin 341 :=
  ⟨3 + 85 * (j.val / 256) + 21 * (j.val / 64 % 4) + 5 * (j.val / 16 % 4), by have := j.isLt; omega⟩
def dfs4 (j : Fin 1024) : Fin 341 :=
  ⟨4 + 85 * (j.val / 256) + 21 * (j.val / 64 % 4) + 5 * (j.val / 16 % 4) + j.val / 4 % 4, by have := j.isLt; omega⟩

/-! ## The same nodes' positions when the table is laid out level by level (levels start at 0, 1, 5, 21, 85) -/

def lv0 (_ : Fin 1024) : Fin 341 := ⟨0, by decide⟩
def lv1 (j : Fin 1024) : Fin 341 := ⟨1 + j.val / 256, by have := j.isLt; omega⟩
def lv2 (j : Fin 1024) : Fin 341 := ⟨5 + j.val / 64, by have := j.isLt; omega⟩
def lv3 (j : Fin 1024) : Fin 341 := ⟨21 + j.val / 16, by have := j.isLt; omega⟩
def lv4 (j : Fin 1024) : Fin 341 := ⟨85 + j.val / 4, by have := j.isLt; omega⟩

/-- The product along a path: from `one`, times the probability of the branch taken at each of the five nodes,
    root first, associated to the left. -/
def pathProd (Q : Fin 341 → Fin 4 → EReal) (n0 n1 n2 n3 n4 : Fin 341) (j : Fin 1024) : EReal :=
  ((((one * Q n0 (dg0 j)) * Q n1 (dg1 j)) * Q n2 (dg2 j)) * Q n3 (dg3 j)) * Q n4 (dg4 j)

/-- The probability table of tree `(b, t)`: the softmax of each node's four scores. -/
def probs (x : (⟨4, ![256, 64, 341, 4]⟩ : Shape).Idx → EReal) (b : Fin 256) (t : Fin 64) (n : Fin 341) (d : Fin 4) : EReal :=
  sm4 (fun k => x (ix4 b t n k)) d

/-- THE VALUE: leaf `j` of tree `(b, t)`. -/
def G (x : (⟨4, ![256, 64, 341, 4]⟩ : Shape).Idx → EReal) : (⟨3, ![256, 64, 1024]⟩ : Shape).Idx → EReal :=
  fun i => pathProd (probs x (i 0) (i 1)) (dfs0 (i 2)) (dfs1 (i 2)) (dfs2 (i 2)) (dfs3 (i 2)) (dfs4 (i 2)) (i 2)

theorem G_apply (x : (⟨4, ![256, 64, 341, 4]⟩ : Shape).Idx → EReal) (b : Fin 256) (t : Fin 64) (j : Fin 1024) :
    G x (ix3 b t j) = pathProd (probs x b t) (dfs0 j) (dfs1 j) (dfs2 j) (dfs3 j) (dfs4 j) j := rfl

/-- A table rearranged by `σ` and read at positions that `σ` sends to the path's nodes gives the same product. -/
theorem pathProd_rearranged (Q : Fin 341 → Fin 4 → EReal) (σ : Fin 341 → Fin 341) (p0 p1 p2 p3 p4 n0 n1 n2 n3 n4 : Fin 341)
    (h0 : σ p0 = n0) (h1 : σ p1 = n1) (h2 : σ p2 = n2) (h3 : σ p3 = n3) (h4 : σ p4 = n4) (j : Fin 1024) :
    pathProd (fun n d => Q (σ n) d) p0 p1 p2 p3 p4 j = pathProd Q n0 n1 n2 n3 n4 j := by
  subst h0 h1 h2 h3 h4
  rfl

end Cert.Forest

end
-- ==== Proof.LibGatherAxis2.lean ====
/-
  A gather along the third axis of a four-axis array, read at an index.

  The operand has shape [A, B, N, D]; the start indices are a column [K, 1] of signed integers; the result
  [A, B, K, D] takes, for each k, the whole [A, B, ·, D] slab of the operand at node `idx k`: offset axes 0, 1, 3 of
  the result run over the operand's axes 0, 1, 3, axis 2 of the operand is collapsed and is the one the start
  index names. Read at (b, t, k, e) the result is the operand at (b, t, idx k, e), the index read signed and
  clamped into [0, N − 1].
-/
import Idealize.ShloMosaic.PureOps
import Idealize.ShloMosaic.Lib.ValueIdx

noncomputable section

namespace Cert.Lib

open Idealize.ShloMosaic Idealize.ShloMosaic.ValueIdx

variable {α : Type}

/-- Those dimension numbers, over literal-size shapes; their conditions are decided on a program's shapes. -/
abbrev axis2Dims (A B N D K : Nat)
    (wf : GatherDims.WF ⟨4, ![A, B, N, D]⟩ ⟨2, ![K, 1]⟩ ⟨4, ![A, B, K, D]⟩ [0, 1, 3] [2] [] [2] [] 1 ![A, B, 1, D]) :
    GatherDims ⟨4, ![A, B, N, D]⟩ ⟨2, ![K, 1]⟩ ⟨4, ![A, B, K, D]⟩ where
  offsetDims := [0, 1, 3]
  collapsedSliceDims := [2]
  operandBatchingDims := []
  startIndicesBatchingDims := []
  startIndexMap := [2]
  indexVectorDim := 1
  sliceSizes := ![A, B, 1, D]
  wf := wf

/-- THE GATHER READ AT (b, t, k, e): the operand at (b, t, idx[k, 0], e), the start index read signed and clamped
    into [0, N − 1]. -/
theorem gatherAxis2_apply {A B N D K w : Nat} (hN : 0 < N)
    (wf : GatherDims.WF ⟨4, ![A, B, N, D]⟩ ⟨2, ![K, 1]⟩ ⟨4, ![A, B, K, D]⟩ [0, 1, 3] [2] [] [2] [] 1 ![A, B, 1, D])
    (x : (⟨4, ![A, B, N, D]⟩ : Shape).Idx → α) (idx : IVec ⟨2, ![K, 1]⟩ w) (b : Fin A) (t : Fin B) (k : Fin K) (e : Fin D) :
    Host.gather (axis2Dims A B N D K wf) x idx (ix4 b t k e)
      = x (ix4 b t ⟨min (idx (ix2 k (0 : Fin 1))).toInt.toNat (N - 1), by omega⟩ e) := by
  unfold Host.gather
  congr 1
  funext a
  refine Fin.ext ?_
  show (axis2Dims A B N D K wf).start (ix4 b t k e) idx a + (axis2Dims A B N D K wf).batchCoord (ix4 b t k e) a
      + (axis2Dims A B N D K wf).offCoord (ix4 b t k e) a = _
  rw [GatherDims.batchCoord_eq_zero _ _ _ List.not_mem_nil]
  match a with
  | ⟨0, h0⟩ =>
    have hs : (axis2Dims A B N D K wf).start (ix4 b t k e) idx ⟨0, h0⟩ = 0 := by
      unfold GatherDims.start
      exact dif_neg (fun h => absurd (congrArg Fin.val (List.mem_singleton.mp h)) (by show ¬ (0 : Nat) = 2; decide))
    rw [hs]
    unfold GatherDims.offCoord
    rw [dif_pos ((GatherDims.mem_sKept _ _).mpr
      ⟨fun h => absurd (congrArg Fin.val (List.mem_singleton.mp h)) (by show ¬ (0 : Nat) = 2; decide), List.not_mem_nil⟩)]
    rw [Nat.add_zero, Nat.zero_add]
    rfl
  | ⟨1, h1⟩ =>
    have hs : (axis2Dims A B N D K wf).start (ix4 b t k e) idx ⟨1, h1⟩ = 0 := by
      unfold GatherDims.start
      exact dif_neg (fun h => absurd (congrArg Fin.val (List.mem_singleton.mp h)) (by show ¬ (1 : Nat) = 2; decide))
    rw [hs]
    unfold GatherDims.offCoord
    rw [dif_pos ((GatherDims.mem_sKept _ _).mpr
      ⟨fun h => absurd (congrArg Fin.val (List.mem_singleton.mp h)) (by show ¬ (1 : Nat) = 2; decide), List.not_mem_nil⟩)]
    rw [Nat.add_zero, Nat.zero_add]
    rfl
  | ⟨3, h3⟩ =>
    have hs : (axis2Dims A B N D K wf).start (ix4 b t k e) idx ⟨3, h3⟩ = 0 := by
      unfold GatherDims.start
      exact dif_neg (fun h => absurd (congrArg Fin.val (List.mem_singleton.mp h)) (by show ¬ (3 : Nat) = 2; decide))
    rw [hs]
    unfold GatherDims.offCoord
    rw [dif_pos ((GatherDims.mem_sKept _ _).mpr
      ⟨fun h => absurd (congrArg Fin.val (List.mem_singleton.mp h)) (by show ¬ (3 : Nat) = 2; decide), List.not_mem_nil⟩)]
    rw [Nat.add_zero, Nat.zero_add]
    rfl
  | ⟨2, h2⟩ =>
    rw [GatherDims.offCoord_eq_zero _ _ _ (fun h => ((GatherDims.mem_sKept _ _).mp h).1 (List.mem_singleton.mpr rfl))]
    simp only [Nat.add_zero]
    unfold GatherDims.start
    rw [dif_pos (show (⟨2, h2⟩ : Fin 4) ∈ (axis2Dims A B N D K wf).startIndexMap from List.mem_singleton.mpr rfl)]
    have hsi : (axis2Dims A B N D K wf).siIdx (ix4 b t k e)
        ⟨List.idxOf (⟨2, h2⟩ : Fin 4) (axis2Dims A B N D K wf).startIndexMap,
          List.idxOf_lt_length_iff.2 (List.mem_singleton.mpr rfl)⟩ = ix2 k (0 : Fin 1) := by
      funext c; refine Fin.ext ?_
      match c with
      | ⟨0, _⟩ => rfl
      | ⟨1, _⟩ => rfl
    rw [hsi]
    rfl

end Cert.Lib

end
-- ==== Proof.KHost.lean ====
/-
  The array the kernel's region reads, as a function of the argument.

  Before the region the host operations gather the 341 nodes of every tree by a literal table (laying the nodes
  out level by level), bring the node axis and the branch axis to the front, and flatten the two tree axes
  (256 × 64) into one axis of 16384 columns. Read at (position n, branch d, column) the result is the argument at
  tree (column / 64, column % 64), node `perm n`, branch d. The table sends the level-by-level position of each
  node on a leaf's path to that node's depth-first number.
-/
import proofs.«180566_j24962349924771_2_alg».proof.Proof.Gen.KernelIdeal.Frame
import proofs.«180566_j24962349924771_2_alg».proof.Proof.Spec
import proofs.«180566_j24962349924771_2_alg».proof.Proof.LibGatherAxis2
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem Idealize.ShloMosaic.ValueIdx

namespace Cert.KernelIdeal.KValue

open Cert.KernelIdeal Cert.KernelIdeal.Gen

/-- The node read into position `n` of the rearranged table: the literal table's entry, read as the gather reads a
    start index (signed, clamped into the node range; no entry of the table is clamped). -/
def perm (n : Fin 341) : Fin 341 := ⟨min (lit0 n).toInt.toNat 340, by omega⟩

/-- The column of start indices the host operations build: the literal table (the `select` on an all-false mask
    keeps it), broadcast to a column. -/
def idxCol : IVec S341x1 32 :=
  broadcastInDim S341x1 ![0] bcast_S341_S341x1_0
    (select (constantI S341 1 0#1)
      (addi (fun i => lit0 (S341.rowMajor i)) (broadcastInDim S341 ![] bcast_S_S341 (constantI S_ 32 341#32)))
      fun i => lit0 (S341.rowMajor i))

theorem idxCol_apply (n : Fin 341) : idxCol (ix2 n (0 : Fin 1)) = lit0 n := by
  unfold idxCol
  refine (broadcastInDim_apply _ _ _ (ix2 n (0 : Fin 1)) (ix1 n) (fun a => match a with | ⟨0, _⟩ => rfl)).trans ?_
  rw [select_apply, constantI_apply, select_zero]
  exact congrArg lit0 (Fin.ext (Shape.rowMajor_val_one _))

/-- The array the region reads, as a function of the argument: gather the nodes by the table, bring the node and
    branch axes to the front, and flatten the two tree axes into one. -/
def hostArr (x : S256x64x341x4.Idx → EReal) : S341x4x16384.Idx → EReal :=
  shapeCast S341x4x16384
    (transpose S341x4x256x64 [2, 3, 0, 1]
      (Host.gather gather_S256x64x341x4_S341x1_S256x64x341x4_013_2_n_n_2_1_2566414 x idxCol)
      transposes_S256x64x341x4_S341x4x256x64_2_3_0_1)
    shapeCasts_S341x4x256x64_S341x4x16384

/-- Read at node position `n`, branch `d`, flattened tree `col`: the argument at tree `(col / 64, col % 64)`,
    node `perm n`, branch `d`. -/
theorem hostArr_apply (x : S256x64x341x4.Idx → EReal) (n : Fin 341) (d : Fin 4) (col : Fin 16384) :
    hostArr x (ix3 n d col)
      = x (ix4 (⟨col.val / 64, by omega⟩ : Fin 256) (⟨col.val % 64, by omega⟩ : Fin 64) (perm n) d) := by
  unfold hostArr
  refine (shapeCast_apply _ _ (ix3 n d col)
    (ix4 n d (⟨col.val / 64, by omega⟩ : Fin 256) (⟨col.val % 64, by omega⟩ : Fin 64)) ?_).trans ?_
  · rw [Shape.rowMajor_val_four, Shape.rowMajor_val_three]
    show ((n.val * 4 + d.val) * 256 + col.val / 64) * 64 + col.val % 64 = (n.val * 4 + d.val) * 16384 + col.val
    omega
  refine (transpose_apply _ _ _ (ix4 n d (⟨col.val / 64, by omega⟩ : Fin 256) (⟨col.val % 64, by omega⟩ : Fin 64))
    (ix4 (⟨col.val / 64, by omega⟩ : Fin 256) (⟨col.val % 64, by omega⟩ : Fin 64) n d)
    (fun b => match b with | ⟨0, _⟩ => rfl | ⟨1, _⟩ => rfl | ⟨2, _⟩ => rfl | ⟨3, _⟩ => rfl)).trans ?_
  have hg : gather_S256x64x341x4_S341x1_S256x64x341x4_013_2_n_n_2_1_2566414
      = Cert.Lib.axis2Dims 256 64 341 4 341 gather_S256x64x341x4_S341x1_S256x64x341x4_013_2_n_n_2_1_2566414_wf := rfl
  rw [hg]
  refine (Cert.Lib.gatherAxis2_apply (by decide) _ x idxCol _ _ n d).trans ?_
  refine congrArg x ?_
  have hp : ∀ (h : min (idxCol (ix2 n (0 : Fin 1))).toInt.toNat (341 - 1) < 341),
      (⟨min (idxCol (ix2 n (0 : Fin 1))).toInt.toNat (341 - 1), h⟩ : Fin 341) = perm n :=
    fun h => Fin.ext (by show min _ (341 - 1) = min _ 340; rw [idxCol_apply])
  rw [hp]

variable (m : (ℓ : Loc nD τ sig) → Buf (Elt Ideal) ℓ)

/-- The array the region finds in its input window is `hostArr` of the argument as launched. -/
theorem v6_eq (c : Dev nD) :
    (V m c main_v6 : S341x4x16384.Idx → EReal) = hostArr (m ((c.tc : Thread nD τ).loc main_arg0)) := by
  dsimp only [Gen.V, Gen.V0]
  simp only [Gen.hostOps0, List.flatten_cons, List.flatten_nil, List.append_nil]
  after_results
  rfl

theorem v6_apply (c : Dev nD) (n : Fin 341) (d : Fin 4) (col : Fin 16384) :
    (V m c main_v6 : S341x4x16384.Idx → EReal) (ix3 n d col)
      = (m ((c.tc : Thread nD τ).loc main_arg0) : S256x64x341x4.Idx → EReal)
          (ix4 (⟨col.val / 64, by omega⟩ : Fin 256) (⟨col.val % 64, by omega⟩ : Fin 64) (perm n) d) := by
  rw [v6_eq m c]
  exact hostArr_apply _ n d col

/-! ## The table joins the level-by-level layout to depth-first numbering -/

theorem perm_lv0 : ∀ j : Fin 1024, perm (Cert.Forest.lv0 j) = Cert.Forest.dfs0 j := by decide +kernel
theorem perm_lv1 : ∀ j : Fin 1024, perm (Cert.Forest.lv1 j) = Cert.Forest.dfs1 j := by decide +kernel
theorem perm_lv2 : ∀ j : Fin 1024, perm (Cert.Forest.lv2 j) = Cert.Forest.dfs2 j := by decide +kernel
theorem perm_lv3 : ∀ j : Fin 1024, perm (Cert.Forest.lv3 j) = Cert.Forest.dfs3 j := by decide +kernel
theorem perm_lv4 : ∀ j : Fin 1024, perm (Cert.Forest.lv4 j) = Cert.Forest.dfs4 j := by decide +kernel

end Cert.KernelIdeal.KValue

end
-- ==== Proof.KSoft.lean ====
/-
  The softmax over the middle axis of a block [341, 4, 512], read at an index.

  The program takes, for each node `n` and column `r`, the maximum of the four scores (a reduction over axis 1 from
  −∞), repeats it along that axis (a unit axis put back, then broadcast), subtracts, exponentiates, sums the four
  exponentials (a reduction over axis 1 from zero), repeats the sum the same way, and divides. At (n, d, r) this is the
  softmax `sm4` of the four scores `x (n, ·, r)` at branch `d`.
-/
import proofs.«180566_j24962349924771_2_alg».proof.Proof.Spec
import Idealize.ShloMosaic.PureOps.Ideal.Laws
import Idealize.ShloMosaic.Lib.Pipeline.Value

noncomputable section

namespace Cert.Forest

open Idealize.ShloMosaic Idealize.ShloMosaic.ValueIdx

abbrev Sblk : Shape := ⟨3, ![341, 4, 512]⟩
abbrev Scol : Shape := ⟨2, ![341, 512]⟩
abbrev Scol1 : Shape := ⟨3, ![341, 1, 512]⟩

/-- A reduced index with the branch put back on axis 1. -/
theorem lift_axis1 (hr : Sblk.Reduces [1] Scol) (n : Fin 341) (r : Fin 512) (k : Fin (Sblk.size 1)) :
    hr.lift (ix2 n r) k = ix3 n (⟨k.val, k.isLt⟩ : Fin 4) r := by
  funext c; apply Fin.ext
  fin_cases c <;> rfl

/-- A per-(node, column) quantity repeated along the branch axis reads, at any branch, as itself. -/
theorem colBroadcast_apply {α : Type} (M : Scol.Idx → α) (h1 : Scol.ShapeCasts Scol1) (h2 : Scol1.Broadcasts Sblk)
    (n : Fin 341) (d : Fin 4) (r : Fin 512) :
    broadcastTo Sblk (shapeCast Scol1 M h1) h2 (ix3 n d r) = M (ix2 n r) := by
  refine (broadcastTo_apply _ h2 _ (ix3 n (0 : Fin 1) r) ?_).trans ?_
  · intro a
    match a with
    | ⟨0, _⟩ => rfl
    | ⟨1, _⟩ => rfl
    | ⟨2, _⟩ => rfl
  · refine shapeCast_apply _ h1 _ (ix2 n r) ?_
    rw [Shape.rowMajor_val_three, Shape.rowMajor_val_two]
    show n.val * 512 + r.val = (n.val * 1 + 0) * 512 + r.val
    omega

/-- The maximum over the branch axis, folded from −∞, at (n, r). -/
theorem blockMax_apply (x : FVec Ideal Sblk .f32) (hr : Sblk.Reduces [1] Scol) (hφ : FKind.Formats .f32)
    (hacc : (0xFF800000#32 : BitVec 32) = FKind.maximumf.neutral .f32 hφ) (n : Fin 341) (r : Fin 512) :
    multiReduction .maximumf [1] Scol x 0xFF800000#32 hr hφ hacc (ix2 n r) = mx4 (fun k => x (ix3 n k r)) := by
  refine (Ideal.multiReduction_maximumf_single x _ hr hφ hacc (ix2 n r)).trans ?_
  have hf : (x ∘ hr.lift (ix2 n r)) = fun k : Fin 4 => x (ix3 n k r) :=
    funext fun k => congrArg x (lift_axis1 hr n r k)
  unfold mx4
  exact congrArg (fun f => Finset.fold max (Ideal.ofBits .f32 0xFF800000#32) f (Finset.univ : Finset (Fin 4))) hf

/-- The sum over the branch axis at (n, r). -/
theorem blockSum_apply (e : FVec Ideal Sblk .f32) (hr : Sblk.Reduces [1] Scol) (hφ : FKind.Formats .f32)
    (hacc : (0x00000000#32 : BitVec 32) = FKind.add.neutral .f32 hφ) (n : Fin 341) (r : Fin 512) :
    multiReduction .add [1] Scol e 0x00000000#32 hr hφ hacc (ix2 n r) = ∑ k : Fin 4, e (ix3 n k r) := by
  refine (Ideal.multiReduction_add_single e _ hr hφ hacc (ix2 n r)).trans ?_
  exact Finset.sum_congr rfl fun k _ => congrArg e (lift_axis1 hr n r k)

/-- The block's softmax as the program spells it. -/
def blockSoft (x : FVec Ideal Sblk .f32) (hc : Sblk.ShapeCasts Sblk) (hr : Sblk.Reduces [1] Scol)
    (h1 : Scol.ShapeCasts Scol1) (h2 : Scol1.Broadcasts Sblk) : FVec Ideal Sblk .f32 :=
  divf
    (exp (subf (shapeCast Sblk x hc)
      (broadcastTo Sblk (shapeCast Scol1 (multiReduction .maximumf [1] Scol (shapeCast Sblk x hc) 0xFF800000#32 hr (.inl rfl) rfl) h1) h2)))
    (broadcastTo Sblk (shapeCast Scol1
      (multiReduction .add [1] Scol
        (exp (subf (shapeCast Sblk x hc)
          (broadcastTo Sblk (shapeCast Scol1 (multiReduction .maximumf [1] Scol (shapeCast Sblk x hc) 0xFF800000#32 hr (.inl rfl) rfl) h1) h2)))
        0x00000000#32 hr (.inl rfl) rfl) h1) h2)

/-- At (n, d, r) it is the softmax of the four scores of node `n` in column `r`, at branch `d`. -/
theorem blockSoft_apply (x : FVec Ideal Sblk .f32) (hc : Sblk.ShapeCasts Sblk) (hr : Sblk.Reduces [1] Scol)
    (h1 : Scol.ShapeCasts Scol1) (h2 : Scol1.Broadcasts Sblk) (n : Fin 341) (d : Fin 4) (r : Fin 512) :
    blockSoft x hc hr h1 h2 (ix3 n d r) = sm4 (fun k => x (ix3 n k r)) d := by
  unfold blockSoft
  rw [shapeCast_self x hc]
  have he : ∀ k : Fin 4,
      exp (subf x (broadcastTo Sblk (shapeCast Scol1 (multiReduction .maximumf [1] Scol x 0xFF800000#32 hr (.inl rfl) rfl) h1) h2))
          (ix3 n k r)
        = Ideal.exp (x (ix3 n k r) - mx4 (fun k => x (ix3 n k r))) := by
    intro k
    show Ideal.exp (x (ix3 n k r) - broadcastTo Sblk (shapeCast Scol1 (multiReduction .maximumf [1] Scol x 0xFF800000#32 hr (.inl rfl) rfl) h1) h2 (ix3 n k r)) = _
    rw [colBroadcast_apply _ h1 h2 n k r, blockMax_apply x hr (.inl rfl) rfl n r]
  show Ideal.div (exp (subf x _) (ix3 n d r)) (broadcastTo Sblk (shapeCast Scol1 _ h1) h2 (ix3 n d r)) = _
  rw [colBroadcast_apply _ h1 h2 n d r, blockSum_apply _ hr (.inl rfl) rfl n r, he d]
  unfold sm4
  exact congrArg _ (Finset.sum_congr rfl fun k _ => he k)

end Cert.Forest

end
-- ==== Proof.KLevel.lean ====
/-
  One level of the tree product on a block, read at an index.

  A level holds `K` running products per column, `w : [K, 512]`. The next level gives each of them four children:
  child `d` of entry `q` is `w q` times the probability at node `off + q`, branch `d`, of the block `p : [341, 4, 512]`
  (the level's nodes are the `K` consecutive nodes from `off`). The program spells this as a column broadcast of `w`
  to [K, 4, 512], a slice of `p`, a product, and a flattening of the first two axes to [4K, 512]; flattened entry
  `j` is child `j % 4` of entry `j / 4`.
-/
import Idealize.ShloMosaic.PureOps.Ideal
import Idealize.ShloMosaic.Lib.ValueIdx
import Idealize.ShloMosaic.Lib.Pipeline.Value

noncomputable section

namespace Cert.Forest

open Idealize.ShloMosaic Idealize.ShloMosaic.ValueIdx

theorem level_apply {K K4 off : Nat} (w : FVec Ideal ⟨2, ![K, 512]⟩ .f32) (p : FVec Ideal ⟨3, ![341, 4, 512]⟩ .f32)
    (h1 : (⟨2, ![K, 512]⟩ : Shape).ShapeCasts ⟨3, ![K, 1, 512]⟩)
    (h2 : (⟨3, ![K, 1, 512]⟩ : Shape).Broadcasts ⟨3, ![K, 4, 512]⟩)
    (h3 : (⟨3, ![341, 4, 512]⟩ : Shape).Slices ![off, 0, 0] ⟨3, ![K, 4, 512]⟩)
    (h4 : (⟨3, ![K, 4, 512]⟩ : Shape).ShapeCasts ⟨2, ![K4, 512]⟩)
    (j : Fin K4) (r : Fin 512) (hq : j.val / 4 < K) (hn : off + j.val / 4 < 341) :
    shapeCast ⟨2, ![K4, 512]⟩ (mulf (broadcastTo ⟨3, ![K, 4, 512]⟩ (shapeCast ⟨3, ![K, 1, 512]⟩ w h1) h2)
        (extractStridedSlice ⟨3, ![K, 4, 512]⟩ ![off, 0, 0] p h3)) h4 (ix2 j r)
      = w (ix2 ⟨j.val / 4, hq⟩ r) * p (ix3 ⟨off + j.val / 4, hn⟩ ⟨j.val % 4, Nat.mod_lt _ (by decide)⟩ r) := by
  refine (shapeCast_apply _ h4 (ix2 j r) (ix3 ⟨j.val / 4, hq⟩ ⟨j.val % 4, Nat.mod_lt _ (by decide)⟩ r) ?_).trans ?_
  · rw [Shape.rowMajor_val_three, Shape.rowMajor_val_two]
    show (j.val / 4 * 4 + j.val % 4) * 512 + r.val = j.val * 512 + r.val
    omega
  show (broadcastTo _ _ h2 _) * (extractStridedSlice _ _ p h3 _) = _
  congr 1
  · refine (broadcastTo_apply _ h2 _ (ix3 ⟨j.val / 4, hq⟩ (0 : Fin 1) r) ?_).trans ?_
    · intro a
      match a with
      | ⟨0, _⟩ =>
        show j.val / 4 = if K = 1 then 0 else j.val / 4
        split
        · omega
        · rfl
      | ⟨1, _⟩ => rfl
      | ⟨2, _⟩ => rfl
    · refine shapeCast_apply _ h1 _ (ix2 ⟨j.val / 4, hq⟩ r) ?_
      rw [Shape.rowMajor_val_three, Shape.rowMajor_val_two]
      show j.val / 4 * 512 + r.val = (j.val / 4 * 1 + 0) * 512 + r.val
      omega
  · refine extractStridedSlice_apply _ p h3 _ (ix3 ⟨off + j.val / 4, hn⟩ ⟨j.val % 4, Nat.mod_lt _ (by decide)⟩ r) ?_
    intro a
    match a with
    | ⟨0, _⟩ => rfl
    | ⟨1, _⟩ => show j.val % 4 = 0 + j.val % 4; omega
    | ⟨2, _⟩ => show r.val = 0 + r.val; omega

end Cert.Forest

end
-- ==== Proof.KPay.lean ====
/-
  The kernel body's stored value, read at an index.

  On a block `x0 : [341, 4, 512]` (nodes level by level, branch scores, 512 columns) the body takes the softmax
  over the branch axis, then builds the running products level by level — one entry, then 4, 16, 64, 256, finally
  1024 leaves per column — each level multiplying every entry by the four branch probabilities of its node (the
  level's nodes sit at positions 0, 1 …, 5 …, 21 …, 85 … of the block), and stores the transpose [512, 1024].
  Read at (column r, leaf j) the stored value is the product along leaf `j`'s path of the softmax probabilities
  of column `r`, the path's nodes named by their level-by-level positions.
-/
import proofs.«180566_j24962349924771_2_alg».proof.Proof.Gen.KernelIdeal.Skeleton
import proofs.«180566_j24962349924771_2_alg».proof.Proof.KSoft
import proofs.«180566_j24962349924771_2_alg».proof.Proof.KLevel
import Idealize.ShloMosaic.Lib.ValueLayout

noncomputable section

namespace Cert.KernelIdeal.KPay

open Idealize.ShloMosaic Idealize.ShloMosaic.ValueIdx Cert.KernelIdeal Cert.Forest

variable [Facts]
open Facts₀

/-- The block's branch probabilities. -/
def prob (x0 : Vec Ideal S341x4x512 .f32) : FVec Ideal S341x4x512 .f32 :=
  blockSoft x0 shapeCasts_S341x4x512_S341x4x512 reduces_S341x4x512_S341x512 shapeCasts_S341x512_S341x1x512
    broadcasts_S341x1x512_S341x4x512

theorem prob_apply (x0 : Vec Ideal S341x4x512 .f32) (n : Fin 341) (d : Fin 4) (r : Fin 512) :
    prob x0 (ix3 n d r) = sm4 (fun k => x0 (ix3 n k r)) d :=
  blockSoft_apply x0 _ _ _ _ n d r

/-- The products start from the constant one in every column. -/
def start : FVec Ideal S1x512 .f32 := broadcast S1x512 (Scalar.ofBits .f32 0x3F800000#32)

theorem start_apply (a : Fin 1) (r : Fin 512) : start (ix2 a r) = one := rfl

/-- Level with 1 entries per column: entry `q` of the next level is entry `q / 4` times the probability of branch `q % 4` at node `0 + q / 4`. -/
def lev1 (x0 : Vec Ideal S341x4x512 .f32) : FVec Ideal S4x512 .f32 :=
  shapeCast S4x512 (mulf (broadcastTo S1x4x512 (shapeCast S1x1x512 (start) shapeCasts_S1x512_S1x1x512) broadcasts_S1x1x512_S1x4x512)
    (extractStridedSlice S1x4x512 ![0, 0, 0] (prob x0) slices_S341x4x512_o0_0_0_S1x4x512)) shapeCasts_S1x4x512_S4x512

theorem lev1_apply (x0 : Vec Ideal S341x4x512 .f32) (q : Fin 4) (r : Fin 512) (a : Fin 1) (n : Fin 341) (d : Fin 4)
    (ha : a.val = q.val / 4) (hn : n.val = 0 + q.val / 4) (hd : d.val = q.val % 4) :
    lev1 x0 (ix2 q r) = (start) (ix2 a r) * prob x0 (ix3 n d r) := by
  have hq : q.val / 4 < 1 := by have := q.isLt; omega
  have hn' : 0 + q.val / 4 < 341 := by have := q.isLt; omega
  obtain rfl : a = ⟨q.val / 4, hq⟩ := Fin.ext ha
  obtain rfl : n = ⟨0 + q.val / 4, hn'⟩ := Fin.ext hn
  obtain rfl : d = ⟨q.val % 4, Nat.mod_lt _ (by decide)⟩ := Fin.ext hd
  exact level_apply (K := 1) (K4 := 4) (off := 0) (start) (prob x0) shapeCasts_S1x512_S1x1x512 broadcasts_S1x1x512_S1x4x512 slices_S341x4x512_o0_0_0_S1x4x512 shapeCasts_S1x4x512_S4x512 q r hq hn'

/-- Level with 4 entries per column: entry `q` of the next level is entry `q / 4` times the probability of branch `q % 4` at node `1 + q / 4`. -/
def lev2 (x0 : Vec Ideal S341x4x512 .f32) : FVec Ideal S16x512 .f32 :=
  shapeCast S16x512 (mulf (broadcastTo S4x4x512 (shapeCast S4x1x512 (lev1 x0) shapeCasts_S4x512_S4x1x512) broadcasts_S4x1x512_S4x4x512)
    (extractStridedSlice S4x4x512 ![1, 0, 0] (prob x0) slices_S341x4x512_o1_0_0_S4x4x512)) shapeCasts_S4x4x512_S16x512

theorem lev2_apply (x0 : Vec Ideal S341x4x512 .f32) (q : Fin 16) (r : Fin 512) (a : Fin 4) (n : Fin 341) (d : Fin 4)
    (ha : a.val = q.val / 4) (hn : n.val = 1 + q.val / 4) (hd : d.val = q.val % 4) :
    lev2 x0 (ix2 q r) = (lev1 x0) (ix2 a r) * prob x0 (ix3 n d r) := by
  have hq : q.val / 4 < 4 := by have := q.isLt; omega
  have hn' : 1 + q.val / 4 < 341 := by have := q.isLt; omega
  obtain rfl : a = ⟨q.val / 4, hq⟩ := Fin.ext ha
  obtain rfl : n = ⟨1 + q.val / 4, hn'⟩ := Fin.ext hn
  obtain rfl : d = ⟨q.val % 4, Nat.mod_lt _ (by decide)⟩ := Fin.ext hd
  exact level_apply (K := 4) (K4 := 16) (off := 1) (lev1 x0) (prob x0) shapeCasts_S4x512_S4x1x512 broadcasts_S4x1x512_S4x4x512 slices_S341x4x512_o1_0_0_S4x4x512 shapeCasts_S4x4x512_S16x512 q r hq hn'

/-- Level with 16 entries per column: entry `q` of the next level is entry `q / 4` times the probability of branch `q % 4` at node `5 + q / 4`. -/
def lev3 (x0 : Vec Ideal S341x4x512 .f32) : FVec Ideal S64x512 .f32 :=
  shapeCast S64x512 (mulf (broadcastTo S16x4x512 (shapeCast S16x1x512 (lev2 x0) shapeCasts_S16x512_S16x1x512) broadcasts_S16x1x512_S16x4x512)
    (extractStridedSlice S16x4x512 ![5, 0, 0] (prob x0) slices_S341x4x512_o5_0_0_S16x4x512)) shapeCasts_S16x4x512_S64x512

theorem lev3_apply (x0 : Vec Ideal S341x4x512 .f32) (q : Fin 64) (r : Fin 512) (a : Fin 16) (n : Fin 341) (d : Fin 4)
    (ha : a.val = q.val / 4) (hn : n.val = 5 + q.val / 4) (hd : d.val = q.val % 4) :
    lev3 x0 (ix2 q r) = (lev2 x0) (ix2 a r) * prob x0 (ix3 n d r) := by
  have hq : q.val / 4 < 16 := by have := q.isLt; omega
  have hn' : 5 + q.val / 4 < 341 := by have := q.isLt; omega
  obtain rfl : a = ⟨q.val / 4, hq⟩ := Fin.ext ha
  obtain rfl : n = ⟨5 + q.val / 4, hn'⟩ := Fin.ext hn
  obtain rfl : d = ⟨q.val % 4, Nat.mod_lt _ (by decide)⟩ := Fin.ext hd
  exact level_apply (K := 16) (K4 := 64) (off := 5) (lev2 x0) (prob x0) shapeCasts_S16x512_S16x1x512 broadcasts_S16x1x512_S16x4x512 slices_S341x4x512_o5_0_0_S16x4x512 shapeCasts_S16x4x512_S64x512 q r hq hn'

/-- Level with 64 entries per column: entry `q` of the next level is entry `q / 4` times the probability of branch `q % 4` at node `21 + q / 4`. -/
def lev4 (x0 : Vec Ideal S341x4x512 .f32) : FVec Ideal S256x512 .f32 :=
  shapeCast S256x512 (mulf (broadcastTo S64x4x512 (shapeCast S64x1x512 (lev3 x0) shapeCasts_S64x512_S64x1x512) broadcasts_S64x1x512_S64x4x512)
    (extractStridedSlice S64x4x512 ![21, 0, 0] (prob x0) slices_S341x4x512_o21_0_0_S64x4x512)) shapeCasts_S64x4x512_S256x512

theorem lev4_apply (x0 : Vec Ideal S341x4x512 .f32) (q : Fin 256) (r : Fin 512) (a : Fin 64) (n : Fin 341) (d : Fin 4)
    (ha : a.val = q.val / 4) (hn : n.val = 21 + q.val / 4) (hd : d.val = q.val % 4) :
    lev4 x0 (ix2 q r) = (lev3 x0) (ix2 a r) * prob x0 (ix3 n d r) := by
  have hq : q.val / 4 < 64 := by have := q.isLt; omega
  have hn' : 21 + q.val / 4 < 341 := by have := q.isLt; omega
  obtain rfl : a = ⟨q.val / 4, hq⟩ := Fin.ext ha
  obtain rfl : n = ⟨21 + q.val / 4, hn'⟩ := Fin.ext hn
  obtain rfl : d = ⟨q.val % 4, Nat.mod_lt _ (by decide)⟩ := Fin.ext hd
  exact level_apply (K := 64) (K4 := 256) (off := 21) (lev3 x0) (prob x0) shapeCasts_S64x512_S64x1x512 broadcasts_S64x1x512_S64x4x512 slices_S341x4x512_o21_0_0_S64x4x512 shapeCasts_S64x4x512_S256x512 q r hq hn'

/-- Level with 256 entries per column: entry `q` of the next level is entry `q / 4` times the probability of branch `q % 4` at node `85 + q / 4`. -/
def lev5 (x0 : Vec Ideal S341x4x512 .f32) : FVec Ideal S1024x512 .f32 :=
  shapeCast S1024x512 (mulf (broadcastTo S256x4x512 (shapeCast S256x1x512 (lev4 x0) shapeCasts_S256x512_S256x1x512) broadcasts_S256x1x512_S256x4x512)
    (extractStridedSlice S256x4x512 ![85, 0, 0] (prob x0) slices_S341x4x512_o85_0_0_S256x4x512)) shapeCasts_S256x4x512_S1024x512

theorem lev5_apply (x0 : Vec Ideal S341x4x512 .f32) (q : Fin 1024) (r : Fin 512) (a : Fin 256) (n : Fin 341) (d : Fin 4)
    (ha : a.val = q.val / 4) (hn : n.val = 85 + q.val / 4) (hd : d.val = q.val % 4) :
    lev5 x0 (ix2 q r) = (lev4 x0) (ix2 a r) * prob x0 (ix3 n d r) := by
  have hq : q.val / 4 < 256 := by have := q.isLt; omega
  have hn' : 85 + q.val / 4 < 341 := by have := q.isLt; omega
  obtain rfl : a = ⟨q.val / 4, hq⟩ := Fin.ext ha
  obtain rfl : n = ⟨85 + q.val / 4, hn'⟩ := Fin.ext hn
  obtain rfl : d = ⟨q.val % 4, Nat.mod_lt _ (by decide)⟩ := Fin.ext hd
  exact level_apply (K := 256) (K4 := 1024) (off := 85) (lev4 x0) (prob x0) shapeCasts_S256x512_S256x1x512 broadcasts_S256x1x512_S256x4x512 slices_S341x4x512_o85_0_0_S256x4x512 shapeCasts_S256x4x512_S1024x512 q r hq hn'

/-- The stored value is the transpose of the last level. -/
theorem pay_eq (x0 : Vec Ideal S341x4x512 .f32) :
    Gen.k0_pay1 (F := Ideal) x0 = transpose S512x1024 [1, 0] (lev5 x0) transposes_S1024x512_p1_0_S512x1024 := rfl

/-- THE STORED VALUE AT (r, j): the product along leaf `j`'s path of column `r`'s branch probabilities. -/
theorem pay_apply (x0 : Vec Ideal S341x4x512 .f32) (r : Fin 512) (j : Fin 1024) :
    Gen.k0_pay1 (F := Ideal) x0 (ix2 r j)
      = pathProd (fun n d => sm4 (fun k => x0 (ix3 n k r)) d) (lv0 j) (lv1 j) (lv2 j) (lv3 j) (lv4 j) j := by
  have hj := j.isLt
  rw [pay_eq, transpose_ix2_apply (lev5 x0) transposes_S1024x512_p1_0_S512x1024 r j]
  rw [lev5_apply x0 j r ⟨j.val / 4, by omega⟩ (lv4 j) (dg4 j) rfl rfl rfl,
    lev4_apply x0 ⟨j.val / 4, by omega⟩ r ⟨j.val / 16, by omega⟩ (lv3 j) (dg3 j)
      (by show j.val / 16 = j.val / 4 / 4; omega) (by show 21 + j.val / 16 = 21 + j.val / 4 / 4; omega) rfl,
    lev3_apply x0 ⟨j.val / 16, by omega⟩ r ⟨j.val / 64, by omega⟩ (lv2 j) (dg2 j)
      (by show j.val / 64 = j.val / 16 / 4; omega) (by show 5 + j.val / 64 = 5 + j.val / 16 / 4; omega) rfl,
    lev2_apply x0 ⟨j.val / 64, by omega⟩ r ⟨j.val / 256, by omega⟩ (lv1 j) (dg1 j)
      (by show j.val / 256 = j.val / 64 / 4; omega) (by show 1 + j.val / 256 = 1 + j.val / 64 / 4; omega) rfl,
    lev1_apply x0 ⟨j.val / 256, by omega⟩ r ⟨0, by omega⟩ (lv0 j) (dg0 j)
      (by show 0 = j.val / 256 / 4; omega) (by show 0 = 0 + j.val / 256 / 4; omega)
      (by show j.val / 256 % 4 = j.val / 256 % 4; rfl),
    start_apply, prob_apply, prob_apply, prob_apply, prob_apply, prob_apply]
  rfl

end Cert.KernelIdeal.KPay

end
-- ==== Proof.KBlocks.lean ====
/-
  From the blocks the grid's points write to the whole result array.

  Point `t` of the 32 reads columns `512 t … 512 t + 511` of the input array (all nodes, all branches) and writes
  rows `512 t … 512 t + 511` of the result. Row `r` of its block is tree `(row / 64, row % 64)` with
  `row = 512 t + r`: the body's value there is the tree's soft-decision value, because its softmax is taken node by
  node and the level-by-level table read through the node permutation is the depth-first one. The 32 blocks tile the
  result array, which therefore ends as one function of the argument.
-/
import proofs.«180566_j24962349924771_2_alg».proof.Proof.KHost
import proofs.«180566_j24962349924771_2_alg».proof.Proof.KPay

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

/-! ## One row of a block -/

/-- A block whose row `r` holds, at position `n` and branch `k`, the argument's score of tree `(b, t')` at node
    `perm n`: the body's value at `(r, j)` is leaf `j` of that tree. The softmax is taken node by node, so the
    rearranged table is the tree's probability table read through `perm`, and the table fact moves the path's
    positions to its depth-first nodes. -/
theorem pay_eq_G (x : S256x64x341x4.Idx → EReal) (x0 : Vec Ideal S341x4x512 .f32) (r : Fin 512) (b : Fin 256) (t' : Fin 64)
    (h : ∀ (n : Fin 341) (k : Fin 4), x0 (ix3 n k r) = x (ix4 b t' (perm n) k)) (j : Fin 1024) :
    k0_pay1 (F := Ideal) x0 (ix2 r j) = Cert.Forest.G x (ix3 b t' j) := by
  rw [Cert.KernelIdeal.KPay.pay_apply, Cert.Forest.G_apply]
  have hQ : (fun (n : Fin 341) (d : Fin 4) => Cert.Forest.sm4 (fun k => x0 (ix3 n k r)) d)
      = fun n d => Cert.Forest.probs x b t' (perm n) d := by
    funext n d
    unfold Cert.Forest.probs
    exact congrArg (fun v => Cert.Forest.sm4 v d) (funext fun k => h n k)
  rw [hQ]
  exact Cert.Forest.pathProd_rearranged (Cert.Forest.probs x b t') perm _ _ _ _ _ _ _ _ _ _
    (perm_lv0 j) (perm_lv1 j) (perm_lv2 j) (perm_lv3 j) (perm_lv4 j) j

/-! ## The result array: row `64 b + t'` is tree `(b, t')` -/

/-- The region's result array as one function of the argument: row `row`, column `j` is leaf `j` of tree
    `(row / 64, row % 64)`. -/
def treeRows (x : S256x64x341x4.Idx → EReal) : S16384x1024.Idx → EReal := fun i =>
  Cert.Forest.G x (ix3 (⟨(i 0).val / 64, by have := idx2_lt0 i; omega⟩ : Fin 256) (⟨(i 0).val % 64, by omega⟩ : Fin 64)
    (⟨(i 1).val, idx2_lt1 i⟩ : Fin 1024))

theorem treeRows_apply (x : S256x64x341x4.Idx → EReal) (row : Fin 16384) (j : Fin 1024) :
    treeRows x (ix2 row j)
      = Cert.Forest.G x (ix3 (⟨row.val / 64, by omega⟩ : Fin 256) (⟨row.val % 64, by omega⟩ : Fin 64) j) := rfl

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: point `t` reads columns `512 t …` of the input array (all nodes, all
    branches) and writes rows `512 t …` of the result (all leaves). -/
theorem idx_facts : ∀ t : Fin cfg0.N, win0_0.index t (0 : Fin 3) = 0 ∧ win0_0.index t (1 : Fin 3) = 0
    ∧ win0_0.index t (2 : Fin 3) = t.val ∧ win0_1.index t (0 : Fin 2) = t.val ∧ win0_1.index t (1 : Fin 2) = 0 :=
  (by decide +kernel : ∀ t : Fin grid0.N, _)

/-- Row `r` of point `t`'s block is row `512 t + r` of the arrays. -/
def rowOf (t : Fin cfg0.N) (r : Fin 512) : Fin 16384 :=
  ⟨512 * t.val + r.val, by have := t.isLt; have hN : cfg0.N = 32 := N_0; omega⟩

/-- The input window's block at point `t`, read at `(n, k, r)`: the input array at column `512 t + r`. -/
theorem iblk_apply (c : Dev nD) (t : Fin cfg0.N) (n : Fin 341) (k : Fin 4) (r : Fin 512) :
    (iblk m c 0 t : Vec Ideal S341x4x512 .f32) (ix3 n k r)
      = (V m c main_v6 : S341x4x16384.Idx → EReal) (ix3 n k (rowOf t r)) := by
  show (V m c main_v6 : S341x4x16384.Idx → EReal) (((cfg0.win 0).blk t).view.emb (ix3 n k r)) = _
  refine congrArg (V m c main_v6 : S341x4x16384.Idx → EReal) ?_
  obtain ⟨e0, e1, e2, -, -⟩ := idx_facts t
  funext a; apply Fin.ext
  match a with
  | ⟨0, _⟩ => show win0_0.index t (0 : Fin 3) * 341 + 1 * n.val = n.val; rw [e0]; omega
  | ⟨1, _⟩ => show win0_0.index t (1 : Fin 3) * 4 + 1 * k.val = k.val; rw [e1]; omega
  | ⟨2, _⟩ => show win0_0.index t (2 : Fin 3) * 512 + 1 * r.val = 512 * t.val + r.val; rw [e2]; omega

/-- WHAT POINT `t` WRITES BACK is block `t` of `treeRows` of the argument. -/
theorem flushed_eq (c : Dev nD) (t : Fin cfg0.N) :
    (dats m 0 c).flushed 1 t
      = ((cfg0.win 1).blk t).view.read (Elt Ideal) (treeRows (m ((c.tc : Thread nD τ).loc main_arg0))) := by
  show (cfg0.win 1).cut (grid0.coords t) ((dats m 0 c).after 1 t) = _
  rw [after0_1]
  unfold out0_1
  rw [View.canon_unit_zero hz2]
  simp only [View.ld_unit_zero (S := S341x4x512) hz3]
  funext y
  obtain ⟨r, j, rfl⟩ : ∃ (r : Fin 512) (j : Fin 1024), y = ix2 r j := ⟨y 0, y 1, eq_ix2 y⟩
  show k0_pay1 (F := Ideal) (iblk m c 0 t) (ix2 r j)
    = treeRows (m ((c.tc : Thread nD τ).loc main_arg0)) (((cfg0.win 1).blk t).view.emb (ix2 r j))
  have hemb : ((cfg0.win 1).blk t).view.emb (ix2 r j) = ix2 (rowOf t r) j := by
    obtain ⟨-, -, -, e3, e4⟩ := idx_facts t
    funext a; apply Fin.ext
    match a with
    | ⟨0, _⟩ => show win0_1.index t (0 : Fin 2) * 512 + 1 * r.val = 512 * t.val + r.val; rw [e3]; omega
    | ⟨1, _⟩ => show win0_1.index t (1 : Fin 2) * 1024 + 1 * j.val = j.val; rw [e4]; omega
  rw [hemb, treeRows_apply]
  exact pay_eq_G (m ((c.tc : Thread nD τ).loc main_arg0)) (iblk m c 0 t) r
    (⟨(rowOf t r).val / 64, by have := (rowOf t r).isLt; omega⟩ : Fin 256) (⟨(rowOf t r).val % 64, by omega⟩ : Fin 64)
    (fun n k => (iblk_apply m c t n k r).trans (v6_apply m c n k (rowOf t r))) j

/-- An index of the result array is in point `t`'s block iff each coordinate is in the block's range on its axis. -/
theorem mem_blk (t : Fin cfg0.N) (i : S16384x1024.Idx) :
    i ∈ ((cfg0.win 1).blk t).view.set ↔ ∀ a : Fin 2, win0_1.index t a * S512x1024.size a ≤ (i a).val
      ∧ (i a).val < win0_1.index t a * S512x1024.size a + S512x1024.size a := by
  show i ∈ ((View.whole main_v7).slice (win0_1.rect t)).set ↔ _
  rw [View.set_slice_whole, Rect.mem_set_unit]
  exact Iff.rfl

/-- Row `row` is written by point `row / 512`: the blocks tile the result array. -/
theorem cover (i : S16384x1024.Idx) :
    ∃ t : Fin cfg0.N, (cfg0.win 1).flush t = true ∧ i ∈ ((cfg0.win 1).blk t).view.set := by
  have hi0 : (i 0).val < 16384 := idx2_lt0 i
  have hi1 : (i 1).val < 1024 := idx2_lt1 i
  have hN : cfg0.N = 32 := N_0
  have ht : (i 0).val / 512 < cfg0.N := by omega
  refine ⟨⟨(i 0).val / 512, ht⟩, flush0_1 _, ?_⟩
  rw [mem_blk]
  obtain ⟨-, -, -, e3, e4⟩ := idx_facts ⟨(i 0).val / 512, ht⟩
  have e3' : win0_1.index ⟨(i 0).val / 512, ht⟩ (0 : Fin 2) = (i 0).val / 512 := e3
  intro a
  match a with
  | ⟨0, _⟩ =>
    show win0_1.index ⟨(i 0).val / 512, ht⟩ (0 : Fin 2) * 512 ≤ (i 0).val
      ∧ (i 0).val < win0_1.index ⟨(i 0).val / 512, ht⟩ (0 : Fin 2) * 512 + 512
    rw [e3']; omega
  | ⟨1, _⟩ =>
    show win0_1.index ⟨(i 0).val / 512, ht⟩ (1 : Fin 2) * 1024 ≤ (i 1).val
      ∧ (i 1).val < win0_1.index ⟨(i 0).val / 512, ht⟩ (1 : Fin 2) * 1024 + 1024
    rw [e4]; omega

/-- THE RESULT ARRAY after the last point: `treeRows` of the argument. -/
theorem final (c : Dev nD) :
    (dats m 0 c).arrAt 1 cfg0.N = treeRows (m ((c.tc : Thread nD τ).loc main_arg0)) :=
  (dats m 0 c).arrAt_eq_of_cover 1 (treeRows (m ((c.tc : Thread nD τ).loc main_arg0)))
    (fun t _ => flushed_eq m c t) cover

end Cert.KernelIdeal.KValue

end
-- ==== Proof.KRun.lean ====
/-
  The kernel program's run, read as the forest's value.

  After the region one host operation reshapes the result array's 16384 rows into 256 × 64 trees; row
  `64 b + t'` is tree `(b, t')`. With the result array as one function of the argument, the program's result buffer
  ends at the soft-decision value of every leaf of every tree, and the argument is left as launched.
-/
import proofs.«180566_j24962349924771_2_alg».proof.Proof.KBlocks

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable (m : (ℓ : Loc nD τ sig) → Buf (Elt Ideal) ℓ) (ρ : Dev nD → PrngReg)

/-- Row `64 b + t'` is tree `(b, t')`. -/
theorem tree_of_row (x : S256x64x341x4.Idx → EReal) (b : Fin 256) (t' : Fin 64) (j : Fin 1024) (row : Fin 16384)
    (hb : row.val / 64 < 256) (ht : row.val % 64 < 64) (h : row.val = 64 * b.val + t'.val) :
    Cert.Forest.G x (ix3 (⟨row.val / 64, hb⟩ : Fin 256) (⟨row.val % 64, ht⟩ : Fin 64) j) = Cert.Forest.G x (ix3 b t' j) := by
  have e1 : (⟨row.val / 64, hb⟩ : Fin 256) = b := Fin.ext (by show row.val / 64 = b.val; omega)
  have e2 : (⟨row.val % 64, ht⟩ : Fin 64) = t' := Fin.ext (by show row.val % 64 = t'.val; omega)
  rw [e1, e2]

/-- The host operation after the region reshapes the result array's 16384 rows into 256 × 64 trees: the
    program's result is the forest's value. -/
theorem tail_v8 (c : Dev nD) :
    (Pipeline.afterTail₀ cfgs (dats m) 0 (V0 m) [hostOps1] c main_v8 : S256x64x1024.Idx → EReal)
      = Cert.Forest.G (m ((c.tc : Thread nD τ).loc main_arg0)) := by
  unfold Pipeline.afterTail₀
  show StableHlo.after hostOps1 _ (Proc.devRef .tc main_v8) = _
  after_results
  rw [Pipeline.withArrays_arr spec0 launch0.win.arr_inj c _ _ 1]
  rw [show (dats m 0 c).arrAt 1 (cfgs 0).N = treeRows (m ((c.tc : Thread nD τ).loc main_arg0)) from final m c]
  funext i
  obtain ⟨b, t', j, rfl⟩ : ∃ (b : Fin 256) (t' : Fin 64) (j : Fin 1024), i = ix3 b t' j := ⟨i 0, i 1, i 2, eq_ix3 i⟩
  show shapeCast S256x64x1024 (treeRows (m ((c.tc : Thread nD τ).loc main_arg0))) shapeCasts_S16384x1024_S256x64x1024
    (ix3 b t' j) = _
  refine (shapeCast_apply _ _ (ix3 b t' j) (ix2 (⟨64 * b.val + t'.val, by omega⟩ : Fin 16384) j) ?_).trans ?_
  · rw [Shape.rowMajor_val_two, Shape.rowMajor_val_three]
    show (64 * b.val + t'.val) * 1024 + j.val = (b.val * 64 + t'.val) * 1024 + j.val
    omega
  rw [treeRows_apply]
  exact tree_of_row _ b t' j _ _ _ rfl

/-- THE RUN: every weakly fair execution of the program ends with the result buffer at the forest's value of the
    argument and the argument as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v8) = Cert.Forest.G (m ((c.tc : Thread nD τ).loc main_arg0))
      ∧ r.2.mem ((c.tc : Thread nD τ).loc main_arg0) = m ((c.tc : Thread nD τ).loc main_arg0)) :=
  (θ_run defs _ _).mono (fun _ h c =>
    ⟨((h c).2 main_v8 (Pipeline.mem_restRefs_of main_v8 (by decide) (by decide))).trans (tail_v8 m c),
     ((h c).2 main_arg0 (Pipeline.mem_restRefs_of main_arg0 (by decide) (by decide))).trans (W_main_arg0 m (dats m) c)⟩)
    (run_main m ρ)

end Cert.KernelIdeal.KValue

end
-- ==== Proof.RefOps.lean ====
/- The reference program as a straight line of operations, the calls unfolded at their sites, and its
   run: every weakly fair execution terminates with each buffer at the fold of the operations'
   results over the launch contents. -/
import proofs.«180566_j24962349924771_2_alg».proof.ReferenceIdeal
import Idealize.ShloMosaic.Lib.StableHlo.Run

noncomputable section

namespace Cert.ReferenceIdeal.RefRun

open Idealize.ShloMosaic Idealize.ShloMosaic.TcCoe Idealize.SL.Sem Idealize.ShloMosaic.StableHlo Cert.ReferenceIdeal

variable {F : FTy → Type} [FloatOps F] [Facts]
open Facts₀ Facts

/-- The program's 155 operations in order. Each gather call is its callee's operations at the call's own
    buffers: the index normalisation (a comparison with zero, the shifted index, the selection between them, a
    trailing unit axis), the bounds mask (two comparisons, their conjunction, its reduction over the unit axis),
    the gather, and the selection against a quiet NaN; around them the softmax and, per level, two broadcasts, a
    product and a reshape. -/
abbrev ops : List (HloOp τ sig (Elt F)) :=
  [
    nullary main_c (constantI S1 32 0#32),
    nullary main_c_0 (fun i => lit0 (S4.rowMajor i)),
    nullary main_c_1 (fun i => lit1 (S16.rowMajor i)),
    nullary main_c_2 (fun i => lit2 (S64.rowMajor i)),
    nullary main_c_3 (fun i => lit3 (S256.rowMajor i)),
    nullary main_cst (constant S_ .f32 0xFF800000#32),
    binary main_arg0 main_cst main_v0 ((fun x v => Host.reduce FloatOps.maximumf x v reducesTo_S256x64x341x4_S256x64x341_d3 h_S_) : (⟨S256x64x341x4, .f32⟩ : BufTy).Contents (Elt F) → (⟨S_, .f32⟩ : BufTy).Contents (Elt F) → (⟨S256x64x341, .f32⟩ : BufTy).Contents (Elt F)),
    nullary main_cst_4 (constant S_ .f32 0xFF800000#32),
    unary main_cst_4 main_v1 (broadcastInDim S256x64x341 ![] bcast_S_S256x64x341 : (⟨S_, .f32⟩ : BufTy).Contents (Elt F) → (⟨S256x64x341, .f32⟩ : BufTy).Contents (Elt F)),
    binary main_v1 main_v0 main_v2 (maximumf : (⟨S256x64x341, .f32⟩ : BufTy).Contents (Elt F) → (⟨S256x64x341, .f32⟩ : BufTy).Contents (Elt F) → (⟨S256x64x341, .f32⟩ : BufTy).Contents (Elt F)),
    unary main_v2 main_v3 (broadcastInDim S256x64x341x1 ![0, 1, 2] bcast_S256x64x341_S256x64x341x1_0_1_2 : (⟨S256x64x341, .f32⟩ : BufTy).Contents (Elt F) → (⟨S256x64x341x1, .f32⟩ : BufTy).Contents (Elt F)),
    unary main_v3 main_v4 (broadcastInDim S256x64x341x4 ![0, 1, 2, 3] bcast_S256x64x341x1_S256x64x341x4_0_1_2_3 : (⟨S256x64x341x1, .f32⟩ : BufTy).Contents (Elt F) → (⟨S256x64x341x4, .f32⟩ : BufTy).Contents (Elt F)),
    binary main_arg0 main_v4 main_v5 (subf : (⟨S256x64x341x4, .f32⟩ : BufTy).Contents (Elt F) → (⟨S256x64x341x4, .f32⟩ : BufTy).Contents (Elt F) → (⟨S256x64x341x4, .f32⟩ : BufTy).Contents (Elt F)),
    unary main_v5 main_v6 (Host.exp : (⟨S256x64x341x4, .f32⟩ : BufTy).Contents (Elt F) → (⟨S256x64x341x4, .f32⟩ : BufTy).Contents (Elt F)),
    nullary main_cst_5 (constant S_ .f32 0x00000000#32),
    binary main_v6 main_cst_5 main_v7 ((fun x v => Host.reduceAdd x v reducesTo_S256x64x341x4_S256x64x341_d3 h_S_) : (⟨S256x64x341x4, .f32⟩ : BufTy).Contents (Elt F) → (⟨S_, .f32⟩ : BufTy).Contents (Elt F) → (⟨S256x64x341, .f32⟩ : BufTy).Contents (Elt F)),
    unary main_v7 main_v8 (broadcastInDim S256x64x341x1 ![0, 1, 2] bcast_S256x64x341_S256x64x341x1_0_1_2 : (⟨S256x64x341, .f32⟩ : BufTy).Contents (Elt F) → (⟨S256x64x341x1, .f32⟩ : BufTy).Contents (Elt F)),
    unary main_v8 main_v9 (broadcastInDim S256x64x341x4 ![0, 1, 2, 3] bcast_S256x64x341x1_S256x64x341x4_0_1_2_3 : (⟨S256x64x341x1, .f32⟩ : BufTy).Contents (Elt F) → (⟨S256x64x341x4, .f32⟩ : BufTy).Contents (Elt F)),
    binary main_v6 main_v9 main_v10 (Host.divf : (⟨S256x64x341x4, .f32⟩ : BufTy).Contents (Elt F) → (⟨S256x64x341x4, .f32⟩ : BufTy).Contents (Elt F) → (⟨S256x64x341x4, .f32⟩ : BufTy).Contents (Elt F)),
    nullary main_cst_6 (constant S_ .f32 0x3F800000#32),
    unary main_cst_6 main_v11 (broadcastInDim S256x64x1 ![] bcast_S_S256x64x1 : (⟨S_, .f32⟩ : BufTy).Contents (Elt F) → (⟨S256x64x1, .f32⟩ : BufTy).Contents (Elt F)),
    TRef.nullary main_call0.c (constantI S_ 32 0#32),
    TRef.unary main_call0.c main_call0.v0 (broadcastInDim S1 ![] bcast_S_S1),
    TRef.binary (.of main_c : TRef sig ⟨S1, .i32⟩) main_call0.v0 main_call0.v1 (cmpi .slt),
    TRef.nullary main_call0.c_0 (constantI S_ 32 341#32),
    TRef.unary main_call0.c_0 main_call0.v2 (broadcastInDim S1 ![] bcast_S_S1),
    TRef.binary (.of main_c : TRef sig ⟨S1, .i32⟩) main_call0.v2 main_call0.v3 addi,
    TRef.ternary main_call0.v1 main_call0.v3 (.of main_c : TRef sig ⟨S1, .i32⟩) main_call0.call0.v0 select,
    TRef.unary main_call0.call0.v0 main_call0.v5 (broadcastInDim S1x1 ![0] bcast_S1_S1x1_0),
    TRef.nullary main_call0.c_1 (constantI S1 32 340#32),
    TRef.nullary main_call0.c_2 (constantI S_ 32 0#32),
    TRef.unary main_call0.c_2 main_call0.v6 (broadcastInDim S1x1 ![] bcast_S_S1x1),
    TRef.binary main_call0.v5 main_call0.v6 main_call0.v7 (cmpi .sge),
    TRef.unary main_call0.c_1 main_call0.v8 (broadcastInDim S1x1 ![1] bcast_S1_S1x1_1),
    TRef.binary main_call0.v5 main_call0.v8 main_call0.v9 (cmpi .sle),
    TRef.binary main_call0.v7 main_call0.v9 main_call0.v10 andi,
    TRef.nullary main_call0.c_3 (constantI S_ 1 1#1),
    TRef.binary main_call0.v10 main_call0.c_3 main_call0.v11 (fun x v => Host.reduce IntOp.andi x v reducesTo_S1x1_S1_d1 h_S_),
    TRef.binary (.of main_v10 : TRef sig ⟨S256x64x341x4, .f32⟩) main_call0.v5 main_call0.v12 (fun x i => Host.gather gather_S256x64x341x4_S1x1_S256x64x1x4_013_2_n_n_2_1_2566414 x i),
    TRef.unary main_call0.v11 main_call0.v13 (broadcastInDim S256x64x1x4 ![2] bcast_S1_S256x64x1x4_2),
    TRef.nullary main_call0.cst (constant S_ .f32 0x7FC00000#32),
    TRef.unary main_call0.cst main_call0.v14 (broadcastInDim S256x64x1x4 ![] bcast_S_S256x64x1x4),
    TRef.ternary main_call0.v13 main_call0.v12 main_call0.v14 main_call0.v15 select,
    unary main_v11 main_v13 (broadcastInDim S256x64x1x1 ![0, 1, 2] bcast_S256x64x1_S256x64x1x1_0_1_2 : (⟨S256x64x1, .f32⟩ : BufTy).Contents (Elt F) → (⟨S256x64x1x1, .f32⟩ : BufTy).Contents (Elt F)),
    unary main_v13 main_v14 (broadcastInDim S256x64x1x4 ![0, 1, 2, 3] bcast_S256x64x1x1_S256x64x1x4_0_1_2_3 : (⟨S256x64x1x1, .f32⟩ : BufTy).Contents (Elt F) → (⟨S256x64x1x4, .f32⟩ : BufTy).Contents (Elt F)),
    binary main_v14 main_v12 main_v15 (mulf : (⟨S256x64x1x4, .f32⟩ : BufTy).Contents (Elt F) → (⟨S256x64x1x4, .f32⟩ : BufTy).Contents (Elt F) → (⟨S256x64x1x4, .f32⟩ : BufTy).Contents (Elt F)),
    reshape main_v15 main_v16 rfl shapeCasts_S256x64x1x4_S256x64x4,
    TRef.nullary main_call1.c (constantI S_ 32 0#32),
    TRef.unary main_call1.c main_call1.v0 (broadcastInDim S4 ![] bcast_S_S4),
    TRef.binary (.of main_c_0 : TRef sig ⟨S4, .i32⟩) main_call1.v0 main_call1.v1 (cmpi .slt),
    TRef.nullary main_call1.c_0 (constantI S_ 32 341#32),
    TRef.unary main_call1.c_0 main_call1.v2 (broadcastInDim S4 ![] bcast_S_S4),
    TRef.binary (.of main_c_0 : TRef sig ⟨S4, .i32⟩) main_call1.v2 main_call1.v3 addi,
    TRef.ternary main_call1.v1 main_call1.v3 (.of main_c_0 : TRef sig ⟨S4, .i32⟩) main_call1.call0.v0 select,
    TRef.unary main_call1.call0.v0 main_call1.v5 (broadcastInDim S4x1 ![0] bcast_S4_S4x1_0),
    TRef.nullary main_call1.c_1 (constantI S1 32 340#32),
    TRef.nullary main_call1.c_2 (constantI S_ 32 0#32),
    TRef.unary main_call1.c_2 main_call1.v6 (broadcastInDim S4x1 ![] bcast_S_S4x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S4x1 ![0, 1] bcast_S1x1_S4x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4x1_S4_d1 h_S_),
    TRef.binary (.of main_v10 : TRef sig ⟨S256x64x341x4, .f32⟩) main_call1.v5 main_call1.v13 (fun x i => Host.gather gather_S256x64x341x4_S4x1_S256x64x4x4_013_2_n_n_2_1_2566414 x i),
    TRef.unary main_call1.v12 main_call1.v14 (broadcastInDim S256x64x4x4 ![2] bcast_S4_S256x64x4x4_2),
    TRef.nullary main_call1.cst (constant S_ .f32 0x7FC00000#32),
    TRef.unary main_call1.cst main_call1.v15 (broadcastInDim S256x64x4x4 ![] bcast_S_S256x64x4x4),
    TRef.ternary main_call1.v14 main_call1.v13 main_call1.v15 main_call1.v16 select,
    unary main_v16 main_v18 (broadcastInDim S256x64x4x1 ![0, 1, 2] bcast_S256x64x4_S256x64x4x1_0_1_2 : (⟨S256x64x4, .f32⟩ : BufTy).Contents (Elt F) → (⟨S256x64x4x1, .f32⟩ : BufTy).Contents (Elt F)),
    unary main_v18 main_v19 (broadcastInDim S256x64x4x4 ![0, 1, 2, 3] bcast_S256x64x4x1_S256x64x4x4_0_1_2_3 : (⟨S256x64x4x1, .f32⟩ : BufTy).Contents (Elt F) → (⟨S256x64x4x4, .f32⟩ : BufTy).Contents (Elt F)),
    binary main_v19 main_v17 main_v20 (mulf : (⟨S256x64x4x4, .f32⟩ : BufTy).Contents (Elt F) → (⟨S256x64x4x4, .f32⟩ : BufTy).Contents (Elt F) → (⟨S256x64x4x4, .f32⟩ : BufTy).Contents (Elt F)),
    reshape main_v20 main_v21 rfl shapeCasts_S256x64x4x4_S256x64x16,
    TRef.nullary main_call2.c (constantI S_ 32 0#32),
    TRef.unary main_call2.c main_call2.v0 (broadcastInDim S16 ![] bcast_S_S16),
    TRef.binary (.of main_c_1 : TRef sig ⟨S16, .i32⟩) main_call2.v0 main_call2.v1 (cmpi .slt),
    TRef.nullary main_call2.c_0 (constantI S_ 32 341#32),
    TRef.unary main_call2.c_0 main_call2.v2 (broadcastInDim S16 ![] bcast_S_S16),
    TRef.binary (.of main_c_1 : TRef sig ⟨S16, .i32⟩) main_call2.v2 main_call2.v3 addi,
    TRef.ternary main_call2.v1 main_call2.v3 (.of main_c_1 : TRef sig ⟨S16, .i32⟩) main_call2.call0.v0 select,
    TRef.unary main_call2.call0.v0 main_call2.v5 (broadcastInDim S16x1 ![0] bcast_S16_S16x1_0),
    TRef.nullary main_call2.c_1 (constantI S1 32 340#32),
    TRef.nullary main_call2.c_2 (constantI S_ 32 0#32),
    TRef.unary main_call2.c_2 main_call2.v6 (broadcastInDim S16x1 ![] bcast_S_S16x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S16x1 ![0, 1] bcast_S1x1_S16x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S16x1_S16_d1 h_S_),
    TRef.binary (.of main_v10 : TRef sig ⟨S256x64x341x4, .f32⟩) main_call2.v5 main_call2.v13 (fun x i => Host.gather gather_S256x64x341x4_S16x1_S256x64x16x4_013_2_n_n_2_1_2566414 x i),
    TRef.unary main_call2.v12 main_call2.v14 (broadcastInDim S256x64x16x4 ![2] bcast_S16_S256x64x16x4_2),
    TRef.nullary main_call2.cst (constant S_ .f32 0x7FC00000#32),
    TRef.unary main_call2.cst main_call2.v15 (broadcastInDim S256x64x16x4 ![] bcast_S_S256x64x16x4),
    TRef.ternary main_call2.v14 main_call2.v13 main_call2.v15 main_call2.v16 select,
    unary main_v21 main_v23 (broadcastInDim S256x64x16x1 ![0, 1, 2] bcast_S256x64x16_S256x64x16x1_0_1_2 : (⟨S256x64x16, .f32⟩ : BufTy).Contents (Elt F) → (⟨S256x64x16x1, .f32⟩ : BufTy).Contents (Elt F)),
    unary main_v23 main_v24 (broadcastInDim S256x64x16x4 ![0, 1, 2, 3] bcast_S256x64x16x1_S256x64x16x4_0_1_2_3 : (⟨S256x64x16x1, .f32⟩ : BufTy).Contents (Elt F) → (⟨S256x64x16x4, .f32⟩ : BufTy).Contents (Elt F)),
    binary main_v24 main_v22 main_v25 (mulf : (⟨S256x64x16x4, .f32⟩ : BufTy).Contents (Elt F) → (⟨S256x64x16x4, .f32⟩ : BufTy).Contents (Elt F) → (⟨S256x64x16x4, .f32⟩ : BufTy).Contents (Elt F)),
    reshape main_v25 main_v26 rfl shapeCasts_S256x64x16x4_S256x64x64,
    TRef.nullary main_call3.c (constantI S_ 32 0#32),
    TRef.unary main_call3.c main_call3.v0 (broadcastInDim S64 ![] bcast_S_S64),
    TRef.binary (.of main_c_2 : TRef sig ⟨S64, .i32⟩) main_call3.v0 main_call3.v1 (cmpi .slt),
    TRef.nullary main_call3.c_0 (constantI S_ 32 341#32),
    TRef.unary main_call3.c_0 main_call3.v2 (broadcastInDim S64 ![] bcast_S_S64),
    TRef.binary (.of main_c_2 : TRef sig ⟨S64, .i32⟩) main_call3.v2 main_call3.v3 addi,
    TRef.ternary main_call3.v1 main_call3.v3 (.of main_c_2 : TRef sig ⟨S64, .i32⟩) main_call3.call0.v0 select,
    TRef.unary main_call3.call0.v0 main_call3.v5 (broadcastInDim S64x1 ![0] bcast_S64_S64x1_0),
    TRef.nullary main_call3.c_1 (constantI S1 32 340#32),
    TRef.nullary main_call3.c_2 (constantI S_ 32 0#32),
    TRef.unary main_call3.c_2 main_call3.v6 (broadcastInDim S64x1 ![] bcast_S_S64x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S64x1 ![0, 1] bcast_S1x1_S64x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S64x1_S64_d1 h_S_),
    TRef.binary (.of main_v10 : TRef sig ⟨S256x64x341x4, .f32⟩) main_call3.v5 main_call3.v13 (fun x i => Host.gather gather_S256x64x341x4_S64x1_S256x64x64x4_013_2_n_n_2_1_2566414 x i),
    TRef.unary main_call3.v12 main_call3.v14 (broadcastInDim S256x64x64x4 ![2] bcast_S64_S256x64x64x4_2),
    TRef.nullary main_call3.cst (constant S_ .f32 0x7FC00000#32),
    TRef.unary main_call3.cst main_call3.v15 (broadcastInDim S256x64x64x4 ![] bcast_S_S256x64x64x4),
    TRef.ternary main_call3.v14 main_call3.v13 main_call3.v15 main_call3.v16 select,
    unary main_v26 main_v28 (broadcastInDim S256x64x64x1 ![0, 1, 2] bcast_S256x64x64_S256x64x64x1_0_1_2 : (⟨S256x64x64, .f32⟩ : BufTy).Contents (Elt F) → (⟨S256x64x64x1, .f32⟩ : BufTy).Contents (Elt F)),
    unary main_v28 main_v29 (broadcastInDim S256x64x64x4 ![0, 1, 2, 3] bcast_S256x64x64x1_S256x64x64x4_0_1_2_3 : (⟨S256x64x64x1, .f32⟩ : BufTy).Contents (Elt F) → (⟨S256x64x64x4, .f32⟩ : BufTy).Contents (Elt F)),
    binary main_v29 main_v27 main_v30 (mulf : (⟨S256x64x64x4, .f32⟩ : BufTy).Contents (Elt F) → (⟨S256x64x64x4, .f32⟩ : BufTy).Contents (Elt F) → (⟨S256x64x64x4, .f32⟩ : BufTy).Contents (Elt F)),
    reshape main_v30 main_v31 rfl shapeCasts_S256x64x64x4_S256x64x256,
    TRef.nullary main_call4.c (constantI S_ 32 0#32),
    TRef.unary main_call4.c main_call4.v0 (broadcastInDim S256 ![] bcast_S_S256),
    TRef.binary (.of main_c_3 : TRef sig ⟨S256, .i32⟩) main_call4.v0 main_call4.v1 (cmpi .slt),
    TRef.nullary main_call4.c_0 (constantI S_ 32 341#32),
    TRef.unary main_call4.c_0 main_call4.v2 (broadcastInDim S256 ![] bcast_S_S256),
    TRef.binary (.of main_c_3 : TRef sig ⟨S256, .i32⟩) main_call4.v2 main_call4.v3 addi,
    TRef.ternary main_call4.v1 main_call4.v3 (.of main_c_3 : TRef sig ⟨S256, .i32⟩) main_call4.call0.v0 select,
    TRef.unary main_call4.call0.v0 main_call4.v5 (broadcastInDim S256x1 ![0] bcast_S256_S256x1_0),
    TRef.nullary main_call4.c_1 (constantI S1 32 340#32),
    TRef.nullary main_call4.c_2 (constantI S_ 32 0#32),
    TRef.unary main_call4.c_2 main_call4.v6 (broadcastInDim S256x1 ![] bcast_S_S256x1),
    TRef.binary main_call4.v5 main_call4.v6 main_call4.v7 (cmpi .sge),
    TRef.unary main_call4.c_1 main_call4.v8 (broadcastInDim S1x1 ![1] bcast_S1_S1x1_1),
    TRef.unary main_call4.v8 main_call4.v9 (broadcastInDim S256x1 ![0, 1] bcast_S1x1_S256x1_0_1),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S256x1_S256_d1 h_S_),
    TRef.binary (.of main_v10 : TRef sig ⟨S256x64x341x4, .f32⟩) main_call4.v5 main_call4.v13 (fun x i => Host.gather gather_S256x64x341x4_S256x1_S256x64x256x4_013_2_n_n_2_1_2566414 x i),
    TRef.unary main_call4.v12 main_call4.v14 (broadcastInDim S256x64x256x4 ![2] bcast_S256_S256x64x256x4_2),
    TRef.nullary main_call4.cst (constant S_ .f32 0x7FC00000#32),
    TRef.unary main_call4.cst main_call4.v15 (broadcastInDim S256x64x256x4 ![] bcast_S_S256x64x256x4),
    TRef.ternary main_call4.v14 main_call4.v13 main_call4.v15 main_call4.v16 select,
    unary main_v31 main_v33 (broadcastInDim S256x64x256x1 ![0, 1, 2] bcast_S256x64x256_S256x64x256x1_0_1_2 : (⟨S256x64x256, .f32⟩ : BufTy).Contents (Elt F) → (⟨S256x64x256x1, .f32⟩ : BufTy).Contents (Elt F)),
    unary main_v33 main_v34 (broadcastInDim S256x64x256x4 ![0, 1, 2, 3] bcast_S256x64x256x1_S256x64x256x4_0_1_2_3 : (⟨S256x64x256x1, .f32⟩ : BufTy).Contents (Elt F) → (⟨S256x64x256x4, .f32⟩ : BufTy).Contents (Elt F)),
    binary main_v34 main_v32 main_v35 (mulf : (⟨S256x64x256x4, .f32⟩ : BufTy).Contents (Elt F) → (⟨S256x64x256x4, .f32⟩ : BufTy).Contents (Elt F) → (⟨S256x64x256x4, .f32⟩ : BufTy).Contents (Elt F)),
    reshape main_v35 main_v36 rfl shapeCasts_S256x64x256x4_S256x64x1024 ]

set_option maxRecDepth 16384 in
set_option maxHeartbeats 4000000 in
/-- The program is that straight line: the callees unfolded at their calls and the sequencing reassociated,
    both sides are one chain of steps. -/
theorem main_eq (c : Dev nD) : main (F := F) c = seq ops := by
  simp only [main, fn_where.body, fn_take.body, fn_where_1.body, fn_take_0.body, fn_where_3.body, fn_take_2.body, fn_where_5.body, fn_take_4.body, fn_where_7.body, fn_take_6.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., nullary_bufs_sub .., nullary_bufs_sub .., nullary_bufs_sub .., nullary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub .., nullary_bufs_sub .., unary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., unary_bufs_sub .., unary_bufs_sub .., binary_bufs_sub .., reshape_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., unary_bufs_sub .., unary_bufs_sub ..,
    binary_bufs_sub .., reshape_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., unary_bufs_sub .., unary_bufs_sub .., binary_bufs_sub .., reshape_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., unary_bufs_sub .., unary_bufs_sub ..,
    binary_bufs_sub .., reshape_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., unary_bufs_sub .., unary_bufs_sub .., binary_bufs_sub .., reshape_bufs_sub ..⟩

/-- At the compiled mesh, for any float values, from any memory with zero counters: every weakly fair execution of
    the program on the TensorCores terminates, and every final state has each TensorCore buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  run_seq scopedRefs_eq scopedSems_eq defs main (fun _ => ops) main_eq (fun _ => ops_sub) m ρ

end Cert.ReferenceIdeal.RefRun

end
-- ==== Proof.RefTerm.lean ====
/- The reference program's result as a closed term of its argument: the softmax over the last axis,
   then five levels of a tree product, each level a gather of softmax columns at a constant index
   table, a multiplication by the previous level's values repeated four times, and a flattening of
   the last two axes. Every definition is the composition of the program's operations in the
   program's order; no memory and no valuation occur. -/
import proofs.«180566_j24962349924771_2_alg».proof.ReferenceIdeal

noncomputable section

namespace Cert.ReferenceIdeal.RefRun

open Idealize.ShloMosaic Idealize.SL.Sem Cert.ReferenceIdeal

variable {F : FTy → Type} [FloatOps F] [Facts]
open Facts₀ Facts

/-! ## The softmax over the last axis -/

/-- The row maximum over the last axis, floored at `-∞`. -/
def smax (x : FVec F S256x64x341x4 .f32) : FVec F S256x64x341 .f32 :=
  maximumf (broadcastInDim S256x64x341 ![] bcast_S_S256x64x341 (constant S_ .f32 0xFF800000#32))
    (Host.reduce FloatOps.maximumf x (constant (F := F) S_ .f32 0xFF800000#32) reducesTo_S256x64x341x4_S256x64x341_d3 h_S_)

/-- The exponential of the argument less its row maximum. -/
def sexp (x : FVec F S256x64x341x4 .f32) : FVec F S256x64x341x4 .f32 :=
  Host.exp (subf x
    (broadcastInDim S256x64x341x4 ![0, 1, 2, 3] bcast_S256x64x341x1_S256x64x341x4_0_1_2_3
      (broadcastInDim S256x64x341x1 ![0, 1, 2] bcast_S256x64x341_S256x64x341x1_0_1_2 (smax x))))

/-- The softmax over the last axis: the exponentials divided by their row sum. -/
def soft (x : FVec F S256x64x341x4 .f32) : FVec F S256x64x341x4 .f32 :=
  Host.divf (sexp x)
    (broadcastInDim S256x64x341x4 ![0, 1, 2, 3] bcast_S256x64x341x1_S256x64x341x4_0_1_2_3
      (broadcastInDim S256x64x341x1 ![0, 1, 2] bcast_S256x64x341_S256x64x341x1_0_1_2
        (Host.reduceAdd (sexp x) (constant (F := F) S_ .f32 0x00000000#32) reducesTo_S256x64x341x4_S256x64x341_d3 h_S_)))

/-- The root level's values: all ones. -/
def ones : FVec F S256x64x1 .f32 :=
  broadcastInDim S256x64x1 ![] bcast_S_S256x64x1 (constant S_ .f32 0x3F800000#32)

/-! ## The index tables -/

def tab1 : IVec S1 32 := constantI S1 32 0#32
def tab4 : IVec S4 32 := fun i => lit0 (S4.rowMajor i)
def tab16 : IVec S16 32 := fun i => lit1 (S16.rowMajor i)
def tab64 : IVec S64 32 := fun i => lit2 (S64.rowMajor i)
def tab256 : IVec S256 32 := fun i => lit3 (S256.rowMajor i)

/-! ## Index normalisation: a negative index counts from the end (`i + 341`), then a trailing unit axis -/

def idx1 (i : IVec S1 32) : IVec S1x1 32 :=
  broadcastInDim S1x1 ![0] bcast_S1_S1x1_0
    (select (cmpi .slt i (broadcastInDim S1 ![] bcast_S_S1 (constantI S_ 32 0#32)))
      (addi i (broadcastInDim S1 ![] bcast_S_S1 (constantI S_ 32 341#32))) i)
def idx4 (i : IVec S4 32) : IVec S4x1 32 :=
  broadcastInDim S4x1 ![0] bcast_S4_S4x1_0
    (select (cmpi .slt i (broadcastInDim S4 ![] bcast_S_S4 (constantI S_ 32 0#32)))
      (addi i (broadcastInDim S4 ![] bcast_S_S4 (constantI S_ 32 341#32))) i)
def idx16 (i : IVec S16 32) : IVec S16x1 32 :=
  broadcastInDim S16x1 ![0] bcast_S16_S16x1_0
    (select (cmpi .slt i (broadcastInDim S16 ![] bcast_S_S16 (constantI S_ 32 0#32)))
      (addi i (broadcastInDim S16 ![] bcast_S_S16 (constantI S_ 32 341#32))) i)
def idx64 (i : IVec S64 32) : IVec S64x1 32 :=
  broadcastInDim S64x1 ![0] bcast_S64_S64x1_0
    (select (cmpi .slt i (broadcastInDim S64 ![] bcast_S_S64 (constantI S_ 32 0#32)))
      (addi i (broadcastInDim S64 ![] bcast_S_S64 (constantI S_ 32 341#32))) i)
def idx256 (i : IVec S256 32) : IVec S256x1 32 :=
  broadcastInDim S256x1 ![0] bcast_S256_S256x1_0
    (select (cmpi .slt i (broadcastInDim S256 ![] bcast_S_S256 (constantI S_ 32 0#32)))
      (addi i (broadcastInDim S256 ![] bcast_S_S256 (constantI S_ 32 341#32))) i)

/-! ## The in-bounds mask: `0 ≤ i' ≤ 340`, conjoined over the trailing unit axis -/

def mask1 (i' : IVec S1x1 32) : IVec S1 1 :=
  Host.reduce IntOp.andi
    (andi (cmpi .sge i' (broadcastInDim S1x1 ![] bcast_S_S1x1 (constantI S_ 32 0#32)))
      (cmpi .sle i' (broadcastInDim S1x1 ![1] bcast_S1_S1x1_1 (constantI S1 32 340#32))))
    (constantI S_ 1 1#1) reducesTo_S1x1_S1_d1 h_S_
def mask4 (i' : IVec S4x1 32) : IVec S4 1 :=
  Host.reduce IntOp.andi
    (andi (cmpi .sge i' (broadcastInDim S4x1 ![] bcast_S_S4x1 (constantI S_ 32 0#32)))
      (cmpi .sle i' (broadcastInDim S4x1 ![0, 1] bcast_S1x1_S4x1_0_1 (broadcastInDim S1x1 ![1] bcast_S1_S1x1_1 (constantI S1 32 340#32)))))
    (constantI S_ 1 1#1) reducesTo_S4x1_S4_d1 h_S_
def mask16 (i' : IVec S16x1 32) : IVec S16 1 :=
  Host.reduce IntOp.andi
    (andi (cmpi .sge i' (broadcastInDim S16x1 ![] bcast_S_S16x1 (constantI S_ 32 0#32)))
      (cmpi .sle i' (broadcastInDim S16x1 ![0, 1] bcast_S1x1_S16x1_0_1 (broadcastInDim S1x1 ![1] bcast_S1_S1x1_1 (constantI S1 32 340#32)))))
    (constantI S_ 1 1#1) reducesTo_S16x1_S16_d1 h_S_
def mask64 (i' : IVec S64x1 32) : IVec S64 1 :=
  Host.reduce IntOp.andi
    (andi (cmpi .sge i' (broadcastInDim S64x1 ![] bcast_S_S64x1 (constantI S_ 32 0#32)))
      (cmpi .sle i' (broadcastInDim S64x1 ![0, 1] bcast_S1x1_S64x1_0_1 (broadcastInDim S1x1 ![1] bcast_S1_S1x1_1 (constantI S1 32 340#32)))))
    (constantI S_ 1 1#1) reducesTo_S64x1_S64_d1 h_S_
def mask256 (i' : IVec S256x1 32) : IVec S256 1 :=
  Host.reduce IntOp.andi
    (andi (cmpi .sge i' (broadcastInDim S256x1 ![] bcast_S_S256x1 (constantI S_ 32 0#32)))
      (cmpi .sle i' (broadcastInDim S256x1 ![0, 1] bcast_S1x1_S256x1_0_1 (broadcastInDim S1x1 ![1] bcast_S1_S1x1_1 (constantI S1 32 340#32)))))
    (constantI S_ 1 1#1) reducesTo_S256x1_S256_d1 h_S_

/-! ## The gather of columns along the third axis, a quiet NaN where the index is out of bounds -/

def take1 (p : FVec F S256x64x341x4 .f32) (i : IVec S1 32) : FVec F S256x64x1x4 .f32 :=
  select (broadcastInDim S256x64x1x4 ![2] bcast_S1_S256x64x1x4_2 (mask1 (idx1 i)))
    (Host.gather gather_S256x64x341x4_S1x1_S256x64x1x4_013_2_n_n_2_1_2566414 p (idx1 i))
    (broadcastInDim S256x64x1x4 ![] bcast_S_S256x64x1x4 (constant S_ .f32 0x7FC00000#32))
def take4 (p : FVec F S256x64x341x4 .f32) (i : IVec S4 32) : FVec F S256x64x4x4 .f32 :=
  select (broadcastInDim S256x64x4x4 ![2] bcast_S4_S256x64x4x4_2 (mask4 (idx4 i)))
    (Host.gather gather_S256x64x341x4_S4x1_S256x64x4x4_013_2_n_n_2_1_2566414 p (idx4 i))
    (broadcastInDim S256x64x4x4 ![] bcast_S_S256x64x4x4 (constant S_ .f32 0x7FC00000#32))
def take16 (p : FVec F S256x64x341x4 .f32) (i : IVec S16 32) : FVec F S256x64x16x4 .f32 :=
  select (broadcastInDim S256x64x16x4 ![2] bcast_S16_S256x64x16x4_2 (mask16 (idx16 i)))
    (Host.gather gather_S256x64x341x4_S16x1_S256x64x16x4_013_2_n_n_2_1_2566414 p (idx16 i))
    (broadcastInDim S256x64x16x4 ![] bcast_S_S256x64x16x4 (constant S_ .f32 0x7FC00000#32))
def take64 (p : FVec F S256x64x341x4 .f32) (i : IVec S64 32) : FVec F S256x64x64x4 .f32 :=
  select (broadcastInDim S256x64x64x4 ![2] bcast_S64_S256x64x64x4_2 (mask64 (idx64 i)))
    (Host.gather gather_S256x64x341x4_S64x1_S256x64x64x4_013_2_n_n_2_1_2566414 p (idx64 i))
    (broadcastInDim S256x64x64x4 ![] bcast_S_S256x64x64x4 (constant S_ .f32 0x7FC00000#32))
def take256 (p : FVec F S256x64x341x4 .f32) (i : IVec S256 32) : FVec F S256x64x256x4 .f32 :=
  select (broadcastInDim S256x64x256x4 ![2] bcast_S256_S256x64x256x4_2 (mask256 (idx256 i)))
    (Host.gather gather_S256x64x341x4_S256x1_S256x64x256x4_013_2_n_n_2_1_2566414 p (idx256 i))
    (broadcastInDim S256x64x256x4 ![] bcast_S_S256x64x256x4 (constant S_ .f32 0x7FC00000#32))

/-! ## One tree level: each value times its four gathered children, the last two axes flattened -/

def step1 (w : FVec F S256x64x1 .f32) (pl : FVec F S256x64x1x4 .f32) : FVec F S256x64x4 .f32 :=
  shapeCast S256x64x4
    (mulf (broadcastInDim S256x64x1x4 ![0, 1, 2, 3] bcast_S256x64x1x1_S256x64x1x4_0_1_2_3
        (broadcastInDim S256x64x1x1 ![0, 1, 2] bcast_S256x64x1_S256x64x1x1_0_1_2 w)) pl)
    shapeCasts_S256x64x1x4_S256x64x4
def step4 (w : FVec F S256x64x4 .f32) (pl : FVec F S256x64x4x4 .f32) : FVec F S256x64x16 .f32 :=
  shapeCast S256x64x16
    (mulf (broadcastInDim S256x64x4x4 ![0, 1, 2, 3] bcast_S256x64x4x1_S256x64x4x4_0_1_2_3
        (broadcastInDim S256x64x4x1 ![0, 1, 2] bcast_S256x64x4_S256x64x4x1_0_1_2 w)) pl)
    shapeCasts_S256x64x4x4_S256x64x16
def step16 (w : FVec F S256x64x16 .f32) (pl : FVec F S256x64x16x4 .f32) : FVec F S256x64x64 .f32 :=
  shapeCast S256x64x64
    (mulf (broadcastInDim S256x64x16x4 ![0, 1, 2, 3] bcast_S256x64x16x1_S256x64x16x4_0_1_2_3
        (broadcastInDim S256x64x16x1 ![0, 1, 2] bcast_S256x64x16_S256x64x16x1_0_1_2 w)) pl)
    shapeCasts_S256x64x16x4_S256x64x64
def step64 (w : FVec F S256x64x64 .f32) (pl : FVec F S256x64x64x4 .f32) : FVec F S256x64x256 .f32 :=
  shapeCast S256x64x256
    (mulf (broadcastInDim S256x64x64x4 ![0, 1, 2, 3] bcast_S256x64x64x1_S256x64x64x4_0_1_2_3
        (broadcastInDim S256x64x64x1 ![0, 1, 2] bcast_S256x64x64_S256x64x64x1_0_1_2 w)) pl)
    shapeCasts_S256x64x64x4_S256x64x256
def step256 (w : FVec F S256x64x256 .f32) (pl : FVec F S256x64x256x4 .f32) : FVec F S256x64x1024 .f32 :=
  shapeCast S256x64x1024
    (mulf (broadcastInDim S256x64x256x4 ![0, 1, 2, 3] bcast_S256x64x256x1_S256x64x256x4_0_1_2_3
        (broadcastInDim S256x64x256x1 ![0, 1, 2] bcast_S256x64x256_S256x64x256x1_0_1_2 w)) pl)
    shapeCasts_S256x64x256x4_S256x64x1024

/-- The program's result of its argument. -/
def refOut (x : FVec F S256x64x341x4 .f32) : FVec F S256x64x1024 .f32 :=
  step256 (step64 (step16 (step4 (step1 ones (take1 (soft x) tab1)) (take4 (soft x) tab4)) (take16 (soft x) tab16))
    (take64 (soft x) tab64)) (take256 (soft x) tab256)

end Cert.ReferenceIdeal.RefRun

end
-- ==== Proof.RefOut.lean ====
/- The reference program's result buffer after its operations is the closed term of its argument, and the
   argument's buffer is unchanged: the line of operations is cut at the softmax and after each level, each piece
   read back on its own, and the pieces composed. -/
import proofs.«180566_j24962349924771_2_alg».proof.Proof.RefOps
import proofs.«180566_j24962349924771_2_alg».proof.Proof.RefTerm
import Idealize.ShloMosaic.Lib.Pipeline.Frame

noncomputable section

namespace Cert.ReferenceIdeal.RefRun

open Idealize.ShloMosaic Idealize.ShloMosaic.TcCoe Idealize.SL.Sem Idealize.ShloMosaic.StableHlo Cert.ReferenceIdeal

variable {F : FTy → Type} [FloatOps F] [Facts]
open Facts₀ Facts

/-! ## The line in six pieces: the softmax with the constants, then one piece per level -/

abbrev opsA : List (HloOp τ sig (Elt F)) :=
  [
    nullary main_c (constantI S1 32 0#32),
    nullary main_c_0 (fun i => lit0 (S4.rowMajor i)),
    nullary main_c_1 (fun i => lit1 (S16.rowMajor i)),
    nullary main_c_2 (fun i => lit2 (S64.rowMajor i)),
    nullary main_c_3 (fun i => lit3 (S256.rowMajor i)),
    nullary main_cst (constant S_ .f32 0xFF800000#32),
    binary main_arg0 main_cst main_v0 ((fun x v => Host.reduce FloatOps.maximumf x v reducesTo_S256x64x341x4_S256x64x341_d3 h_S_) : (⟨S256x64x341x4, .f32⟩ : BufTy).Contents (Elt F) → (⟨S_, .f32⟩ : BufTy).Contents (Elt F) → (⟨S256x64x341, .f32⟩ : BufTy).Contents (Elt F)),
    nullary main_cst_4 (constant S_ .f32 0xFF800000#32),
    unary main_cst_4 main_v1 (broadcastInDim S256x64x341 ![] bcast_S_S256x64x341 : (⟨S_, .f32⟩ : BufTy).Contents (Elt F) → (⟨S256x64x341, .f32⟩ : BufTy).Contents (Elt F)),
    binary main_v1 main_v0 main_v2 (maximumf : (⟨S256x64x341, .f32⟩ : BufTy).Contents (Elt F) → (⟨S256x64x341, .f32⟩ : BufTy).Contents (Elt F) → (⟨S256x64x341, .f32⟩ : BufTy).Contents (Elt F)),
    unary main_v2 main_v3 (broadcastInDim S256x64x341x1 ![0, 1, 2] bcast_S256x64x341_S256x64x341x1_0_1_2 : (⟨S256x64x341, .f32⟩ : BufTy).Contents (Elt F) → (⟨S256x64x341x1, .f32⟩ : BufTy).Contents (Elt F)),
    unary main_v3 main_v4 (broadcastInDim S256x64x341x4 ![0, 1, 2, 3] bcast_S256x64x341x1_S256x64x341x4_0_1_2_3 : (⟨S256x64x341x1, .f32⟩ : BufTy).Contents (Elt F) → (⟨S256x64x341x4, .f32⟩ : BufTy).Contents (Elt F)),
    binary main_arg0 main_v4 main_v5 (subf : (⟨S256x64x341x4, .f32⟩ : BufTy).Contents (Elt F) → (⟨S256x64x341x4, .f32⟩ : BufTy).Contents (Elt F) → (⟨S256x64x341x4, .f32⟩ : BufTy).Contents (Elt F)),
    unary main_v5 main_v6 (Host.exp : (⟨S256x64x341x4, .f32⟩ : BufTy).Contents (Elt F) → (⟨S256x64x341x4, .f32⟩ : BufTy).Contents (Elt F)),
    nullary main_cst_5 (constant S_ .f32 0x00000000#32),
    binary main_v6 main_cst_5 main_v7 ((fun x v => Host.reduceAdd x v reducesTo_S256x64x341x4_S256x64x341_d3 h_S_) : (⟨S256x64x341x4, .f32⟩ : BufTy).Contents (Elt F) → (⟨S_, .f32⟩ : BufTy).Contents (Elt F) → (⟨S256x64x341, .f32⟩ : BufTy).Contents (Elt F)),
    unary main_v7 main_v8 (broadcastInDim S256x64x341x1 ![0, 1, 2] bcast_S256x64x341_S256x64x341x1_0_1_2 : (⟨S256x64x341, .f32⟩ : BufTy).Contents (Elt F) → (⟨S256x64x341x1, .f32⟩ : BufTy).Contents (Elt F)),
    unary main_v8 main_v9 (broadcastInDim S256x64x341x4 ![0, 1, 2, 3] bcast_S256x64x341x1_S256x64x341x4_0_1_2_3 : (⟨S256x64x341x1, .f32⟩ : BufTy).Contents (Elt F) → (⟨S256x64x341x4, .f32⟩ : BufTy).Contents (Elt F)),
    binary main_v6 main_v9 main_v10 (Host.divf : (⟨S256x64x341x4, .f32⟩ : BufTy).Contents (Elt F) → (⟨S256x64x341x4, .f32⟩ : BufTy).Contents (Elt F) → (⟨S256x64x341x4, .f32⟩ : BufTy).Contents (Elt F)),
    nullary main_cst_6 (constant S_ .f32 0x3F800000#32),
    unary main_cst_6 main_v11 (broadcastInDim S256x64x1 ![] bcast_S_S256x64x1 : (⟨S_, .f32⟩ : BufTy).Contents (Elt F) → (⟨S256x64x1, .f32⟩ : BufTy).Contents (Elt F)) ]

abbrev opsB1 : List (HloOp τ sig (Elt F)) :=
  [
    TRef.nullary main_call0.c (constantI S_ 32 0#32),
    TRef.unary main_call0.c main_call0.v0 (broadcastInDim S1 ![] bcast_S_S1),
    TRef.binary (.of main_c : TRef sig ⟨S1, .i32⟩) main_call0.v0 main_call0.v1 (cmpi .slt),
    TRef.nullary main_call0.c_0 (constantI S_ 32 341#32),
    TRef.unary main_call0.c_0 main_call0.v2 (broadcastInDim S1 ![] bcast_S_S1),
    TRef.binary (.of main_c : TRef sig ⟨S1, .i32⟩) main_call0.v2 main_call0.v3 addi,
    TRef.ternary main_call0.v1 main_call0.v3 (.of main_c : TRef sig ⟨S1, .i32⟩) main_call0.call0.v0 select,
    TRef.unary main_call0.call0.v0 main_call0.v5 (broadcastInDim S1x1 ![0] bcast_S1_S1x1_0),
    TRef.nullary main_call0.c_1 (constantI S1 32 340#32),
    TRef.nullary main_call0.c_2 (constantI S_ 32 0#32),
    TRef.unary main_call0.c_2 main_call0.v6 (broadcastInDim S1x1 ![] bcast_S_S1x1),
    TRef.binary main_call0.v5 main_call0.v6 main_call0.v7 (cmpi .sge),
    TRef.unary main_call0.c_1 main_call0.v8 (broadcastInDim S1x1 ![1] bcast_S1_S1x1_1),
    TRef.binary main_call0.v5 main_call0.v8 main_call0.v9 (cmpi .sle),
    TRef.binary main_call0.v7 main_call0.v9 main_call0.v10 andi,
    TRef.nullary main_call0.c_3 (constantI S_ 1 1#1),
    TRef.binary main_call0.v10 main_call0.c_3 main_call0.v11 (fun x v => Host.reduce IntOp.andi x v reducesTo_S1x1_S1_d1 h_S_),
    TRef.binary (.of main_v10 : TRef sig ⟨S256x64x341x4, .f32⟩) main_call0.v5 main_call0.v12 (fun x i => Host.gather gather_S256x64x341x4_S1x1_S256x64x1x4_013_2_n_n_2_1_2566414 x i),
    TRef.unary main_call0.v11 main_call0.v13 (broadcastInDim S256x64x1x4 ![2] bcast_S1_S256x64x1x4_2),
    TRef.nullary main_call0.cst (constant S_ .f32 0x7FC00000#32),
    TRef.unary main_call0.cst main_call0.v14 (broadcastInDim S256x64x1x4 ![] bcast_S_S256x64x1x4),
    TRef.ternary main_call0.v13 main_call0.v12 main_call0.v14 main_call0.v15 select,
    unary main_v11 main_v13 (broadcastInDim S256x64x1x1 ![0, 1, 2] bcast_S256x64x1_S256x64x1x1_0_1_2 : (⟨S256x64x1, .f32⟩ : BufTy).Contents (Elt F) → (⟨S256x64x1x1, .f32⟩ : BufTy).Contents (Elt F)),
    unary main_v13 main_v14 (broadcastInDim S256x64x1x4 ![0, 1, 2, 3] bcast_S256x64x1x1_S256x64x1x4_0_1_2_3 : (⟨S256x64x1x1, .f32⟩ : BufTy).Contents (Elt F) → (⟨S256x64x1x4, .f32⟩ : BufTy).Contents (Elt F)),
    binary main_v14 main_v12 main_v15 (mulf : (⟨S256x64x1x4, .f32⟩ : BufTy).Contents (Elt F) → (⟨S256x64x1x4, .f32⟩ : BufTy).Contents (Elt F) → (⟨S256x64x1x4, .f32⟩ : BufTy).Contents (Elt F)),
    reshape main_v15 main_v16 rfl shapeCasts_S256x64x1x4_S256x64x4 ]

abbrev opsB2 : List (HloOp τ sig (Elt F)) :=
  [
    TRef.nullary main_call1.c (constantI S_ 32 0#32),
    TRef.unary main_call1.c main_call1.v0 (broadcastInDim S4 ![] bcast_S_S4),
    TRef.binary (.of main_c_0 : TRef sig ⟨S4, .i32⟩) main_call1.v0 main_call1.v1 (cmpi .slt),
    TRef.nullary main_call1.c_0 (constantI S_ 32 341#32),
    TRef.unary main_call1.c_0 main_call1.v2 (broadcastInDim S4 ![] bcast_S_S4),
    TRef.binary (.of main_c_0 : TRef sig ⟨S4, .i32⟩) main_call1.v2 main_call1.v3 addi,
    TRef.ternary main_call1.v1 main_call1.v3 (.of main_c_0 : TRef sig ⟨S4, .i32⟩) main_call1.call0.v0 select,
    TRef.unary main_call1.call0.v0 main_call1.v5 (broadcastInDim S4x1 ![0] bcast_S4_S4x1_0),
    TRef.nullary main_call1.c_1 (constantI S1 32 340#32),
    TRef.nullary main_call1.c_2 (constantI S_ 32 0#32),
    TRef.unary main_call1.c_2 main_call1.v6 (broadcastInDim S4x1 ![] bcast_S_S4x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S4x1 ![0, 1] bcast_S1x1_S4x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4x1_S4_d1 h_S_),
    TRef.binary (.of main_v10 : TRef sig ⟨S256x64x341x4, .f32⟩) main_call1.v5 main_call1.v13 (fun x i => Host.gather gather_S256x64x341x4_S4x1_S256x64x4x4_013_2_n_n_2_1_2566414 x i),
    TRef.unary main_call1.v12 main_call1.v14 (broadcastInDim S256x64x4x4 ![2] bcast_S4_S256x64x4x4_2),
    TRef.nullary main_call1.cst (constant S_ .f32 0x7FC00000#32),
    TRef.unary main_call1.cst main_call1.v15 (broadcastInDim S256x64x4x4 ![] bcast_S_S256x64x4x4),
    TRef.ternary main_call1.v14 main_call1.v13 main_call1.v15 main_call1.v16 select,
    unary main_v16 main_v18 (broadcastInDim S256x64x4x1 ![0, 1, 2] bcast_S256x64x4_S256x64x4x1_0_1_2 : (⟨S256x64x4, .f32⟩ : BufTy).Contents (Elt F) → (⟨S256x64x4x1, .f32⟩ : BufTy).Contents (Elt F)),
    unary main_v18 main_v19 (broadcastInDim S256x64x4x4 ![0, 1, 2, 3] bcast_S256x64x4x1_S256x64x4x4_0_1_2_3 : (⟨S256x64x4x1, .f32⟩ : BufTy).Contents (Elt F) → (⟨S256x64x4x4, .f32⟩ : BufTy).Contents (Elt F)),
    binary main_v19 main_v17 main_v20 (mulf : (⟨S256x64x4x4, .f32⟩ : BufTy).Contents (Elt F) → (⟨S256x64x4x4, .f32⟩ : BufTy).Contents (Elt F) → (⟨S256x64x4x4, .f32⟩ : BufTy).Contents (Elt F)),
    reshape main_v20 main_v21 rfl shapeCasts_S256x64x4x4_S256x64x16 ]

abbrev opsB3 : List (HloOp τ sig (Elt F)) :=
  [
    TRef.nullary main_call2.c (constantI S_ 32 0#32),
    TRef.unary main_call2.c main_call2.v0 (broadcastInDim S16 ![] bcast_S_S16),
    TRef.binary (.of main_c_1 : TRef sig ⟨S16, .i32⟩) main_call2.v0 main_call2.v1 (cmpi .slt),
    TRef.nullary main_call2.c_0 (constantI S_ 32 341#32),
    TRef.unary main_call2.c_0 main_call2.v2 (broadcastInDim S16 ![] bcast_S_S16),
    TRef.binary (.of main_c_1 : TRef sig ⟨S16, .i32⟩) main_call2.v2 main_call2.v3 addi,
    TRef.ternary main_call2.v1 main_call2.v3 (.of main_c_1 : TRef sig ⟨S16, .i32⟩) main_call2.call0.v0 select,
    TRef.unary main_call2.call0.v0 main_call2.v5 (broadcastInDim S16x1 ![0] bcast_S16_S16x1_0),
    TRef.nullary main_call2.c_1 (constantI S1 32 340#32),
    TRef.nullary main_call2.c_2 (constantI S_ 32 0#32),
    TRef.unary main_call2.c_2 main_call2.v6 (broadcastInDim S16x1 ![] bcast_S_S16x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S16x1 ![0, 1] bcast_S1x1_S16x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S16x1_S16_d1 h_S_),
    TRef.binary (.of main_v10 : TRef sig ⟨S256x64x341x4, .f32⟩) main_call2.v5 main_call2.v13 (fun x i => Host.gather gather_S256x64x341x4_S16x1_S256x64x16x4_013_2_n_n_2_1_2566414 x i),
    TRef.unary main_call2.v12 main_call2.v14 (broadcastInDim S256x64x16x4 ![2] bcast_S16_S256x64x16x4_2),
    TRef.nullary main_call2.cst (constant S_ .f32 0x7FC00000#32),
    TRef.unary main_call2.cst main_call2.v15 (broadcastInDim S256x64x16x4 ![] bcast_S_S256x64x16x4),
    TRef.ternary main_call2.v14 main_call2.v13 main_call2.v15 main_call2.v16 select,
    unary main_v21 main_v23 (broadcastInDim S256x64x16x1 ![0, 1, 2] bcast_S256x64x16_S256x64x16x1_0_1_2 : (⟨S256x64x16, .f32⟩ : BufTy).Contents (Elt F) → (⟨S256x64x16x1, .f32⟩ : BufTy).Contents (Elt F)),
    unary main_v23 main_v24 (broadcastInDim S256x64x16x4 ![0, 1, 2, 3] bcast_S256x64x16x1_S256x64x16x4_0_1_2_3 : (⟨S256x64x16x1, .f32⟩ : BufTy).Contents (Elt F) → (⟨S256x64x16x4, .f32⟩ : BufTy).Contents (Elt F)),
    binary main_v24 main_v22 main_v25 (mulf : (⟨S256x64x16x4, .f32⟩ : BufTy).Contents (Elt F) → (⟨S256x64x16x4, .f32⟩ : BufTy).Contents (Elt F) → (⟨S256x64x16x4, .f32⟩ : BufTy).Contents (Elt F)),
    reshape main_v25 main_v26 rfl shapeCasts_S256x64x16x4_S256x64x64 ]

abbrev opsB4 : List (HloOp τ sig (Elt F)) :=
  [
    TRef.nullary main_call3.c (constantI S_ 32 0#32),
    TRef.unary main_call3.c main_call3.v0 (broadcastInDim S64 ![] bcast_S_S64),
    TRef.binary (.of main_c_2 : TRef sig ⟨S64, .i32⟩) main_call3.v0 main_call3.v1 (cmpi .slt),
    TRef.nullary main_call3.c_0 (constantI S_ 32 341#32),
    TRef.unary main_call3.c_0 main_call3.v2 (broadcastInDim S64 ![] bcast_S_S64),
    TRef.binary (.of main_c_2 : TRef sig ⟨S64, .i32⟩) main_call3.v2 main_call3.v3 addi,
    TRef.ternary main_call3.v1 main_call3.v3 (.of main_c_2 : TRef sig ⟨S64, .i32⟩) main_call3.call0.v0 select,
    TRef.unary main_call3.call0.v0 main_call3.v5 (broadcastInDim S64x1 ![0] bcast_S64_S64x1_0),
    TRef.nullary main_call3.c_1 (constantI S1 32 340#32),
    TRef.nullary main_call3.c_2 (constantI S_ 32 0#32),
    TRef.unary main_call3.c_2 main_call3.v6 (broadcastInDim S64x1 ![] bcast_S_S64x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S64x1 ![0, 1] bcast_S1x1_S64x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S64x1_S64_d1 h_S_),
    TRef.binary (.of main_v10 : TRef sig ⟨S256x64x341x4, .f32⟩) main_call3.v5 main_call3.v13 (fun x i => Host.gather gather_S256x64x341x4_S64x1_S256x64x64x4_013_2_n_n_2_1_2566414 x i),
    TRef.unary main_call3.v12 main_call3.v14 (broadcastInDim S256x64x64x4 ![2] bcast_S64_S256x64x64x4_2),
    TRef.nullary main_call3.cst (constant S_ .f32 0x7FC00000#32),
    TRef.unary main_call3.cst main_call3.v15 (broadcastInDim S256x64x64x4 ![] bcast_S_S256x64x64x4),
    TRef.ternary main_call3.v14 main_call3.v13 main_call3.v15 main_call3.v16 select,
    unary main_v26 main_v28 (broadcastInDim S256x64x64x1 ![0, 1, 2] bcast_S256x64x64_S256x64x64x1_0_1_2 : (⟨S256x64x64, .f32⟩ : BufTy).Contents (Elt F) → (⟨S256x64x64x1, .f32⟩ : BufTy).Contents (Elt F)),
    unary main_v28 main_v29 (broadcastInDim S256x64x64x4 ![0, 1, 2, 3] bcast_S256x64x64x1_S256x64x64x4_0_1_2_3 : (⟨S256x64x64x1, .f32⟩ : BufTy).Contents (Elt F) → (⟨S256x64x64x4, .f32⟩ : BufTy).Contents (Elt F)),
    binary main_v29 main_v27 main_v30 (mulf : (⟨S256x64x64x4, .f32⟩ : BufTy).Contents (Elt F) → (⟨S256x64x64x4, .f32⟩ : BufTy).Contents (Elt F) → (⟨S256x64x64x4, .f32⟩ : BufTy).Contents (Elt F)),
    reshape main_v30 main_v31 rfl shapeCasts_S256x64x64x4_S256x64x256 ]

abbrev opsB5 : List (HloOp τ sig (Elt F)) :=
  [
    TRef.nullary main_call4.c (constantI S_ 32 0#32),
    TRef.unary main_call4.c main_call4.v0 (broadcastInDim S256 ![] bcast_S_S256),
    TRef.binary (.of main_c_3 : TRef sig ⟨S256, .i32⟩) main_call4.v0 main_call4.v1 (cmpi .slt),
    TRef.nullary main_call4.c_0 (constantI S_ 32 341#32),
    TRef.unary main_call4.c_0 main_call4.v2 (broadcastInDim S256 ![] bcast_S_S256),
    TRef.binary (.of main_c_3 : TRef sig ⟨S256, .i32⟩) main_call4.v2 main_call4.v3 addi,
    TRef.ternary main_call4.v1 main_call4.v3 (.of main_c_3 : TRef sig ⟨S256, .i32⟩) main_call4.call0.v0 select,
    TRef.unary main_call4.call0.v0 main_call4.v5 (broadcastInDim S256x1 ![0] bcast_S256_S256x1_0),
    TRef.nullary main_call4.c_1 (constantI S1 32 340#32),
    TRef.nullary main_call4.c_2 (constantI S_ 32 0#32),
    TRef.unary main_call4.c_2 main_call4.v6 (broadcastInDim S256x1 ![] bcast_S_S256x1),
    TRef.binary main_call4.v5 main_call4.v6 main_call4.v7 (cmpi .sge),
    TRef.unary main_call4.c_1 main_call4.v8 (broadcastInDim S1x1 ![1] bcast_S1_S1x1_1),
    TRef.unary main_call4.v8 main_call4.v9 (broadcastInDim S256x1 ![0, 1] bcast_S1x1_S256x1_0_1),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S256x1_S256_d1 h_S_),
    TRef.binary (.of main_v10 : TRef sig ⟨S256x64x341x4, .f32⟩) main_call4.v5 main_call4.v13 (fun x i => Host.gather gather_S256x64x341x4_S256x1_S256x64x256x4_013_2_n_n_2_1_2566414 x i),
    TRef.unary main_call4.v12 main_call4.v14 (broadcastInDim S256x64x256x4 ![2] bcast_S256_S256x64x256x4_2),
    TRef.nullary main_call4.cst (constant S_ .f32 0x7FC00000#32),
    TRef.unary main_call4.cst main_call4.v15 (broadcastInDim S256x64x256x4 ![] bcast_S_S256x64x256x4),
    TRef.ternary main_call4.v14 main_call4.v13 main_call4.v15 main_call4.v16 select,
    unary main_v31 main_v33 (broadcastInDim S256x64x256x1 ![0, 1, 2] bcast_S256x64x256_S256x64x256x1_0_1_2 : (⟨S256x64x256, .f32⟩ : BufTy).Contents (Elt F) → (⟨S256x64x256x1, .f32⟩ : BufTy).Contents (Elt F)),
    unary main_v33 main_v34 (broadcastInDim S256x64x256x4 ![0, 1, 2, 3] bcast_S256x64x256x1_S256x64x256x4_0_1_2_3 : (⟨S256x64x256x1, .f32⟩ : BufTy).Contents (Elt F) → (⟨S256x64x256x4, .f32⟩ : BufTy).Contents (Elt F)),
    binary main_v34 main_v32 main_v35 (mulf : (⟨S256x64x256x4, .f32⟩ : BufTy).Contents (Elt F) → (⟨S256x64x256x4, .f32⟩ : BufTy).Contents (Elt F) → (⟨S256x64x256x4, .f32⟩ : BufTy).Contents (Elt F)),
    reshape main_v35 main_v36 rfl shapeCasts_S256x64x256x4_S256x64x1024 ]

theorem ops_eq : (ops : List (HloOp τ sig (Elt F))) = opsA ++ (opsB1 ++ (opsB2 ++ (opsB3 ++ (opsB4 ++ opsB5)))) := rfl

-- the reductions, the gather and the host's elementwise functions stay folded: the equations below never look inside them
attribute [local irreducible] Host.reduce Host.reduceAdd Host.gather Host.exp Host.divf

set_option maxRecDepth 8192

/-! ## The softmax and the constants -/

theorem A_v10 (V : Valuation τ sig (Elt F)) : after opsA V (main_v10 : DevRef τ sig) = soft (V (main_arg0 : DevRef τ sig)) := by
  after_results_simp
  rfl
theorem A_v11 (V : Valuation τ sig (Elt F)) : after opsA V (main_v11 : DevRef τ sig) = ones := by
  after_results_simp
  rfl
theorem A_c (V : Valuation τ sig (Elt F)) : after opsA V (main_c : DevRef τ sig) = tab1 := by
  after_results_simp
  rfl
theorem A_c_0 (V : Valuation τ sig (Elt F)) : after opsA V (main_c_0 : DevRef τ sig) = tab4 := by
  after_results_simp
  rfl
theorem A_c_1 (V : Valuation τ sig (Elt F)) : after opsA V (main_c_1 : DevRef τ sig) = tab16 := by
  after_results_simp
  rfl
theorem A_c_2 (V : Valuation τ sig (Elt F)) : after opsA V (main_c_2 : DevRef τ sig) = tab64 := by
  after_results_simp
  rfl
theorem A_c_3 (V : Valuation τ sig (Elt F)) : after opsA V (main_c_3 : DevRef τ sig) = tab256 := by
  after_results_simp
  rfl
theorem A_arg0 (V : Valuation τ sig (Elt F)) : after opsA V (main_arg0 : DevRef τ sig) = V (main_arg0 : DevRef τ sig) := by
  after_results_simp

/-! ## Level 1 -/

theorem B1_out (W : Valuation τ sig (Elt F)) : after opsB1 W (main_v16 : DevRef τ sig) = step1 (W (main_v11 : DevRef τ sig)) (take1 (W (main_v10 : DevRef τ sig)) (W (main_c : DevRef τ sig))) := by
  after_results_simp
  rfl
theorem B1_arg0 (W : Valuation τ sig (Elt F)) : after opsB1 W (main_arg0 : DevRef τ sig) = W (main_arg0 : DevRef τ sig) := by
  after_results_simp
theorem B1_v10 (W : Valuation τ sig (Elt F)) : after opsB1 W (main_v10 : DevRef τ sig) = W (main_v10 : DevRef τ sig) := by
  after_results_simp
theorem B1_c_0 (W : Valuation τ sig (Elt F)) : after opsB1 W (main_c_0 : DevRef τ sig) = W (main_c_0 : DevRef τ sig) := by
  after_results_simp
theorem B1_c_1 (W : Valuation τ sig (Elt F)) : after opsB1 W (main_c_1 : DevRef τ sig) = W (main_c_1 : DevRef τ sig) := by
  after_results_simp
theorem B1_c_2 (W : Valuation τ sig (Elt F)) : after opsB1 W (main_c_2 : DevRef τ sig) = W (main_c_2 : DevRef τ sig) := by
  after_results_simp
theorem B1_c_3 (W : Valuation τ sig (Elt F)) : after opsB1 W (main_c_3 : DevRef τ sig) = W (main_c_3 : DevRef τ sig) := by
  after_results_simp

/-! ## Level 2 -/

theorem B2_out (W : Valuation τ sig (Elt F)) : after opsB2 W (main_v21 : DevRef τ sig) = step4 (W (main_v16 : DevRef τ sig)) (take4 (W (main_v10 : DevRef τ sig)) (W (main_c_0 : DevRef τ sig))) := by
  after_results_simp
  rfl
theorem B2_arg0 (W : Valuation τ sig (Elt F)) : after opsB2 W (main_arg0 : DevRef τ sig) = W (main_arg0 : DevRef τ sig) := by
  after_results_simp
theorem B2_v10 (W : Valuation τ sig (Elt F)) : after opsB2 W (main_v10 : DevRef τ sig) = W (main_v10 : DevRef τ sig) := by
  after_results_simp
theorem B2_c_1 (W : Valuation τ sig (Elt F)) : after opsB2 W (main_c_1 : DevRef τ sig) = W (main_c_1 : DevRef τ sig) := by
  after_results_simp
theorem B2_c_2 (W : Valuation τ sig (Elt F)) : after opsB2 W (main_c_2 : DevRef τ sig) = W (main_c_2 : DevRef τ sig) := by
  after_results_simp
theorem B2_c_3 (W : Valuation τ sig (Elt F)) : after opsB2 W (main_c_3 : DevRef τ sig) = W (main_c_3 : DevRef τ sig) := by
  after_results_simp

/-! ## Level 3 -/

theorem B3_out (W : Valuation τ sig (Elt F)) : after opsB3 W (main_v26 : DevRef τ sig) = step16 (W (main_v21 : DevRef τ sig)) (take16 (W (main_v10 : DevRef τ sig)) (W (main_c_1 : DevRef τ sig))) := by
  after_results_simp
  rfl
theorem B3_arg0 (W : Valuation τ sig (Elt F)) : after opsB3 W (main_arg0 : DevRef τ sig) = W (main_arg0 : DevRef τ sig) := by
  after_results_simp
theorem B3_v10 (W : Valuation τ sig (Elt F)) : after opsB3 W (main_v10 : DevRef τ sig) = W (main_v10 : DevRef τ sig) := by
  after_results_simp
theorem B3_c_2 (W : Valuation τ sig (Elt F)) : after opsB3 W (main_c_2 : DevRef τ sig) = W (main_c_2 : DevRef τ sig) := by
  after_results_simp
theorem B3_c_3 (W : Valuation τ sig (Elt F)) : after opsB3 W (main_c_3 : DevRef τ sig) = W (main_c_3 : DevRef τ sig) := by
  after_results_simp

/-! ## Level 4 -/

theorem B4_out (W : Valuation τ sig (Elt F)) : after opsB4 W (main_v31 : DevRef τ sig) = step64 (W (main_v26 : DevRef τ sig)) (take64 (W (main_v10 : DevRef τ sig)) (W (main_c_2 : DevRef τ sig))) := by
  after_results_simp
  rfl
theorem B4_arg0 (W : Valuation τ sig (Elt F)) : after opsB4 W (main_arg0 : DevRef τ sig) = W (main_arg0 : DevRef τ sig) := by
  after_results_simp
theorem B4_v10 (W : Valuation τ sig (Elt F)) : after opsB4 W (main_v10 : DevRef τ sig) = W (main_v10 : DevRef τ sig) := by
  after_results_simp
theorem B4_c_3 (W : Valuation τ sig (Elt F)) : after opsB4 W (main_c_3 : DevRef τ sig) = W (main_c_3 : DevRef τ sig) := by
  after_results_simp

/-! ## Level 5 -/

theorem B5_out (W : Valuation τ sig (Elt F)) : after opsB5 W (main_v36 : DevRef τ sig) = step256 (W (main_v31 : DevRef τ sig)) (take256 (W (main_v10 : DevRef τ sig)) (W (main_c_3 : DevRef τ sig))) := by
  after_results_simp
  rfl
theorem B5_arg0 (W : Valuation τ sig (Elt F)) : after opsB5 W (main_arg0 : DevRef τ sig) = W (main_arg0 : DevRef τ sig) := by
  after_results_simp

/-! ## The pieces composed -/

theorem out_eq (V : Valuation τ sig (Elt F)) :
    StableHlo.after ops V (main_v36 : DevRef τ sig) = refOut (V (main_arg0 : DevRef τ sig)) := by
  rw [ops_eq, StableHlo.after_append, StableHlo.after_append, StableHlo.after_append, StableHlo.after_append,
    StableHlo.after_append]
  rw [B5_out, B4_out, B4_v10, B4_c_3, B3_out, B3_v10, B3_c_2, B3_c_3, B2_out, B2_v10, B2_c_1, B2_c_2, B2_c_3,
    B1_out, B1_v10, B1_c_0, B1_c_1, B1_c_2, B1_c_3, A_v10, A_v11, A_c, A_c_0, A_c_1, A_c_2, A_c_3]
  rfl

theorem arg0_eq (V : Valuation τ sig (Elt F)) :
    StableHlo.after ops V (main_arg0 : DevRef τ sig) = V (main_arg0 : DevRef τ sig) := by
  rw [ops_eq, StableHlo.after_append, StableHlo.after_append, StableHlo.after_append, StableHlo.after_append,
    StableHlo.after_append]
  rw [B5_arg0, B4_arg0, B3_arg0, B2_arg0, B1_arg0, A_arg0]

end Cert.ReferenceIdeal.RefRun

end
-- ==== Proof.RefSoft.lean ====
/-
  The reference's softmax over the last axis, read at an index.

  For each tree (b, t) and node n the reference takes the maximum of the four scores (a reduce over the last axis
  from −∞, then once more the maximum with −∞), repeats it along the last axis (a unit axis appended, then
  broadcast), subtracts, exponentiates, sums the four exponentials (a reduce from zero), repeats the sum the same
  way and divides. At (b, t, n, d) this is the softmax `sm4` of the four scores `x (b, t, n, ·)` at branch `d`.
-/
import proofs.«180566_j24962349924771_2_alg».proof.Proof.RefTerm
import proofs.«180566_j24962349924771_2_alg».proof.Proof.Spec
import Idealize.ShloMosaic.PureOps.Ideal.Laws
import Idealize.ShloMosaic.Lib.Pipeline.Value

noncomputable section

namespace Cert.Forest

open Idealize.ShloMosaic Idealize.ShloMosaic.ValueIdx

/-- A quantity per (tree, tree, entry) repeated along a new last axis of length four reads, at any last
    coordinate, as itself: the unit axis appended, then broadcast. -/
theorem lastAxisBroadcast_apply {α : Type} {N : Nat} (M : (⟨3, ![256, 64, N]⟩ : Shape).Idx → α)
    (h1 : (⟨3, ![256, 64, N]⟩ : Shape).BroadcastsInDim ⟨4, ![256, 64, N, 1]⟩ ![0, 1, 2])
    (h2 : (⟨4, ![256, 64, N, 1]⟩ : Shape).BroadcastsInDim ⟨4, ![256, 64, N, 4]⟩ ![0, 1, 2, 3])
    (b : Fin 256) (t : Fin 64) (n : Fin N) (d : Fin 4) :
    broadcastInDim ⟨4, ![256, 64, N, 4]⟩ ![0, 1, 2, 3] h2 (broadcastInDim ⟨4, ![256, 64, N, 1]⟩ ![0, 1, 2] h1 M) (ix4 b t n d)
      = M (ix3 b t n) := by
  have hn := n.isLt
  refine (broadcastInDim_apply _ h2 _ (ix4 b t n d) (ix4 b t n (0 : Fin 1)) ?_).trans ?_
  · intro a
    match a with
    | ⟨0, _⟩ => rfl
    | ⟨1, _⟩ => rfl
    | ⟨2, _⟩ =>
      show n.val = if N = 1 then 0 else n.val
      split
      · omega
      · rfl
    | ⟨3, _⟩ => rfl
  · refine broadcastInDim_apply _ h1 _ (ix4 b t n (0 : Fin 1)) (ix3 b t n) ?_
    intro a
    match a with
    | ⟨0, _⟩ => rfl
    | ⟨1, _⟩ => rfl
    | ⟨2, _⟩ =>
      show n.val = if N = 1 then 0 else n.val
      split
      · omega
      · rfl

abbrev Sarg : Shape := ⟨4, ![256, 64, 341, 4]⟩
abbrev Snode : Shape := ⟨3, ![256, 64, 341]⟩

/-- A reduced index with the branch put back on the last axis. -/
theorem lift_axis3 (hr : Sarg.Reduces [3] Snode) (b : Fin 256) (t : Fin 64) (n : Fin 341) (k : Fin (Sarg.size 3)) :
    hr.lift (ix3 b t n) k = ix4 b t n (⟨k.val, k.isLt⟩ : Fin 4) := by
  funext c; apply Fin.ext
  fin_cases c <;> rfl

/-- The maximum with −∞ is the identity. -/
theorem max_negInf (y : EReal) : max (Ideal.ofBits .f32 0xFF800000#32) y = y := by
  simp [Ideal.ofBits, Ideal.ieee]

end Cert.Forest

namespace Cert.ReferenceIdeal.RefRead

open Idealize.ShloMosaic Idealize.ShloMosaic.ValueIdx Cert.ReferenceIdeal Cert.ReferenceIdeal.RefRun Cert.Forest

variable [Facts]
open Facts₀

theorem reducesLast : S256x64x341x4.Reduces [3] S256x64x341 := by decide

/-- The host's maximum over the last axis, folded from −∞, at (b, t, n). -/
theorem hostMax_apply (x : FVec Ideal S256x64x341x4 .f32) (b : Fin 256) (t : Fin 64) (n : Fin 341) :
    Host.reduce FloatOps.maximumf x (constant (F := Ideal) S_ .f32 0xFF800000#32) reducesTo_S256x64x341x4_S256x64x341_d3 h_S_ (ix3 b t n)
      = mx4 (fun k => x (ix4 b t n k)) := by
  refine (Host.reduce_eq_fold_single FloatOps.maximumf x _ reducesTo_S256x64x341x4_S256x64x341_d3 reducesLast h_S_ (ix3 b t n)).trans ?_
  have hf : (x ∘ reducesLast.lift (ix3 b t n)) = fun k : Fin 4 => x (ix4 b t n k) :=
    funext fun k => congrArg x (lift_axis3 reducesLast b t n k)
  unfold mx4
  exact congrArg (fun f => Finset.fold max (Ideal.ofBits .f32 0xFF800000#32) f (Finset.univ : Finset (Fin 4))) hf

/-- The constant −∞ broadcast to every node. -/
theorem negInf_apply (b : Fin 256) (t : Fin 64) (n : Fin 341) :
    broadcastInDim S256x64x341 ![] bcast_S_S256x64x341 (constant (F := Ideal) S_ .f32 0xFF800000#32) (ix3 b t n)
      = Ideal.ofBits .f32 0xFF800000#32 := rfl

attribute [local irreducible] Host.reduce in
/-- The row maximum at (b, t, n). -/
theorem smax_apply (x : FVec Ideal S256x64x341x4 .f32) (b : Fin 256) (t : Fin 64) (n : Fin 341) :
    smax (F := Ideal) x (ix3 b t n) = mx4 (fun k => x (ix4 b t n k)) := by
  unfold smax
  refine (maximumf_apply _ _ _).trans ?_
  rw [hostMax_apply, negInf_apply, max_negInf]

/-- The exponential of a score less its row maximum, at (b, t, n, d). -/
theorem sexp_apply (x : FVec Ideal S256x64x341x4 .f32) (b : Fin 256) (t : Fin 64) (n : Fin 341) (d : Fin 4) :
    sexp (F := Ideal) x (ix4 b t n d) = Ideal.exp (x (ix4 b t n d) - mx4 (fun k => x (ix4 b t n k))) := by
  unfold sexp
  show Ideal.exp (x (ix4 b t n d) - broadcastInDim S256x64x341x4 ![0, 1, 2, 3] bcast_S256x64x341x1_S256x64x341x4_0_1_2_3
      (broadcastInDim S256x64x341x1 ![0, 1, 2] bcast_S256x64x341_S256x64x341x1_0_1_2 (smax x)) (ix4 b t n d)) = _
  rw [lastAxisBroadcast_apply (N := 341) (smax x) _ _ b t n d, smax_apply]

/-- THE SOFTMAX AT (b, t, n, d). -/
theorem soft_apply (x : FVec Ideal S256x64x341x4 .f32) (b : Fin 256) (t : Fin 64) (n : Fin 341) (d : Fin 4) :
    soft (F := Ideal) x (ix4 b t n d) = sm4 (fun k => x (ix4 b t n k)) d := by
  unfold soft
  show Ideal.div (sexp x (ix4 b t n d)) (broadcastInDim S256x64x341x4 ![0, 1, 2, 3] bcast_S256x64x341x1_S256x64x341x4_0_1_2_3
      (broadcastInDim S256x64x341x1 ![0, 1, 2] bcast_S256x64x341_S256x64x341x1_0_1_2
        (Host.reduceAdd (sexp x) (constant (F := Ideal) S_ .f32 0x00000000#32) reducesTo_S256x64x341x4_S256x64x341_d3 h_S_)) (ix4 b t n d)) = _
  rw [lastAxisBroadcast_apply (N := 341) _ _ _ b t n d, sexp_apply]
  have hs : Host.reduceAdd (sexp (F := Ideal) x) (constant (F := Ideal) S_ .f32 0x00000000#32) reducesTo_S256x64x341x4_S256x64x341_d3 h_S_ (ix3 b t n)
      = ∑ k : Fin 4, Ideal.exp (x (ix4 b t n k) - mx4 (fun k => x (ix4 b t n k))) := by
    show Ideal.hostReduceAdd reducesTo_S256x64x341x4_S256x64x341_d3 (sexp (F := Ideal) x) (Ideal.ofBits .f32 0x00000000#32) (ix3 b t n) = _
    rw [Ideal.hostReduceAdd_single _ reducesLast, Ideal.ofBits_zero_f32, zero_add]
    exact Finset.sum_congr rfl fun k _ => (congrArg (sexp (F := Ideal) x) (lift_axis3 reducesLast b t n k)).trans (sexp_apply x b t n _)
  rw [hs]
  rfl

end Cert.ReferenceIdeal.RefRead

end
-- ==== Proof.RefStep.lean ====
/-
  One level of the reference's tree product, read at an index.

  A level holds `K` running products per tree, `w : [256, 64, K]`; the gathered probabilities of the level's nodes
  are `pl : [256, 64, K, 4]`. The next level is `w` repeated along a new last axis, times `pl`, with the last two
  axes flattened to `4 K`: flattened entry `j` is entry `j / 4` times child `j % 4`.
-/
import proofs.«180566_j24962349924771_2_alg».proof.Proof.RefSoft

noncomputable section

namespace Cert.ReferenceIdeal.RefRead

open Idealize.ShloMosaic Idealize.ShloMosaic.ValueIdx Cert.ReferenceIdeal Cert.ReferenceIdeal.RefRun Cert.Forest

variable [Facts]
open Facts₀

/-- Level with 1 entries per tree: entry `j` of the next level is entry `j / 4` times child `j % 4` of the gathered probabilities. -/
theorem step1_apply (w : FVec Ideal S256x64x1 .f32) (pl : FVec Ideal S256x64x1x4 .f32) (b : Fin 256) (t : Fin 64) (j : Fin 4)
    (q : Fin 1) (d : Fin 4) (hq : q.val = j.val / 4) (hd : d.val = j.val % 4) :
    step1 (F := Ideal) w pl (ix3 b t j) = w (ix3 b t q) * pl (ix4 b t q d) := by
  unfold step1
  refine (shapeCast_apply _ shapeCasts_S256x64x1x4_S256x64x4 (ix3 b t j) (ix4 b t q d) ?_).trans ?_
  · rw [Shape.rowMajor_val_four, Shape.rowMajor_val_three]
    show ((b.val * 64 + t.val) * 1 + q.val) * 4 + d.val = (b.val * 64 + t.val) * 4 + j.val
    omega
  show broadcastInDim S256x64x1x4 ![0, 1, 2, 3] bcast_S256x64x1x1_S256x64x1x4_0_1_2_3
      (broadcastInDim S256x64x1x1 ![0, 1, 2] bcast_S256x64x1_S256x64x1x1_0_1_2 w) (ix4 b t q d) * pl (ix4 b t q d) = _
  rw [lastAxisBroadcast_apply (N := 1) w _ _ b t q d]

/-- Level with 4 entries per tree: entry `j` of the next level is entry `j / 4` times child `j % 4` of the gathered probabilities. -/
theorem step4_apply (w : FVec Ideal S256x64x4 .f32) (pl : FVec Ideal S256x64x4x4 .f32) (b : Fin 256) (t : Fin 64) (j : Fin 16)
    (q : Fin 4) (d : Fin 4) (hq : q.val = j.val / 4) (hd : d.val = j.val % 4) :
    step4 (F := Ideal) w pl (ix3 b t j) = w (ix3 b t q) * pl (ix4 b t q d) := by
  unfold step4
  refine (shapeCast_apply _ shapeCasts_S256x64x4x4_S256x64x16 (ix3 b t j) (ix4 b t q d) ?_).trans ?_
  · rw [Shape.rowMajor_val_four, Shape.rowMajor_val_three]
    show ((b.val * 64 + t.val) * 4 + q.val) * 4 + d.val = (b.val * 64 + t.val) * 16 + j.val
    omega
  show broadcastInDim S256x64x4x4 ![0, 1, 2, 3] bcast_S256x64x4x1_S256x64x4x4_0_1_2_3
      (broadcastInDim S256x64x4x1 ![0, 1, 2] bcast_S256x64x4_S256x64x4x1_0_1_2 w) (ix4 b t q d) * pl (ix4 b t q d) = _
  rw [lastAxisBroadcast_apply (N := 4) w _ _ b t q d]

/-- Level with 16 entries per tree: entry `j` of the next level is entry `j / 4` times child `j % 4` of the gathered probabilities. -/
theorem step16_apply (w : FVec Ideal S256x64x16 .f32) (pl : FVec Ideal S256x64x16x4 .f32) (b : Fin 256) (t : Fin 64) (j : Fin 64)
    (q : Fin 16) (d : Fin 4) (hq : q.val = j.val / 4) (hd : d.val = j.val % 4) :
    step16 (F := Ideal) w pl (ix3 b t j) = w (ix3 b t q) * pl (ix4 b t q d) := by
  unfold step16
  refine (shapeCast_apply _ shapeCasts_S256x64x16x4_S256x64x64 (ix3 b t j) (ix4 b t q d) ?_).trans ?_
  · rw [Shape.rowMajor_val_four, Shape.rowMajor_val_three]
    show ((b.val * 64 + t.val) * 16 + q.val) * 4 + d.val = (b.val * 64 + t.val) * 64 + j.val
    omega
  show broadcastInDim S256x64x16x4 ![0, 1, 2, 3] bcast_S256x64x16x1_S256x64x16x4_0_1_2_3
      (broadcastInDim S256x64x16x1 ![0, 1, 2] bcast_S256x64x16_S256x64x16x1_0_1_2 w) (ix4 b t q d) * pl (ix4 b t q d) = _
  rw [lastAxisBroadcast_apply (N := 16) w _ _ b t q d]

/-- Level with 64 entries per tree: entry `j` of the next level is entry `j / 4` times child `j % 4` of the gathered probabilities. -/
theorem step64_apply (w : FVec Ideal S256x64x64 .f32) (pl : FVec Ideal S256x64x64x4 .f32) (b : Fin 256) (t : Fin 64) (j : Fin 256)
    (q : Fin 64) (d : Fin 4) (hq : q.val = j.val / 4) (hd : d.val = j.val % 4) :
    step64 (F := Ideal) w pl (ix3 b t j) = w (ix3 b t q) * pl (ix4 b t q d) := by
  unfold step64
  refine (shapeCast_apply _ shapeCasts_S256x64x64x4_S256x64x256 (ix3 b t j) (ix4 b t q d) ?_).trans ?_
  · rw [Shape.rowMajor_val_four, Shape.rowMajor_val_three]
    show ((b.val * 64 + t.val) * 64 + q.val) * 4 + d.val = (b.val * 64 + t.val) * 256 + j.val
    omega
  show broadcastInDim S256x64x64x4 ![0, 1, 2, 3] bcast_S256x64x64x1_S256x64x64x4_0_1_2_3
      (broadcastInDim S256x64x64x1 ![0, 1, 2] bcast_S256x64x64_S256x64x64x1_0_1_2 w) (ix4 b t q d) * pl (ix4 b t q d) = _
  rw [lastAxisBroadcast_apply (N := 64) w _ _ b t q d]

/-- Level with 256 entries per tree: entry `j` of the next level is entry `j / 4` times child `j % 4` of the gathered probabilities. -/
theorem step256_apply (w : FVec Ideal S256x64x256 .f32) (pl : FVec Ideal S256x64x256x4 .f32) (b : Fin 256) (t : Fin 64) (j : Fin 1024)
    (q : Fin 256) (d : Fin 4) (hq : q.val = j.val / 4) (hd : d.val = j.val % 4) :
    step256 (F := Ideal) w pl (ix3 b t j) = w (ix3 b t q) * pl (ix4 b t q d) := by
  unfold step256
  refine (shapeCast_apply _ shapeCasts_S256x64x256x4_S256x64x1024 (ix3 b t j) (ix4 b t q d) ?_).trans ?_
  · rw [Shape.rowMajor_val_four, Shape.rowMajor_val_three]
    show ((b.val * 64 + t.val) * 256 + q.val) * 4 + d.val = (b.val * 64 + t.val) * 1024 + j.val
    omega
  show broadcastInDim S256x64x256x4 ![0, 1, 2, 3] bcast_S256x64x256x1_S256x64x256x4_0_1_2_3
      (broadcastInDim S256x64x256x1 ![0, 1, 2] bcast_S256x64x256_S256x64x256x1_0_1_2 w) (ix4 b t q d) * pl (ix4 b t q d) = _
  rw [lastAxisBroadcast_apply (N := 256) w _ _ b t q d]

/-- The root level's values are the constant one. -/
theorem ones_apply (b : Fin 256) (t : Fin 64) (a : Fin 1) : ones (F := Ideal) (ix3 b t a) = one := rfl

end Cert.ReferenceIdeal.RefRead

end
-- ==== Proof.RefTake.lean ====
/- The gather of a tree level's columns, read at an index. The index tables of the five levels hold the depth-first
   preorder numbers of a complete 4-ary tree's nodes at depths 0 to 4: the node at depth ℓ with digits k₀ … k_{ℓ-1}
   (base 4, most significant first) is ℓ + 85·k₀ + 21·k₁ + 5·k₂ + k₃. No entry is negative and none is past the last
   of the 341 nodes, so the index normalisation is the identity on them, the bounds mask is all ones, and the
   gather's clamp does nothing: the gathered array at (b, t, k, d) is the operand at (b, t, node k, d). -/
import proofs.«180566_j24962349924771_2_alg».proof.Proof.RefTerm
import proofs.«180566_j24962349924771_2_alg».proof.Proof.LibGatherAxis2
import Idealize.ShloMosaic.Lib.ValueIdx
import Idealize.ShloMosaic.Lib.Pipeline.Value
import Idealize.ShloMosaic.Lib.ValueLayout
import Idealize.ShloMosaic.PureOps.Reduce

noncomputable section

namespace Cert.ReferenceIdeal.RefRead

open Idealize.ShloMosaic Idealize.ShloMosaic.ValueIdx Cert.ReferenceIdeal Cert.ReferenceIdeal.RefRun

variable [Facts]
open Facts₀ Facts

/-! ## Reads through the shape operations of a gather call, at any extents -/

/-- A vector broadcast along the third of four axes, read at (b, t, k, d), is the vector at k. -/
theorem bcast_axis2_apply {A B K D : Nat} {α : Type}
    (h : (⟨1, ![K]⟩ : Shape).BroadcastsInDim ⟨4, ![A, B, K, D]⟩ (![2] : Fin 1 → Fin 4))
    (M : (⟨1, ![K]⟩ : Shape).Idx → α) (b : Fin A) (t : Fin B) (k : Fin K) (d : Fin D) :
    broadcastInDim ⟨4, ![A, B, K, D]⟩ ![2] h M (ix4 b t k d) = M (ix1 k) := by
  refine broadcastInDim_apply ![2] h M (ix4 b t k d) (ix1 k) ?_
  intro a
  match a with
  | ⟨0, _⟩ =>
    show k.val = if K = 1 then 0 else k.val
    split
    · have := k.isLt; omega
    · rfl

/-- A vector given a trailing unit axis, read at (k, 0), is the vector at k. -/
theorem bcast_col_apply {K : Nat} {α : Type}
    (h : (⟨1, ![K]⟩ : Shape).BroadcastsInDim ⟨2, ![K, 1]⟩ (![0] : Fin 1 → Fin 2))
    (v : (⟨1, ![K]⟩ : Shape).Idx → α) (k : Fin K) :
    broadcastInDim ⟨2, ![K, 1]⟩ ![0] h v (ix2 k (0 : Fin 1)) = v (ix1 k) := by
  refine broadcastInDim_apply ![0] h v (ix2 k (0 : Fin 1)) (ix1 k) ?_
  intro a
  match a with
  | ⟨0, _⟩ =>
    show k.val = if K = 1 then 0 else k.val
    split
    · have := k.isLt; omega
    · rfl

/-- A fold over the one element of an index type of size one is the body applied once. -/
theorem fold_univ_of_eq_one {α : Type} (f : α → α → α) [Std.Commutative f] [Std.Associative f] {n : Nat} (hn : n = 1)
    (b : α) (g : Fin n → α) : (Finset.univ : Finset (Fin n)).fold f b g = f (g ⟨0, by omega⟩) b := by
  subst hn
  rw [show (Finset.univ : Finset (Fin 1)) = {0} from rfl, Finset.fold_singleton]
  rfl

/-- A reduction over a trailing unit axis, read at k, is the body applied once: to the element at (k, 0) and the
    initial value. -/
theorem reduce_unitAxis_apply {K : Nat} {α : Type} (f : α → α → α) [Std.Commutative f] [Std.Associative f] {u : Shape}
    (x : (⟨2, ![K, 1]⟩ : Shape).Idx → α) (init : u.Idx → α)
    (h' : (⟨2, ![K, 1]⟩ : Shape).ReducesTo [1] ⟨1, ![K]⟩) (h : (⟨2, ![K, 1]⟩ : Shape).Reduces [1] ⟨1, ![K]⟩)
    (hu : 0 < u.numel) (k : Fin K) :
    Host.reduce f x init h' hu (ix1 k) = f (x (ix2 k (0 : Fin 1))) (init (Shape.Idx.first hu)) := by
  rw [Host.reduce_eq_fold_single f x init h' h hu (ix1 k)]
  refine (fold_univ_of_eq_one f (by rfl) _ _).trans ?_
  refine congrArg (fun z => f (x z) (init (Shape.Idx.first hu))) ?_
  funext c
  match c with
  | ⟨0, _⟩ => rfl
  | ⟨1, _⟩ => rfl

/-! ## Level of 1 node -/

/-- The level's nodes, in depth-first preorder of the complete 4-ary tree. -/
def node1 (k : Fin 1) : Fin 341 := ⟨0, by have := k.isLt; omega⟩

/-- The table's entries are neither negative nor past the last node, and read as natural numbers they are the
    level's preorder numbers. -/
theorem tab1_facts : ∀ k : Fin 1, IntOp.cmpi .slt (0#32) 0#32 = 0#1 ∧ IntOp.cmpi .sge (0#32) 0#32 = 1#1
    ∧ IntOp.cmpi .sle (0#32) 340#32 = 1#1 ∧ min (0#32).toInt.toNat 340 = 0 := by
  decide

theorem tab1_apply (k : Fin 1) : tab1 (ix1 k) = 0#32 := rfl

/-- The normalised index at (k, 0) is the table's entry: no entry is negative. -/
theorem idx1_tab (k : Fin 1) : idx1 tab1 (ix2 k (0 : Fin 1)) = 0#32 := by
  unfold idx1
  rw [bcast_col_apply, select_apply]
  show Scalar.select (IntOp.cmpi .slt (tab1 (ix1 k)) 0#32) (IntOp.addi (tab1 (ix1 k)) 341#32) (tab1 (ix1 k)) = 0#32
  rw [tab1_apply, (tab1_facts k).1, select_zero]

/-- Every entry is in bounds: the mask is all ones. -/
theorem mask1_tab (k : Fin 1) : mask1 (idx1 tab1) (ix1 k) = 1#1 := by
  unfold mask1
  rw [reduce_unitAxis_apply IntOp.andi _ _ _ (by decide) _ k]
  show IntOp.andi (IntOp.andi (IntOp.cmpi .sge (idx1 tab1 (ix2 k (0 : Fin 1))) 0#32)
    (IntOp.cmpi .sle (idx1 tab1 (ix2 k (0 : Fin 1))) 340#32)) 1#1 = 1#1
  rw [idx1_tab, (tab1_facts k).2.1, (tab1_facts k).2.2.1]
  rfl

/-- The gather of the level's columns, read at (b, t, k, d): the array at the level's k-th node. -/
theorem take1_apply (p : FVec Ideal S256x64x341x4 .f32) (b : Fin 256) (t : Fin 64) (k : Fin 1) (d : Fin 4) :
    take1 p tab1 (ix4 b t k d) = p (ix4 b t (node1 k) d) := by
  unfold take1
  rw [select_apply, bcast_axis2_apply, mask1_tab, select_one]
  rw [show gather_S256x64x341x4_S1x1_S256x64x1x4_013_2_n_n_2_1_2566414 = Cert.Lib.axis2Dims 256 64 341 4 1 gather_S256x64x341x4_S1x1_S256x64x1x4_013_2_n_n_2_1_2566414_wf from rfl,
    Cert.Lib.gatherAxis2_apply (by decide) _ p (idx1 tab1) b t k d]
  refine congrArg (fun z => p (ix4 b t z d)) (Fin.ext ?_)
  show min (idx1 tab1 (ix2 k (0 : Fin 1))).toInt.toNat (341 - 1) = 0
  rw [idx1_tab]
  exact (tab1_facts k).2.2.2

/-! ## Level of 4 nodes -/

/-- The level's nodes, in depth-first preorder of the complete 4-ary tree. -/
def node4 (k : Fin 4) : Fin 341 := ⟨1 + 85 * k.val, by have := k.isLt; omega⟩

/-- The table's entries are neither negative nor past the last node, and read as natural numbers they are the
    level's preorder numbers. -/
theorem tab4_facts : ∀ k : Fin 4, IntOp.cmpi .slt (lit0 k) 0#32 = 0#1 ∧ IntOp.cmpi .sge (lit0 k) 0#32 = 1#1
    ∧ IntOp.cmpi .sle (lit0 k) 340#32 = 1#1 ∧ min (lit0 k).toInt.toNat 340 = 1 + 85 * k.val := by
  decide

theorem tab4_apply (k : Fin 4) : tab4 (ix1 k) = lit0 k := by
  show lit0 (S4.rowMajor (ix1 k)) = lit0 k
  exact congrArg lit0 (Fin.ext (Shape.rowMajor_val_one _))

/-- The normalised index at (k, 0) is the table's entry: no entry is negative. -/
theorem idx4_tab (k : Fin 4) : idx4 tab4 (ix2 k (0 : Fin 1)) = lit0 k := by
  unfold idx4
  rw [bcast_col_apply, select_apply]
  show Scalar.select (IntOp.cmpi .slt (tab4 (ix1 k)) 0#32) (IntOp.addi (tab4 (ix1 k)) 341#32) (tab4 (ix1 k)) = lit0 k
  rw [tab4_apply, (tab4_facts k).1, select_zero]

/-- Every entry is in bounds: the mask is all ones. -/
theorem mask4_tab (k : Fin 4) : mask4 (idx4 tab4) (ix1 k) = 1#1 := by
  unfold mask4
  rw [reduce_unitAxis_apply IntOp.andi _ _ _ (by decide) _ k]
  show IntOp.andi (IntOp.andi (IntOp.cmpi .sge (idx4 tab4 (ix2 k (0 : Fin 1))) 0#32)
    (IntOp.cmpi .sle (idx4 tab4 (ix2 k (0 : Fin 1))) 340#32)) 1#1 = 1#1
  rw [idx4_tab, (tab4_facts k).2.1, (tab4_facts k).2.2.1]
  rfl

/-- The gather of the level's columns, read at (b, t, k, d): the array at the level's k-th node. -/
theorem take4_apply (p : FVec Ideal S256x64x341x4 .f32) (b : Fin 256) (t : Fin 64) (k : Fin 4) (d : Fin 4) :
    take4 p tab4 (ix4 b t k d) = p (ix4 b t (node4 k) d) := by
  unfold take4
  rw [select_apply, bcast_axis2_apply, mask4_tab, select_one]
  rw [show gather_S256x64x341x4_S4x1_S256x64x4x4_013_2_n_n_2_1_2566414 = Cert.Lib.axis2Dims 256 64 341 4 4 gather_S256x64x341x4_S4x1_S256x64x4x4_013_2_n_n_2_1_2566414_wf from rfl,
    Cert.Lib.gatherAxis2_apply (by decide) _ p (idx4 tab4) b t k d]
  refine congrArg (fun z => p (ix4 b t z d)) (Fin.ext ?_)
  show min (idx4 tab4 (ix2 k (0 : Fin 1))).toInt.toNat (341 - 1) = 1 + 85 * k.val
  rw [idx4_tab]
  exact (tab4_facts k).2.2.2

/-! ## Level of 16 nodes -/

/-- The level's nodes, in depth-first preorder of the complete 4-ary tree. -/
def node16 (k : Fin 16) : Fin 341 := ⟨2 + 85 * (k.val / 4) + 21 * (k.val % 4), by have := k.isLt; omega⟩

/-- The table's entries are neither negative nor past the last node, and read as natural numbers they are the
    level's preorder numbers. -/
theorem tab16_facts : ∀ k : Fin 16, IntOp.cmpi .slt (lit1 k) 0#32 = 0#1 ∧ IntOp.cmpi .sge (lit1 k) 0#32 = 1#1
    ∧ IntOp.cmpi .sle (lit1 k) 340#32 = 1#1 ∧ min (lit1 k).toInt.toNat 340 = 2 + 85 * (k.val / 4) + 21 * (k.val % 4) := by
  decide

theorem tab16_apply (k : Fin 16) : tab16 (ix1 k) = lit1 k := by
  show lit1 (S16.rowMajor (ix1 k)) = lit1 k
  exact congrArg lit1 (Fin.ext (Shape.rowMajor_val_one _))

/-- The normalised index at (k, 0) is the table's entry: no entry is negative. -/
theorem idx16_tab (k : Fin 16) : idx16 tab16 (ix2 k (0 : Fin 1)) = lit1 k := by
  unfold idx16
  rw [bcast_col_apply, select_apply]
  show Scalar.select (IntOp.cmpi .slt (tab16 (ix1 k)) 0#32) (IntOp.addi (tab16 (ix1 k)) 341#32) (tab16 (ix1 k)) = lit1 k
  rw [tab16_apply, (tab16_facts k).1, select_zero]

/-- Every entry is in bounds: the mask is all ones. -/
theorem mask16_tab (k : Fin 16) : mask16 (idx16 tab16) (ix1 k) = 1#1 := by
  unfold mask16
  rw [reduce_unitAxis_apply IntOp.andi _ _ _ (by decide) _ k]
  show IntOp.andi (IntOp.andi (IntOp.cmpi .sge (idx16 tab16 (ix2 k (0 : Fin 1))) 0#32)
    (IntOp.cmpi .sle (idx16 tab16 (ix2 k (0 : Fin 1))) 340#32)) 1#1 = 1#1
  rw [idx16_tab, (tab16_facts k).2.1, (tab16_facts k).2.2.1]
  rfl

/-- The gather of the level's columns, read at (b, t, k, d): the array at the level's k-th node. -/
theorem take16_apply (p : FVec Ideal S256x64x341x4 .f32) (b : Fin 256) (t : Fin 64) (k : Fin 16) (d : Fin 4) :
    take16 p tab16 (ix4 b t k d) = p (ix4 b t (node16 k) d) := by
  unfold take16
  rw [select_apply, bcast_axis2_apply, mask16_tab, select_one]
  rw [show gather_S256x64x341x4_S16x1_S256x64x16x4_013_2_n_n_2_1_2566414 = Cert.Lib.axis2Dims 256 64 341 4 16 gather_S256x64x341x4_S16x1_S256x64x16x4_013_2_n_n_2_1_2566414_wf from rfl,
    Cert.Lib.gatherAxis2_apply (by decide) _ p (idx16 tab16) b t k d]
  refine congrArg (fun z => p (ix4 b t z d)) (Fin.ext ?_)
  show min (idx16 tab16 (ix2 k (0 : Fin 1))).toInt.toNat (341 - 1) = 2 + 85 * (k.val / 4) + 21 * (k.val % 4)
  rw [idx16_tab]
  exact (tab16_facts k).2.2.2

/-! ## Level of 64 nodes -/

/-- The level's nodes, in depth-first preorder of the complete 4-ary tree. -/
def node64 (k : Fin 64) : Fin 341 := ⟨3 + 85 * (k.val / 16) + 21 * (k.val / 4 % 4) + 5 * (k.val % 4), by have := k.isLt; omega⟩

/-- The table's entries are neither negative nor past the last node, and read as natural numbers they are the
    level's preorder numbers. -/
theorem tab64_facts : ∀ k : Fin 64, IntOp.cmpi .slt (lit2 k) 0#32 = 0#1 ∧ IntOp.cmpi .sge (lit2 k) 0#32 = 1#1
    ∧ IntOp.cmpi .sle (lit2 k) 340#32 = 1#1 ∧ min (lit2 k).toInt.toNat 340 = 3 + 85 * (k.val / 16) + 21 * (k.val / 4 % 4) + 5 * (k.val % 4) := by
  decide

theorem tab64_apply (k : Fin 64) : tab64 (ix1 k) = lit2 k := by
  show lit2 (S64.rowMajor (ix1 k)) = lit2 k
  exact congrArg lit2 (Fin.ext (Shape.rowMajor_val_one _))

/-- The normalised index at (k, 0) is the table's entry: no entry is negative. -/
theorem idx64_tab (k : Fin 64) : idx64 tab64 (ix2 k (0 : Fin 1)) = lit2 k := by
  unfold idx64
  rw [bcast_col_apply, select_apply]
  show Scalar.select (IntOp.cmpi .slt (tab64 (ix1 k)) 0#32) (IntOp.addi (tab64 (ix1 k)) 341#32) (tab64 (ix1 k)) = lit2 k
  rw [tab64_apply, (tab64_facts k).1, select_zero]

/-- Every entry is in bounds: the mask is all ones. -/
theorem mask64_tab (k : Fin 64) : mask64 (idx64 tab64) (ix1 k) = 1#1 := by
  unfold mask64
  rw [reduce_unitAxis_apply IntOp.andi _ _ _ (by decide) _ k]
  show IntOp.andi (IntOp.andi (IntOp.cmpi .sge (idx64 tab64 (ix2 k (0 : Fin 1))) 0#32)
    (IntOp.cmpi .sle (idx64 tab64 (ix2 k (0 : Fin 1))) 340#32)) 1#1 = 1#1
  rw [idx64_tab, (tab64_facts k).2.1, (tab64_facts k).2.2.1]
  rfl

/-- The gather of the level's columns, read at (b, t, k, d): the array at the level's k-th node. -/
theorem take64_apply (p : FVec Ideal S256x64x341x4 .f32) (b : Fin 256) (t : Fin 64) (k : Fin 64) (d : Fin 4) :
    take64 p tab64 (ix4 b t k d) = p (ix4 b t (node64 k) d) := by
  unfold take64
  rw [select_apply, bcast_axis2_apply, mask64_tab, select_one]
  rw [show gather_S256x64x341x4_S64x1_S256x64x64x4_013_2_n_n_2_1_2566414 = Cert.Lib.axis2Dims 256 64 341 4 64 gather_S256x64x341x4_S64x1_S256x64x64x4_013_2_n_n_2_1_2566414_wf from rfl,
    Cert.Lib.gatherAxis2_apply (by decide) _ p (idx64 tab64) b t k d]
  refine congrArg (fun z => p (ix4 b t z d)) (Fin.ext ?_)
  show min (idx64 tab64 (ix2 k (0 : Fin 1))).toInt.toNat (341 - 1) = 3 + 85 * (k.val / 16) + 21 * (k.val / 4 % 4) + 5 * (k.val % 4)
  rw [idx64_tab]
  exact (tab64_facts k).2.2.2

/-! ## Level of 256 nodes -/

/-- The level's nodes, in depth-first preorder of the complete 4-ary tree. -/
def node256 (k : Fin 256) : Fin 341 := ⟨4 + 85 * (k.val / 64) + 21 * (k.val / 16 % 4) + 5 * (k.val / 4 % 4) + k.val % 4, by have := k.isLt; omega⟩

/-- The table's entries are neither negative nor past the last node, and read as natural numbers they are the
    level's preorder numbers. -/
theorem tab256_facts : ∀ k : Fin 256, IntOp.cmpi .slt (lit3 k) 0#32 = 0#1 ∧ IntOp.cmpi .sge (lit3 k) 0#32 = 1#1
    ∧ IntOp.cmpi .sle (lit3 k) 340#32 = 1#1 ∧ min (lit3 k).toInt.toNat 340 = 4 + 85 * (k.val / 64) + 21 * (k.val / 16 % 4) + 5 * (k.val / 4 % 4) + k.val % 4 := by
  decide

theorem tab256_apply (k : Fin 256) : tab256 (ix1 k) = lit3 k := by
  show lit3 (S256.rowMajor (ix1 k)) = lit3 k
  exact congrArg lit3 (Fin.ext (Shape.rowMajor_val_one _))

/-- The normalised index at (k, 0) is the table's entry: no entry is negative. -/
theorem idx256_tab (k : Fin 256) : idx256 tab256 (ix2 k (0 : Fin 1)) = lit3 k := by
  unfold idx256
  rw [bcast_col_apply, select_apply]
  show Scalar.select (IntOp.cmpi .slt (tab256 (ix1 k)) 0#32) (IntOp.addi (tab256 (ix1 k)) 341#32) (tab256 (ix1 k)) = lit3 k
  rw [tab256_apply, (tab256_facts k).1, select_zero]

/-- Every entry is in bounds: the mask is all ones. -/
theorem mask256_tab (k : Fin 256) : mask256 (idx256 tab256) (ix1 k) = 1#1 := by
  unfold mask256
  rw [reduce_unitAxis_apply IntOp.andi _ _ _ (by decide) _ k]
  show IntOp.andi (IntOp.andi (IntOp.cmpi .sge (idx256 tab256 (ix2 k (0 : Fin 1))) 0#32)
    (IntOp.cmpi .sle (idx256 tab256 (ix2 k (0 : Fin 1))) 340#32)) 1#1 = 1#1
  rw [idx256_tab, (tab256_facts k).2.1, (tab256_facts k).2.2.1]
  rfl

/-- The gather of the level's columns, read at (b, t, k, d): the array at the level's k-th node. -/
theorem take256_apply (p : FVec Ideal S256x64x341x4 .f32) (b : Fin 256) (t : Fin 64) (k : Fin 256) (d : Fin 4) :
    take256 p tab256 (ix4 b t k d) = p (ix4 b t (node256 k) d) := by
  unfold take256
  rw [select_apply, bcast_axis2_apply, mask256_tab, select_one]
  rw [show gather_S256x64x341x4_S256x1_S256x64x256x4_013_2_n_n_2_1_2566414 = Cert.Lib.axis2Dims 256 64 341 4 256 gather_S256x64x341x4_S256x1_S256x64x256x4_013_2_n_n_2_1_2566414_wf from rfl,
    Cert.Lib.gatherAxis2_apply (by decide) _ p (idx256 tab256) b t k d]
  refine congrArg (fun z => p (ix4 b t z d)) (Fin.ext ?_)
  show min (idx256 tab256 (ix2 k (0 : Fin 1))).toInt.toNat (341 - 1) = 4 + 85 * (k.val / 64) + 21 * (k.val / 16 % 4) + 5 * (k.val / 4 % 4) + k.val % 4
  rw [idx256_tab]
  exact (tab256_facts k).2.2.2

end Cert.ReferenceIdeal.RefRead

end
-- ==== Proof.RefRead.lean ====
/-
  The reference's result, read at an index, is the forest's value.

  The reference builds the running products level by level: from the constant one, each level multiplies every
  entry by the four branch probabilities (the softmax of the node's scores) of the node the level's index table
  names, and flattens. Leaf `j` descends from entries `j / 4`, `j / 16`, `j / 64`, `j / 256`, `0` of the earlier
  levels by the branches `j % 4`, `j / 4 % 4`, …; the tables hold the depth-first preorder numbers of the nodes, so
  the five nodes met are those on leaf `j`'s path.
-/
import proofs.«180566_j24962349924771_2_alg».proof.Proof.RefStep
import proofs.«180566_j24962349924771_2_alg».proof.Proof.RefTake

noncomputable section

namespace Cert.ReferenceIdeal.RefRead

open Idealize.ShloMosaic Idealize.ShloMosaic.ValueIdx Cert.ReferenceIdeal Cert.ReferenceIdeal.RefRun Cert.Forest

variable [Facts]
open Facts₀

theorem refOut_apply (x : FVec Ideal S256x64x341x4 .f32) (b : Fin 256) (t : Fin 64) (j : Fin 1024) :
    refOut (F := Ideal) x (ix3 b t j) = G x (ix3 b t j) := by
  have hj := j.isLt
  obtain ⟨q4, h4⟩ : ∃ q : Fin 256, q.val = j.val / 4 := ⟨⟨j.val / 4, by omega⟩, rfl⟩
  obtain ⟨q3, h3⟩ : ∃ q : Fin 64, q.val = q4.val / 4 := ⟨⟨q4.val / 4, by have := q4.isLt; omega⟩, rfl⟩
  obtain ⟨q2, h2⟩ : ∃ q : Fin 16, q.val = q3.val / 4 := ⟨⟨q3.val / 4, by have := q3.isLt; omega⟩, rfl⟩
  obtain ⟨q1, h1⟩ : ∃ q : Fin 4, q.val = q2.val / 4 := ⟨⟨q2.val / 4, by have := q2.isLt; omega⟩, rfl⟩
  obtain ⟨q0, h0⟩ : ∃ q : Fin 1, q.val = q1.val / 4 := ⟨⟨q1.val / 4, by have := q1.isLt; omega⟩, rfl⟩
  have e4 : node256 q4 = dfs4 j := Fin.ext (by
    show 4 + 85 * (q4.val / 64) + 21 * (q4.val / 16 % 4) + 5 * (q4.val / 4 % 4) + q4.val % 4
      = 4 + 85 * (j.val / 256) + 21 * (j.val / 64 % 4) + 5 * (j.val / 16 % 4) + j.val / 4 % 4
    omega)
  have e3 : node64 q3 = dfs3 j := Fin.ext (by
    show 3 + 85 * (q3.val / 16) + 21 * (q3.val / 4 % 4) + 5 * (q3.val % 4)
      = 3 + 85 * (j.val / 256) + 21 * (j.val / 64 % 4) + 5 * (j.val / 16 % 4)
    omega)
  have e2 : node16 q2 = dfs2 j := Fin.ext (by
    show 2 + 85 * (q2.val / 4) + 21 * (q2.val % 4) = 2 + 85 * (j.val / 256) + 21 * (j.val / 64 % 4)
    omega)
  have e1 : node4 q1 = dfs1 j := Fin.ext (by
    show 1 + 85 * q1.val = 1 + 85 * (j.val / 256)
    omega)
  have e0 : node1 q0 = dfs0 j := Fin.ext (by show (0 : Nat) = 0; rfl)
  unfold refOut
  rw [step256_apply _ _ b t j q4 (dg4 j) h4 rfl,
    step64_apply _ _ b t q4 q3 (dg3 j) h3 (by show j.val / 4 % 4 = q4.val % 4; omega),
    step16_apply _ _ b t q3 q2 (dg2 j) h2 (by show j.val / 16 % 4 = q3.val % 4; omega),
    step4_apply _ _ b t q2 q1 (dg1 j) h1 (by show j.val / 64 % 4 = q2.val % 4; omega),
    step1_apply _ _ b t q1 q0 (dg0 j) h0 (by show j.val / 256 % 4 = q1.val % 4; omega),
    ones_apply, take256_apply, take64_apply, take16_apply, take4_apply, take1_apply,
    soft_apply, soft_apply, soft_apply, soft_apply, soft_apply, e0, e1, e2, e3, e4, G_apply]
  rfl

/-- THE REFERENCE'S RESULT IS THE FOREST'S VALUE of its argument. -/
theorem refOut_eq (x : FVec Ideal S256x64x341x4 .f32) : refOut (F := Ideal) x = G x := by
  funext i
  obtain ⟨b, t, j, rfl⟩ : ∃ (b : Fin 256) (t : Fin 64) (j : Fin 1024), i = ix3 b t j := ⟨i 0, i 1, i 2, eq_ix3 i⟩
  exact refOut_apply x b t j

end Cert.ReferenceIdeal.RefRead

end
-- ==== Proof.lean ====
/-
  The certificate of a soft decision forest kernel against its reference.

  Both programs take scores `x : [256, 64, 341, 4]` — for each of 256 × 64 trees, four branch scores at each of the 341
  internal nodes of a complete 4-ary tree of five levels — and return, for each tree, the 1024 leaf values: the
  product along the leaf's path of the softmax probabilities of the branches taken (Proof/Spec.lean, `Forest.G`).

  The reference (a host program) takes the softmax over the last axis and walks the levels with constant index
  tables in depth-first preorder. The kernel first rearranges the nodes level by level (a gather by a constant
  table, a transpose, a reshape), then, on each of 32 blocks of 512 trees, takes the softmax and builds the products
  by slicing consecutive nodes; a reshape of its result follows. Over the extended reals both end at `Forest.G x`,
  operation for operation: the same maximum, the same exponentials, the same sum of four, the same quotient, and the
  same five factors multiplied from the root down; no law of arithmetic and no finiteness of the input is used.

  The three frames: the two kernel programs' are their generated frame certificates; the reference's is its run
  with the result dropped. The idealization rewrote nothing, so what it preserves is trivially true.
-/
import proofs.«180566_j24962349924771_2_alg».proof.Defs
import proofs.«180566_j24962349924771_2_alg».proof.Proof.Gen.Kernel
import proofs.«180566_j24962349924771_2_alg».proof.Proof.Gen.Kernel.Frame
import proofs.«180566_j24962349924771_2_alg».proof.Proof.Gen.KernelIdeal
import proofs.«180566_j24962349924771_2_alg».proof.Proof.Gen.KernelIdeal.Frame
import proofs.«180566_j24962349924771_2_alg».proof.Proof.Gen.ReferenceIdeal
import proofs.«180566_j24962349924771_2_alg».proof.Proof.Gen.Pre_finite_inputs
import proofs.«180566_j24962349924771_2_alg».proof.Proof.KRun
import proofs.«180566_j24962349924771_2_alg».proof.Proof.RefOut
import proofs.«180566_j24962349924771_2_alg».proof.Proof.RefRead

noncomputable section

namespace Cert.Proof

open Idealize.ShloMosaic Idealize.SL.Sem

/-- The reference's run read at its result and its argument: the result is the forest's value of the argument,
    the argument is as launched. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v36)
            = Cert.Forest.G (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)) :=
  (θ_run (Cert.ReferenceIdeal.defs (F := Ideal)) _ _).mono (fun _ h c =>
    ⟨(h c Cert.ReferenceIdeal.main_v36).trans
        ((Cert.ReferenceIdeal.RefRun.out_eq (F := Ideal) _).trans (Cert.ReferenceIdeal.RefRead.refOut_eq _)),
      (h c Cert.ReferenceIdeal.main_arg0).trans (Cert.ReferenceIdeal.RefRun.arg0_eq (F := Ideal) _)⟩)
    (Cert.ReferenceIdeal.RefRun.run_main (F := Ideal) m ρ)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run (Cert.ReferenceIdeal.defs (F := Ideal)) _ _).mono (fun _ h c => (h c).2) (reference_run m ρ)

/-- From memories agreeing on the argument both programs end at the forest's value of it. -/
theorem algebraic : Cert.algebraic_KernelIdeal_ReferenceIdeal := by
  intro m ρ m' ρ' _ hagree
  refine ⟨fun c => Cert.Forest.G (m ((c.tc : Thread Cert.KernelIdeal.nD Cert.KernelIdeal.τ).loc Cert.KernelIdeal.main_arg0)),
    Cert.KernelIdeal.KValue.run m ρ, ?_⟩
  refine (θ_run (Cert.ReferenceIdeal.defs (F := Ideal)) _ _).mono (fun _ h c => ⟨(h c).1.trans ?_, (h c).2⟩) (reference_run m' ρ')
  rw [hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
